-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v184)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v184) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x4 : Shape := ⟨2, ![800000, 4]⟩
abbrev S50000 : Shape := ⟨1, ![50000]⟩
abbrev S3x128x128 : Shape := ⟨3, ![3, 128, 128]⟩
abbrev S3x128 : Shape := ⟨2, ![3, 128]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x4 : S_.BroadcastsInDim S800000x4 (![] : Fin 0 → Fin S800000x4.rank)
  reducesTo_S800000x4_S_d0_1 : S800000x4.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1x128 .f32) (main_arg10 : FVec F S1 .f32) (main_v33 : IVec S_ 1) : IVec S_ 1 :=
  let main_v34 : FVec F S1x128 .f32 := Host.absf main_arg9
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S3x128x128 .f32) (main_arg7 : FVec F S3x128 .f32) (main_arg8 : FVec F S3x128 .f32) (main_arg9 : FVec F S1x128 .f32) (main_arg10 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : FVec F S800000x4 .f32) (main_arg3 : IVec S50000 32) (main_arg4 : FVec F S3x128x128 .f32) (main_arg5 : FVec F S3x128 .f32) (main_arg6 : FVec F S3x128x128 .f32) (main_arg7 : FVec F S3x128 .f32) (main_arg8 : FVec F S3x128 .f32) (main_arg9 : FVec F S1x128 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x4 .f32 := Host.absf main_arg2
  let main_cst_0 : FVec F S_ .f32 := constant S_ .f32 0x7F800000#32
  let main_v5 : FVec F S800000x4 .f32 := broadcastInDim S800000x4 ![] bcast_S_S800000x4 main_cst_0
  let main_v6 : IVec S800000x4 1 := cmpf .olt main_v4 main_v5
  let main_c_1 : IVec S_ 1 := constantI S_ 1 1#1
  let main_v7 : IVec S_ 1 := (fun x v => Host.reduce IntOp.andi x v reducesTo_S800000x4_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x4 : Shape := ⟨2, ![800000, 4]⟩
abbrev S50000 : Shape := ⟨1, ![50000]⟩
abbrev S3x128x128 : Shape := ⟨3, ![3, 128, 128]⟩
abbrev S3x128 : Shape := ⟨2, ![3, 128]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S128 : Shape := ⟨1, ![128]⟩
abbrev S50000x1 : Shape := ⟨2, ![50000, 1]⟩
abbrev S5000x128 : Shape := ⟨2, ![5000, 128]⟩
abbrev S5000x1 : Shape := ⟨2, ![5000, 1]⟩
abbrev S64x128 : Shape := ⟨2, ![64, 128]⟩
abbrev S128x1 : Shape := ⟨2, ![128, 1]⟩
abbrev S64x1 : Shape := ⟨2, ![64, 1]⟩
abbrev S1x1 : Shape := ⟨2, ![1, 1]⟩

abbrev nBuf : Space → Nat
  | .hbm => 233
  | .vmem => 33
  | .smem => 0
  | _ => 0

abbrev hbmTy0_0 (i : Nat) : BufTy := match i % 128 with
  | 0 => ⟨S50000x128, .f32⟩
  | 1 => ⟨S2x800000, .i32⟩
  | 2 => ⟨S800000x4, .f32⟩
  | 3 => ⟨S50000, .i32⟩
  | 4 => ⟨S3x128x128, .f32⟩
  | 5 => ⟨S3x128, .f32⟩
  | 6 => ⟨S3x128x128, .f32⟩
  | 7 => ⟨S3x128, .f32⟩
  | 8 => ⟨S3x128, .f32⟩
  | 9 => ⟨S1x128, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S800000, .i32⟩
  | 16 => ⟨S800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .i32⟩
  | 36 => ⟨S_, .f32⟩
  | 37 => ⟨S800000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S_, .f32⟩
  | 46 => ⟨S50000, .f32⟩
  | 47 => ⟨S50000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S1x128x128, .f32⟩
  | 62 => ⟨S128x128, .f32⟩
  | 63 => ⟨S1x128x128, .f32⟩
  | 64 => ⟨S128x128, .f32⟩
  | 65 => ⟨S1x128, .f32⟩
  | 66 => ⟨S128, .f32⟩
  | 67 => ⟨S1x128, .f32⟩
  | 68 => ⟨S50000x1, .f32⟩
  | 69 => ⟨S50000x128, .f32⟩
  | 70 => ⟨S1x128, .f32⟩
  | 71 => ⟨S128, .f32⟩
  | 72 => ⟨S1x128, .f32⟩
  | 73 => ⟨S128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S50000x128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S128, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S1x128x128, .f32⟩
  | 118 => ⟨S128x128, .f32⟩
  | 119 => ⟨S1x128x128, .f32⟩
  | 120 => ⟨S128x128, .f32⟩
  | 121 => ⟨S1x128, .f32⟩
  | 122 => ⟨S128, .f32⟩
  | 123 => ⟨S1x128, .f32⟩
  | 124 => ⟨S50000x1, .f32⟩
  | 125 => ⟨S50000x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S128, .f32⟩
  | 2 => ⟨S_, .f32⟩
  | 3 => ⟨S128, .f32⟩
  | 4 => ⟨S_, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S_, .f32⟩
  | 20 => ⟨S128, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S1x128x128, .f32⟩
  | 46 => ⟨S128x128, .f32⟩
  | 47 => ⟨S1x128x128, .f32⟩
  | 48 => ⟨S128x128, .f32⟩
  | 49 => ⟨S1x128, .f32⟩
  | 50 => ⟨S128, .f32⟩
  | 51 => ⟨S1x128, .f32⟩
  | 52 => ⟨S50000x1, .f32⟩
  | 53 => ⟨S50000x128, .f32⟩
  | 54 => ⟨S1x128, .f32⟩
  | 55 => ⟨S128, .f32⟩
  | 56 => ⟨S1x128, .f32⟩
  | 57 => ⟨S128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S64x128, .f32⟩
  | 90 => ⟨S50000x1, .i32⟩
  | 91 => ⟨S64x128, .f32⟩
  | 92 => ⟨S128x1, .f32⟩
  | 93 => ⟨S64x1, .f32⟩
  | 94 => ⟨S1x1, .f32⟩
  | 95 => ⟨S64x1, .f32⟩
  | 96 => ⟨S64x1, .f32⟩
  | 97 => ⟨S64x1, .f32⟩
  | 98 => ⟨S64x1, .f32⟩
  | 99 => ⟨S_, .f32⟩
  | 100 => ⟨S64x1, .f32⟩
  | 101 => ⟨S64x1, .f32⟩
  | 102 => ⟨S_, .f32⟩
  | 103 => ⟨S64x1, .f32⟩
  | 104 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1_0 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_14 : Ref sig .tc := ⟨.hbm, 104, rfl⟩
abbrev main_v75 : Ref sig .tc := ⟨.hbm, 105, rfl⟩
abbrev main_v76 : Ref sig .tc := ⟨.hbm, 106, rfl⟩
abbrev main_c_15 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_17 : Ref sig .tc := ⟨.hbm, 130, rfl⟩
abbrev main_v98 : Ref sig .tc := ⟨.hbm, 131, rfl⟩
abbrev main_cst_18 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_19 : Ref sig .tc := ⟨.hbm, 139, rfl⟩
abbrev main_v105 : Ref sig .tc := ⟨.hbm, 140, rfl⟩
abbrev main_cst_20 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_21 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_22 : Ref sig .tc := ⟨.hbm, 160, rfl⟩
abbrev main_v123 : Ref sig .tc := ⟨.hbm, 161, rfl⟩
abbrev main_v124 : Ref sig .tc := ⟨.hbm, 162, rfl⟩
abbrev main_c_23 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_24 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_25 : Ref sig .tc := ⟨.hbm, 186, rfl⟩
abbrev main_v146 : Ref sig .tc := ⟨.hbm, 187, rfl⟩
abbrev main_cst_26 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_27 : Ref sig .tc := ⟨.hbm, 195, rfl⟩
abbrev main_v153 : Ref sig .tc := ⟨.hbm, 196, rfl⟩
abbrev main_cst_28 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_29 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_30 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_31 : Ref sig .tc := ⟨.hbm, 227, rfl⟩
abbrev main_v181 : Ref sig .tc := ⟨.hbm, 228, rfl⟩
abbrev main_v182 : Ref sig .tc := ⟨.hbm, 229, rfl⟩
abbrev main_cst_32 : Ref sig .tc := ⟨.hbm, 230, rfl⟩
abbrev main_v183 : Ref sig .tc := ⟨.hbm, 231, rfl⟩
abbrev main_v184 : Ref sig .tc := ⟨.hbm, 232, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  transposes_S1x128_S128x1_1_0 : S1x128.Transposes [1, 0] S128x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  gather_S800000_S800000x1_S800000_n_0_n_n_0_1_1_wf : GatherDims.WF S800000 S800000x1 S800000 [] [0] [] [0] [] 1 ![1]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_1_0_0_n_n_wf : DotDims.WF S5000x128 S128x128 S5000x128 [1] [1] [0] [0] [] []
  scatter_S64x128_S50000x1_S50000x128_1_0_0_1_wf : ScatterDims.WF S64x128 S50000x1 S50000x128 [1] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S800000_S800000x1_S800000_n_0_n_n_0_1_1 : GatherDims S800000 S800000x1 S800000 where
  offsetDims := []
  collapsedSliceDims := [0]
  operandBatchingDims := []
  startIndicesBatchingDims := []
  startIndexMap := [0]
  indexVectorDim := 1
  sliceSizes := ![1]
  wf := gather_S800000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_v36) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v84) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v74) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v92) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v86) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v88) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v91) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v93) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v132) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v122) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v140) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v134) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v136) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v139) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v141) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x4 : Shape := ⟨2, ![800000, 4]⟩
abbrev S50000 : Shape := ⟨1, ![50000]⟩
abbrev S3x128x128 : Shape := ⟨3, ![3, 128, 128]⟩
abbrev S3x128 : Shape := ⟨2, ![3, 128]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S64x128 : Shape := ⟨2, ![64, 128]⟩
abbrev S128x1 : Shape := ⟨2, ![128, 1]⟩
abbrev S64x1 : Shape := ⟨2, ![64, 1]⟩
abbrev S1x1 : Shape := ⟨2, ![1, 1]⟩

abbrev nBuf : Space → Nat
  | .hbm => 260
  | .vmem => 0
  | .smem => 0
  | _ => 0

abbrev hbmTy0_0 (i : Nat) : BufTy := match i % 128 with
  | 0 => ⟨S50000x128, .f32⟩
  | 1 => ⟨S2x800000, .i32⟩
  | 2 => ⟨S800000x4, .f32⟩
  | 3 => ⟨S50000, .i32⟩
  | 4 => ⟨S3x128x128, .f32⟩
  | 5 => ⟨S3x128, .f32⟩
  | 6 => ⟨S3x128x128, .f32⟩
  | 7 => ⟨S3x128, .f32⟩
  | 8 => ⟨S3x128, .f32⟩
  | 9 => ⟨S1x128, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S1x128x128, .f32⟩
  | 16 => ⟨S128x128, .f32⟩
  | 17 => ⟨S1x128, .f32⟩
  | 18 => ⟨S128, .f32⟩
  | 19 => ⟨S1x128x128, .f32⟩
  | 20 => ⟨S128x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S128x128, .f32⟩
  | 47 => ⟨S50000x128, .f32⟩
  | 48 => ⟨S1x128, .f32⟩
  | 49 => ⟨S50000x128, .f32⟩
  | 50 => ⟨S50000x128, .f32⟩
  | 51 => ⟨S128x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S128, .f32⟩
  | 61 => ⟨S_, .f32⟩
  | 62 => ⟨S128, .f32⟩
  | 63 => ⟨S_, .f32⟩
  | 64 => ⟨S128, .f32⟩
  | 65 => ⟨S128, .f32⟩
  | 66 => ⟨S1x128, .f32⟩
  | 67 => ⟨S50000x128, .f32⟩
  | 68 => ⟨S50000x128, .f32⟩
  | 69 => ⟨S50000x128, .f32⟩
  | 70 => ⟨S_, .f32⟩
  | 71 => ⟨S128, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S_, .f32⟩
  | 79 => ⟨S128, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S1x128x128, .f32⟩
  | 92 => ⟨S128x128, .f32⟩
  | 93 => ⟨S1x128, .f32⟩
  | 94 => ⟨S128, .f32⟩
  | 95 => ⟨S1x128x128, .f32⟩
  | 96 => ⟨S128x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S_, .f32⟩
  | 111 => ⟨S800000, .f32⟩
  | 112 => ⟨S_, .f32⟩
  | 113 => ⟨S50000, .f32⟩
  | 114 => ⟨S800000x1, .i32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x128, .f32⟩
  | 121 => ⟨S50000x128, .f32⟩
  | 122 => ⟨S128x128, .f32⟩
  | 123 => ⟨S50000x128, .f32⟩
  | 124 => ⟨S1x128, .f32⟩
  | 125 => ⟨S50000x128, .f32⟩
  | 126 => ⟨S50000x128, .f32⟩
  | 127 => ⟨S128x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S128, .f32⟩
  | 9 => ⟨S_, .f32⟩
  | 10 => ⟨S128, .f32⟩
  | 11 => ⟨S_, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S50000x128, .f32⟩
  | 18 => ⟨S_, .f32⟩
  | 19 => ⟨S128, .f32⟩
  | 20 => ⟨S_, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S_, .f32⟩
  | 27 => ⟨S128, .f32⟩
  | 28 => ⟨S128, .f32⟩
  | 29 => ⟨S128, .f32⟩
  | 30 => ⟨S1x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S1x128x128, .f32⟩
  | 40 => ⟨S128x128, .f32⟩
  | 41 => ⟨S1x128, .f32⟩
  | 42 => ⟨S128, .f32⟩
  | 43 => ⟨S1x128x128, .f32⟩
  | 44 => ⟨S128x128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S_, .f32⟩
  | 59 => ⟨S800000, .f32⟩
  | 60 => ⟨S_, .f32⟩
  | 61 => ⟨S50000, .f32⟩
  | 62 => ⟨S800000x1, .i32⟩
  | 63 => ⟨S50000, .f32⟩
  | 64 => ⟨S_, .f32⟩
  | 65 => ⟨S50000, .f32⟩
  | 66 => ⟨S50000, .f32⟩
  | 67 => ⟨S50000x1, .f32⟩
  | 68 => ⟨S50000x128, .f32⟩
  | 69 => ⟨S50000x128, .f32⟩
  | 70 => ⟨S128x128, .f32⟩
  | 71 => ⟨S50000x128, .f32⟩
  | 72 => ⟨S1x128, .f32⟩
  | 73 => ⟨S50000x128, .f32⟩
  | 74 => ⟨S50000x128, .f32⟩
  | 75 => ⟨S128x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S1x128, .f32⟩
  | 82 => ⟨S128, .f32⟩
  | 83 => ⟨S1x128, .f32⟩
  | 84 => ⟨S128, .f32⟩
  | 85 => ⟨S_, .f32⟩
  | 86 => ⟨S128, .f32⟩
  | 87 => ⟨S_, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S50000x128, .f32⟩
  | 94 => ⟨S_, .f32⟩
  | 95 => ⟨S128, .f32⟩
  | 96 => ⟨S_, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S128, .f32⟩
  | 104 => ⟨S128, .f32⟩
  | 105 => ⟨S128, .f32⟩
  | 106 => ⟨S1x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S64x128, .f32⟩
  | 117 => ⟨S50000x1, .i32⟩
  | 118 => ⟨S64x128, .f32⟩
  | 119 => ⟨S128x1, .f32⟩
  | 120 => ⟨S64x1, .f32⟩
  | 121 => ⟨S1x1, .f32⟩
  | 122 => ⟨S64x1, .f32⟩
  | 123 => ⟨S64x1, .f32⟩
  | 124 => ⟨S64x1, .f32⟩
  | 125 => ⟨S64x1, .f32⟩
  | 126 => ⟨S_, .f32⟩
  | 127 => ⟨S64x1, .f32⟩
  | _ => ⟨S50000x128, .f32⟩

abbrev hbmTy0_2 (i : Nat) : BufTy := match i % 128 with
  | 0 => ⟨S64x1, .f32⟩
  | 1 => ⟨S_, .f32⟩
  | 2 => ⟨S64x1, .f32⟩
  | 3 => ⟨S64x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_9 : Ref sig .tc := ⟨.hbm, 97, rfl⟩
abbrev main_v73 : Ref sig .tc := ⟨.hbm, 98, rfl⟩
abbrev main_v74 : Ref sig .tc := ⟨.hbm, 99, rfl⟩
abbrev main_c_10 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_11 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_12 : Ref sig .tc := ⟨.hbm, 110, rfl⟩
abbrev main_v83 : Ref sig .tc := ⟨.hbm, 111, rfl⟩
abbrev main_cst_13 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_14 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_call1_cst : Ref sig .tc := ⟨.hbm, 130, rfl⟩
abbrev main_call1_v0 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_15 : Ref sig .tc := ⟨.hbm, 137, rfl⟩
abbrev main_v105 : Ref sig .tc := ⟨.hbm, 138, rfl⟩
abbrev main_cst_16 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_17 : Ref sig .tc := ⟨.hbm, 146, rfl⟩
abbrev main_v112 : Ref sig .tc := ⟨.hbm, 147, rfl⟩
abbrev main_cst_18 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_19 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_c_20 : Ref sig .tc := ⟨.hbm, 173, rfl⟩
abbrev main_v136 : Ref sig .tc := ⟨.hbm, 174, rfl⟩
abbrev main_v137 : Ref sig .tc := ⟨.hbm, 175, rfl⟩
abbrev main_c_21 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_22 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_23 : Ref sig .tc := ⟨.hbm, 186, rfl⟩
abbrev main_v146 : Ref sig .tc := ⟨.hbm, 187, rfl⟩
abbrev main_cst_24 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_25 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_call2_cst : Ref sig .tc := ⟨.hbm, 206, rfl⟩
abbrev main_call2_v0 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_26 : Ref sig .tc := ⟨.hbm, 213, rfl⟩
abbrev main_v168 : Ref sig .tc := ⟨.hbm, 214, rfl⟩
abbrev main_cst_27 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_cst_28 : Ref sig .tc := ⟨.hbm, 222, rfl⟩
abbrev main_v175 : Ref sig .tc := ⟨.hbm, 223, rfl⟩
abbrev main_cst_29 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_cst_30 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_cst_31 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_cst_32 : Ref sig .tc := ⟨.hbm, 254, rfl⟩
abbrev main_v203 : Ref sig .tc := ⟨.hbm, 255, rfl⟩
abbrev main_v204 : Ref sig .tc := ⟨.hbm, 256, rfl⟩
abbrev main_cst_33 : Ref sig .tc := ⟨.hbm, 257, rfl⟩
abbrev main_v205 : Ref sig .tc := ⟨.hbm, 258, rfl⟩
abbrev main_v206 : Ref sig .tc := ⟨.hbm, 259, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  transposes_S1x128_S128x1_1_0 : S1x128.Transposes [1, 0] S128x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  dot_S64x128_S128x1_S64x1_1_0_0_1_n_n_wf : DotDims.WF S64x128 S128x1 S64x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KernelRun.lean ====
/-
  The idealized kernel program's run with its result named.

  @main is nine segments: three stretches of host operations (the edge slices, the argsort, the first gather and
  segment sums), then three times a kernel launch followed by a stretch of host operations (batch normalisation and the
  next layer's gather and segment sum; after the last launch the pooling, the linear output and the logistic function).
  Every weakly fair execution terminates without a fault; at the end every buffer the program does not scope holds the
  fold of those segments from the launch memory (`Gen.W9`): in particular the result buffer holds `Gen.W9` at the
  result, and the eleven argument arrays are as launched.
-/
import proofs.«126205_j20633022890229_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the fold of the
    program's segments from the launch memory, and the argument arrays end as launched. -/
theorem run_main : θ_run defs (onTc (τ := τ) (main (F := F))) ⟨m, fun _ => 0, ρ⟩ (fun r => ∀ c : Dev nD,
      r.2.mem ((c.tc : Thread nD τ).loc main_v184) = W9 m ρ c (Proc.devRef .tc main_v184)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v184 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.RunValue

end
-- ==== Proof.Spec.lean ====
/-
  The two programs' shared vocabulary, at the exact instance (floats are extended reals).

  One GraphSAGE layer takes node features `h : [50000,128]`, an edge list `(src, dst)` of 800000 edges,
  two weight matrices `wl wr : [128,128]` and a bias `bl : [128]`:
  * `aggOf h src dst` — at node `n`, the sum over the edges `e` with `dst e = n` of row `src e` of `h`
    (a negative source index counts from the end, an out-of-range one is clamped; an edge whose destination is
    outside `[0, 50000)` contributes nothing);
  * `degOf dst` — at node `n`, the number of edges `e` with `dst e = n`;
  * `refPre` — `relu ((agg / max deg 1) · wlᵀ + bl + h · wrᵀ)`, the reference's arrangement;
  * `layerK` — entry `(n, c)` is `max ((∑ₖ (agg n k · invd n) · wl c k + ∑ₖ h n k · wr c k) + b c) 0`, the arrangement
    each kernel launch computes block by block, with `invd = 1 / max deg 1` (`invDeg`);
  * `bnOf` — batch normalisation over the 50000 rows with the biased variance;
  * `tailOf` — the sum of the rows of each of the 64 graphs, one linear output and the logistic function.
-/
import proofs.«126205_j20633022890229_2_alg».proof.Proof.Gen.KernelIdeal
import proofs.«126205_j20633022890229_2_alg».proof.Proof.Gen.ReferenceIdeal
import Idealize.ShloMosaic.PureOps.Ideal
import Idealize.ShloMosaic.Lib.ValueIdx

noncomputable section

namespace Cert.Sage

open Idealize.ShloMosaic Idealize.ShloMosaic.ValueIdx Cert.ReferenceIdeal Cert.ReferenceIdeal.Facts₀

/-- Node features, one row of 128 per node. -/
abbrev Feat := FVec Ideal S50000x128 .f32
/-- One integer per edge. -/
abbrev EdgeIx := IVec S800000 32

/-- A negative index counts from the end of the 50000 rows. -/
def wrapIdx (s : EdgeIx) : EdgeIx :=
  select (cmpi .slt s (broadcastInDim S800000 ![] bcast_S_S800000 (constantI S_ 32 0#32)))
    (addi s (broadcastInDim S800000 ![] bcast_S_S800000 (constantI S_ 32 50000#32))) s

/-- Row `src e` of `h` for every edge `e`. -/
def msgOf (h : Feat) (src : EdgeIx) : FVec Ideal S800000x128 .f32 :=
  Host.gather gather_S50000x128_S800000x1_S800000x128_1_0_n_n_0_1_1128 h
    (broadcastInDim S800000x1 ![0] bcast_S800000_S800000x1_0 (wrapIdx src))

/-- The sum of the source rows over the edges arriving at each node. -/
def aggOf (h : Feat) (src dst : EdgeIx) : Feat :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst) (msgOf h src)

/-- The number of edges arriving at each node. -/
def degOf (dst : EdgeIx) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- `max deg 1`. -/
def degClamp (deg : FVec Ideal S50000 .f32) : FVec Ideal S50000 .f32 :=
  maximumf deg (broadcastInDim S50000 ![] bcast_S_S50000 (constant (F := Ideal) S_ .f32 0x3F800000#32))

/-- `1 / max deg 1`, as a column. -/
def invDeg (deg : FVec Ideal S50000 .f32) : FVec Ideal S50000x1 .f32 :=
  shapeCast S50000x1
    (Host.divf (broadcastInDim S50000 ![] bcast_S_S50000 (constant (F := Ideal) S_ .f32 0x3F800000#32)) (degClamp deg))
    Cert.KernelIdeal.Facts₀.shapeCasts_S50000_S50000x1

/-- The reference's layer before normalisation: `relu ((agg / max deg 1) · wlᵀ + bl + h · wrᵀ)`. -/
def refPre (agg h : Feat) (deg : FVec Ideal S50000 .f32) (wl wr : FVec Ideal S128x128 .f32) (bl : FVec Ideal S128 .f32) : Feat :=
  maximumf
    (addf
      (addf
        (Host.dotGeneral dot_S50000x128_S128x128_S50000x128_1_0_0_1_n_n none
          (Host.divf agg (broadcastInDim S50000x128 ![0, 1] bcast_S50000x1_S50000x128_0_1
            (broadcastInDim S50000x1 ![0] bcast_S50000_S50000x1_0 (degClamp deg))))
          (transpose S128x128 [1, 0] wl transposes_S128x128_S128x128_1_0))
        (broadcastInDim S50000x128 ![0, 1] bcast_S1x128_S50000x128_0_1 (broadcastInDim S1x128 ![1] bcast_S128_S1x128_1 bl)))
      (Host.dotGeneral dot_S50000x128_S128x128_S50000x128_1_0_0_1_n_n none h
        (transpose S128x128 [1, 0] wr transposes_S128x128_S128x128_1_0)))
    (broadcastInDim S50000x128 ![] bcast_S_S50000x128 (constant (F := Ideal) S_ .f32 0x00000000#32))

/-- What one kernel launch leaves in its output array, entry by entry. -/
def layerK (agg h : Feat) (invd : FVec Ideal S50000x1 .f32) (wl wr : FVec Ideal S128x128 .f32) (b2 : FVec Ideal S1x128 .f32) : Feat :=
  fun i =>
    max (((∑ k : Fin 128, (agg (ix2 (i 0) k) * invd (ix2 (i 0) (0 : Fin 1))) * wl (ix2 (i 1) k))
          + ∑ k : Fin 128, h (ix2 (i 0) k) * wr (ix2 (i 1) k))
        + b2 (ix2 (0 : Fin 1) (i 1)))
      (Ideal.ofBits .f32 0x00000000#32)

/-! ## The slices of the stacked parameters and of the edge list -/

/-- Row 0 of the edge list: the source node of every edge. -/
def srcOf (ei : IVec S2x800000 32) : EdgeIx :=
  shapeCast S800000 (extractStridedSlice S1x800000 ![0, 0] ei slices_S2x800000_S1x800000_0_0) shapeCasts_S1x800000_S800000
/-- Row 1 of the edge list: the destination node of every edge. -/
def dstOf (ei : IVec S2x800000 32) : EdgeIx :=
  shapeCast S800000 (extractStridedSlice S1x800000 ![1, 0] ei slices_S2x800000_S1x800000_1_0) shapeCasts_S1x800000_S800000
/-- Layer 0's 128×128 matrix out of a stack of three. -/
def matOf0 (w : FVec Ideal S3x128x128 .f32) : FVec Ideal S128x128 .f32 :=
  shapeCast S128x128 (extractStridedSlice S1x128x128 ![0, 0, 0] w slices_S3x128x128_S1x128x128_0_0_0) shapeCasts_S1x128x128_S128x128
/-- Layer 0's row of 128 out of a stack of three. -/
def rowOf0 (g : FVec Ideal S3x128 .f32) : FVec Ideal S128 .f32 :=
  shapeCast S128 (extractStridedSlice S1x128 ![0, 0] g slices_S3x128_S1x128_0_0) shapeCasts_S1x128_S128
/-- Layer 1's 128×128 matrix out of a stack of three. -/
def matOf1 (w : FVec Ideal S3x128x128 .f32) : FVec Ideal S128x128 .f32 :=
  shapeCast S128x128 (extractStridedSlice S1x128x128 ![1, 0, 0] w slices_S3x128x128_S1x128x128_1_0_0) shapeCasts_S1x128x128_S128x128
/-- Layer 1's row of 128 out of a stack of three. -/
def rowOf1 (g : FVec Ideal S3x128 .f32) : FVec Ideal S128 .f32 :=
  shapeCast S128 (extractStridedSlice S1x128 ![1, 0] g slices_S3x128_S1x128_1_0) shapeCasts_S1x128_S128
/-- Layer 2's 128×128 matrix out of a stack of three. -/
def matOf2 (w : FVec Ideal S3x128x128 .f32) : FVec Ideal S128x128 .f32 :=
  shapeCast S128x128 (extractStridedSlice S1x128x128 ![2, 0, 0] w slices_S3x128x128_S1x128x128_2_0_0) shapeCasts_S1x128x128_S128x128
/-- Layer 2's row of 128 out of a stack of three. -/
def rowOf2 (g : FVec Ideal S3x128 .f32) : FVec Ideal S128 .f32 :=
  shapeCast S128 (extractStridedSlice S1x128 ![2, 0] g slices_S3x128_S1x128_2_0) shapeCasts_S1x128_S128

/-! ## Batch normalisation and the output head -/

/-- A row of 128 repeated down the 50000 rows. -/
def rowsOf (v : FVec Ideal S128 .f32) : Feat :=
  broadcastInDim S50000x128 ![0, 1] bcast_S1x128_S50000x128_0_1 (broadcastInDim S1x128 ![1] bcast_S128_S1x128_1 v)

/-- The mean of each column over the 50000 rows. -/
def colMean (h : Feat) : FVec Ideal S128 .f32 :=
  Host.divf (Host.reduceAdd h (constant (F := Ideal) S_ .f32 0x00000000#32) reducesTo_S50000x128_S128_d0 h_S_)
    (broadcastInDim S128 ![] bcast_S_S128 (constant (F := Ideal) S_ .f32 0x47435000#32))

/-- Batch normalisation over the rows: `(h - μ) · rsqrt (var + ε) · γ + β` with the biased variance. -/
def bnOf (h : Feat) (γ β : FVec Ideal S128 .f32) : Feat :=
  addf
    (mulf
      (mulf (subf h (rowsOf (colMean h)))
        (rowsOf (Host.rsqrt (addf
          (Host.divf (Host.reduceAdd (mulf (subf h (rowsOf (colMean h))) (subf h (rowsOf (colMean h))))
              (constant (F := Ideal) S_ .f32 0x00000000#32) reducesTo_S50000x128_S128_d0 h_S_)
            (broadcastInDim S128 ![] bcast_S_S128 (constant (F := Ideal) S_ .f32 0x47435000#32)))
          (broadcastInDim S128 ![] bcast_S_S128 (constant (F := Ideal) S_ .f32 0x3727C5AC#32))))))
      (rowsOf γ))
    (rowsOf β)

/-- The rows of each graph summed, one linear output per graph, the logistic function. -/
def tailOf (h : Feat) (batch : IVec S50000 32) (fcw : FVec Ideal S1x128 .f32) (fcb : FVec Ideal S1 .f32) : FVec Ideal S64x1 .f32 :=
  Host.divf (broadcastInDim S64x1 ![] bcast_S_S64x1 (constant (F := Ideal) S_ .f32 0x3F800000#32))
    (addf (broadcastInDim S64x1 ![] bcast_S_S64x1 (constant (F := Ideal) S_ .f32 0x3F800000#32))
      (Host.exp (Host.negf (addf
        (Host.dotGeneral dot_S64x128_S128x1_S64x1_1_0_0_1_n_n none
          (Host.scatterAdd scatter_S64x128_S50000x1_S50000x128_1_0_0_1
            (broadcastInDim S64x128 ![] bcast_S_S64x128 (constant (F := Ideal) S_ .f32 0x00000000#32))
            (broadcastInDim S50000x1 ![0] bcast_S50000_S50000x1_0 batch) h)
          (transpose S128x1 [1, 0] fcw transposes_S1x128_S128x1_1_0))
        (broadcastInDim S64x1 ![0, 1] bcast_S1x1_S64x1_0_1 (broadcastInDim S1x1 ![1] bcast_S1_S1x1_1 fcb))))))

/-! ## The edges sorted by destination -/

/-- The positions of the edges in the order of a stable sort by destination. -/
def orderOf (dst : EdgeIx) : EdgeIx :=
  (Host.sort2 S800000 0 Cert.KernelIdeal.comparator_i32_i32_d0 dst (iotaInDim S800000 32 0)).2

/-- A negative position counts from the end of the 800000 edges. -/
def wrapEdge (o : EdgeIx) : EdgeIx :=
  select (cmpi .slt o (broadcastInDim S800000 ![] bcast_S_S800000 (constantI S_ 32 0#32)))
    (addi o (broadcastInDim S800000 ![] bcast_S_S800000 (constantI S_ 32 800000#32))) o

/-- `x` read through the positions `o`. -/
def permuteBy (x o : EdgeIx) : EdgeIx :=
  Host.gather Cert.KernelIdeal.gather_S800000_S800000x1_S800000_n_0_n_n_0_1_1 x
    (broadcastInDim S800000x1 ![0] bcast_S800000_S800000x1_0 (wrapEdge o))

/-! ## One layer, and the two programs -/

/-- The reference's layer: aggregate, divide by the clamped degree, two products and a bias, relu, normalise. -/
def refLayer (h : Feat) (src dst : EdgeIx) (wl wr : FVec Ideal S128x128 .f32) (bl γ β : FVec Ideal S128 .f32) : Feat :=
  bnOf (refPre (aggOf h src dst) h (degOf dst) wl wr bl) γ β

/-- The kernel's layer: aggregate over the sorted edges, one launch (which multiplies by the reciprocal clamped degree
    of the sorted edges), normalise. -/
def kerLayer (h : Feat) (srcS dstS : EdgeIx) (wl wr : FVec Ideal S128x128 .f32) (bl γ β : FVec Ideal S128 .f32) : Feat :=
  bnOf (layerK (aggOf h srcS dstS) h (invDeg (degOf dstS)) wl wr (shapeCast S1x128 bl Cert.KernelIdeal.Facts₀.shapeCasts_S128_S1x128)) γ β

/-- The reference program's result as a function of its arguments. -/
def refAll (x : Feat) (ei : IVec S2x800000 32) (batch : IVec S50000 32) (w4 : FVec Ideal S3x128x128 .f32) (b5 : FVec Ideal S3x128 .f32)
    (w6 : FVec Ideal S3x128x128 .f32) (g7 b8 : FVec Ideal S3x128 .f32) (fcw : FVec Ideal S1x128 .f32) (fcb : FVec Ideal S1 .f32) :
    FVec Ideal S64x1 .f32 :=
  tailOf
    (refLayer (refLayer (refLayer x (srcOf ei) (dstOf ei) (matOf0 w4) (matOf0 w6) (rowOf0 b5) (rowOf0 g7) (rowOf0 b8))
        (srcOf ei) (dstOf ei) (matOf1 w4) (matOf1 w6) (rowOf1 b5) (rowOf1 g7) (rowOf1 b8))
      (srcOf ei) (dstOf ei) (matOf2 w4) (matOf2 w6) (rowOf2 b5) (rowOf2 g7) (rowOf2 b8))
    batch fcw fcb

/-- The kernel program's result as a function of its arguments. -/
def kerAll (x : Feat) (ei : IVec S2x800000 32) (batch : IVec S50000 32) (w4 : FVec Ideal S3x128x128 .f32) (b5 : FVec Ideal S3x128 .f32)
    (w6 : FVec Ideal S3x128x128 .f32) (g7 b8 : FVec Ideal S3x128 .f32) (fcw : FVec Ideal S1x128 .f32) (fcb : FVec Ideal S1 .f32) :
    FVec Ideal S64x1 .f32 :=
  let srcS := permuteBy (srcOf ei) (orderOf (dstOf ei))
  let dstS := permuteBy (dstOf ei) (orderOf (dstOf ei))
  tailOf
    (kerLayer (kerLayer (kerLayer x srcS dstS (matOf0 w4) (matOf0 w6) (rowOf0 b5) (rowOf0 g7) (rowOf0 b8))
        srcS dstS (matOf1 w4) (matOf1 w6) (rowOf1 b5) (rowOf1 g7) (rowOf1 b8))
      srcS dstS (matOf2 w4) (matOf2 w6) (rowOf2 b5) (rowOf2 g7) (rowOf2 b8))
    batch fcw fcb

end Cert.Sage

end
-- ==== Proof.LayerPayload.lean ====
/-
  One layer's block arithmetic read entry by entry, at the exact instance (floats are extended reals).

  Each of the three launches computes, on a block of 5000 rows, the array whose entry `(p, q)` is
      max ((∑ₖ (a p k · c p 0) · w₁ q k  +  ∑ₖ h p k · w₂ q k)  +  b 0 q) 0
  where `a`, `h` are the two `[5000, 128]` blocks, `c` the `[5000, 1]` column, `w₁`, `w₂` the two
  `[128, 128]` matrices and `b` the `[1, 128]` row: a change of float format is the identity on extended reals, a
  cast to the same shape is the identity, the column is broadcast along each row and the row down each column, and
  each matrix product contracts the second axis of its left operand with the SECOND axis of its right operand,
  starting from the zero accumulator.
-/
import proofs.«126205_j20633022890229_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

namespace Cert.KernelIdeal.LayerPayload

open Idealize.ShloMosaic Idealize.ShloMosaic.ValueIdx

/-- A product contracting the second axis of an `[a, k]` array with the second axis of a `[b, k]` array, from the
    zero accumulator, read at `(p, q)`: the inner product of row `p` of the first with row `q` of the second. -/
theorem matmul_rows_ix2_apply {a k b : ℕ} {φ₁ φ₂ : FTy} (D : DotDims ⟨2, ![a, k]⟩ ⟨2, ![b, k]⟩ ⟨2, ![a, b]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![a, k]⟩ φ₁) (w : FVec Ideal ⟨2, ![b, k]⟩ φ₂)
    (p : Fin a) (q : Fin b) :
    matmul D prec x w (constant (F := Ideal) ⟨2, ![a, b]⟩ .f32 0x00000000#32) (ix2 p q)
      = ∑ d : Fin k, x (ix2 p d) * w (ix2 q d) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => rfl
    | ⟨1, _⟩ => exact (DotDims.rhsIdx_val_of_single _ rfl _ _).trans (contrEquiv1_symm_val _ k rfl rfl d)

/-- A column `[a, 1]` broadcast to `[a, b]` reads, at `(p, c)`, the column's entry of row `p`. -/
theorem broadcastTo_col_ix2_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first launch's block, entry `(p, q)`. -/
theorem k0_pay1_apply (x0 : Vec Ideal S5000x128 .f32) (x2 : Vec Ideal S5000x1 .f32) (x7 : Vec Ideal S5000x128 .f32)
    (x9 : Vec Ideal S128x128 .f32) (x12 : Vec Ideal S128x128 .f32) (x18 : Vec Ideal S1x128 .f32)
    (p : Fin 5000) (q : Fin 128) :
    Gen.k0_pay1 (F := Ideal) x0 x2 x7 x9 x12 x18 (ix2 p q)
      = max (((∑ k : Fin 128, (x0 (ix2 p k) * x2 (ix2 p (0 : Fin 1))) * x9 (ix2 q k))
              + ∑ k : Fin 128, x7 (ix2 p k) * x12 (ix2 q k))
            + x18 (ix2 (0 : Fin 1) q)) (Ideal.ofBits .f32 0x00000000#32) := by
  unfold Gen.k0_pay1
  simp only [shapeCast_self]
  refine congrArg₂ max (congrArg₂ (· + ·) (congrArg₂ (· + ·) ?_ ?_) ?_) rfl
  · refine (matmul_rows_ix2_apply dot_S5000x128_S128x128_S5000x128_1_1_0_0_n_n rfl rfl rfl rfl rfl rfl none _ _ p q).trans ?_
    refine Finset.sum_congr rfl fun k _ => ?_
    exact congrArg (fun t => (x0 (ix2 p k) * t) * x9 (ix2 q k)) (broadcastTo_col_ix2_apply x2 _ p k)
  · exact matmul_rows_ix2_apply dot_S5000x128_S128x128_S5000x128_1_1_0_0_n_n rfl rfl rfl rfl rfl rfl none _ _ p q
  · exact broadcastTo_1b_ab_apply _ _ p q

/-- The second launch's block, entry `(p, q)`. -/
theorem k1_pay1_apply (x0 : Vec Ideal S5000x128 .f32) (x2 : Vec Ideal S5000x1 .f32) (x7 : Vec Ideal S5000x128 .f32)
    (x10 : Vec Ideal S128x128 .f32) (x13 : Vec Ideal S128x128 .f32) (x19 : Vec Ideal S1x128 .f32)
    (p : Fin 5000) (q : Fin 128) :
    Gen.k1_pay1 (F := Ideal) x0 x2 x7 x10 x13 x19 (ix2 p q)
      = max (((∑ k : Fin 128, (x0 (ix2 p k) * x2 (ix2 p (0 : Fin 1))) * x10 (ix2 q k))
              + ∑ k : Fin 128, x7 (ix2 p k) * x13 (ix2 q k))
            + x19 (ix2 (0 : Fin 1) q)) (Ideal.ofBits .f32 0x00000000#32) := by
  unfold Gen.k1_pay1
  simp only [shapeCast_self]
  refine congrArg₂ max (congrArg₂ (· + ·) (congrArg₂ (· + ·) ?_ ?_) ?_) rfl
  · refine (matmul_rows_ix2_apply dot_S5000x128_S128x128_S5000x128_1_1_0_0_n_n rfl rfl rfl rfl rfl rfl none _ _ p q).trans ?_
    refine Finset.sum_congr rfl fun k _ => ?_
    exact congrArg (fun t => (x0 (ix2 p k) * t) * x10 (ix2 q k)) (broadcastTo_col_ix2_apply x2 _ p k)
  · exact matmul_rows_ix2_apply dot_S5000x128_S128x128_S5000x128_1_1_0_0_n_n rfl rfl rfl rfl rfl rfl none _ _ p q
  · exact broadcastTo_1b_ab_apply _ _ p q

/-- The third launch's block, entry `(p, q)`. -/
theorem k2_pay1_apply (x0 : Vec Ideal S5000x128 .f32) (x2 : Vec Ideal S5000x1 .f32) (x7 : Vec Ideal S5000x128 .f32)
    (x10 : Vec Ideal S128x128 .f32) (x13 : Vec Ideal S128x128 .f32) (x19 : Vec Ideal S1x128 .f32)
    (p : Fin 5000) (q : Fin 128) :
    Gen.k2_pay1 (F := Ideal) x0 x2 x7 x10 x13 x19 (ix2 p q)
      = max (((∑ k : Fin 128, (x0 (ix2 p k) * x2 (ix2 p (0 : Fin 1))) * x10 (ix2 q k))
              + ∑ k : Fin 128, x7 (ix2 p k) * x13 (ix2 q k))
            + x19 (ix2 (0 : Fin 1) q)) (Ideal.ofBits .f32 0x00000000#32) := by
  unfold Gen.k2_pay1
  simp only [shapeCast_self]
  refine congrArg₂ max (congrArg₂ (· + ·) (congrArg₂ (· + ·) ?_ ?_) ?_) rfl
  · refine (matmul_rows_ix2_apply dot_S5000x128_S128x128_S5000x128_1_1_0_0_n_n rfl rfl rfl rfl rfl rfl none _ _ p q).trans ?_
    refine Finset.sum_congr rfl fun k _ => ?_
    exact congrArg (fun t => (x0 (ix2 p k) * t) * x10 (ix2 q k)) (broadcastTo_col_ix2_apply x2 _ p k)
  · exact matmul_rows_ix2_apply dot_S5000x128_S128x128_S5000x128_1_1_0_0_n_n rfl rfl rfl rfl rfl rfl none _ _ p q
  · exact broadcastTo_1b_ab_apply _ _ p q

end Cert.KernelIdeal.LayerPayload
-- ==== Proof.RegionValue.lean ====
/-
  What each of the three kernel launches leaves in its output array.

  A launch runs the body at ten grid points. Point `t` fetches rows `5000 t … 5000 t + 4999` of the aggregated features,
  of the node features and of the reciprocal degrees, the two whole weight matrices and the bias row, and writes back
  rows `5000 t … 5000 t + 4999` of the output. The body's arithmetic at entry `(p, q)` of the block is the layer's
  arithmetic at entry `(5000 t + p, q)` of the arrays, so the block written back is block `t` of ONE whole-array function,
  `layerK`; the ten blocks tile the output, so the output array ends at that function. Stated for any contents `V` the
  launch finds in the buffers.
-/
import proofs.«126205_j20633022890229_2_alg».proof.Proof.Gen.KernelIdeal.Frame
import proofs.«126205_j20633022890229_2_alg».proof.Proof.Spec
import proofs.«126205_j20633022890229_2_alg».proof.Proof.LayerPayload
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## Launch 0 -/

section Region0

/-- The block index maps of launch 0, decided over its ten grid points: the three row-blocked inputs and the output are
    at block row `t`, block column 0; the two weight matrices and the bias are one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of block `t` is row `5000 t + p` of the array. -/
def row0 (t : Fin cfg0.N) (p : Fin 5000) : Fin 50000 :=
  ⟨t.val * 5000 + p.val, by have h : t.val < 10 := Nat.lt_of_lt_of_eq t.isLt N_0; have := p.isLt; omega⟩

/-- The aggregated features' block at point `t`, read at `(p, k)`. -/
theorem blk0_0 (c : Dev nD) (t : Fin cfg0.N) (p : Fin 5000) (k : Fin 128) :
    iblk0 V c 0 t (ix2 p k) = (V c main_v36 : S50000x128.Idx → EReal) (ix2 (row0 t p) k) := by
  obtain ⟨e00, e01, -⟩ := idx_facts0 t
  unfold iblk0
  rw [View.read_apply]
  show (V c main_v36 : S50000x128.Idx → EReal) _ = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The node features' block at point `t`, read at `(p, k)`. -/
theorem blk0_1 (c : Dev nD) (t : Fin cfg0.N) (p : Fin 5000) (k : Fin 128) :
    iblk0 V c 1 t (ix2 p k) = (V c main_arg0 : S50000x128.Idx → EReal) (ix2 (row0 t p) k) := by
  obtain ⟨-, -, e10, e11, -⟩ := idx_facts0 t
  unfold iblk0
  rw [View.read_apply]
  show (V c main_arg0 : S50000x128.Idx → EReal) _ = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The reciprocal degrees' block at point `t`, read at `(p, 0)`. -/
theorem blk0_2 (c : Dev nD) (t : Fin cfg0.N) (p : Fin 5000) :
    iblk0 V c 2 t (ix2 p (0 : Fin 1)) = (V c main_v44 : S50000x1.Idx → EReal) (ix2 (row0 t p) (0 : Fin 1)) := by
  obtain ⟨-, -, -, -, e20, e21, -⟩ := idx_facts0 t
  unfold iblk0
  rw [View.read_apply]
  show (V c main_v44 : S50000x1.Idx → EReal) _ = _
  refine congrArg _ (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- The first weight matrix is one block: read at `(q, k)`. -/
theorem blk0_3 (c : Dev nD) (t : Fin cfg0.N) (q k : Fin 128) :
    iblk0 V c 3 t (ix2 q k) = (V c main_v38 : S128x128.Idx → EReal) (ix2 q k) := by
  obtain ⟨-, -, -, -, -, -, e30, e31, -⟩ := idx_facts0 t
  unfold iblk0
  rw [View.read_apply]
  show (V c main_v38 : S128x128.Idx → EReal) _ = _
  refine congrArg _ (funext fun a => Fin.ext ?_)
  match a with
  | ⟨0, _⟩ => show win0_3.index t (0 : Fin 2) * 128 + 1 * q.val = q.val; omega
  | ⟨1, _⟩ => show win0_3.index t (1 : Fin 2) * 128 + 1 * k.val = k.val; omega

/-- The second weight matrix is one block: read at `(q, k)`. -/
theorem blk0_4 (c : Dev nD) (t : Fin cfg0.N) (q k : Fin 128) :
    iblk0 V c 4 t (ix2 q k) = (V c main_v40 : S128x128.Idx → EReal) (ix2 q k) := by
  obtain ⟨-, -, -, -, -, -, -, -, e40, e41, -⟩ := idx_facts0 t
  unfold iblk0
  rw [View.read_apply]
  show (V c main_v40 : S128x128.Idx → EReal) _ = _
  refine congrArg _ (funext fun a => Fin.ext ?_)
  match a with
  | ⟨0, _⟩ => show win0_4.index t (0 : Fin 2) * 128 + 1 * q.val = q.val; omega
  | ⟨1, _⟩ => show win0_4.index t (1 : Fin 2) * 128 + 1 * k.val = k.val; omega

/-- The bias row is one block: read at `(0, q)`. -/
theorem blk0_5 (c : Dev nD) (t : Fin cfg0.N) (q : Fin 128) :
    iblk0 V c 5 t (ix2 (0 : Fin 1) q) = (V c main_v43 : S1x128.Idx → EReal) (ix2 (0 : Fin 1) q) := by
  obtain ⟨-, -, -, -, -, -, -, -, -, -, e50, e51, -⟩ := idx_facts0 t
  unfold iblk0
  rw [View.read_apply]
  show (V c main_v43 : S1x128.Idx → EReal) _ = _
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-- Entry `(p, q)` of the output's block `t` is entry `(5000 t + p, q)` of the array. -/
theorem emb0_6 (t : Fin cfg0.N) (p : Fin 5000) (q : Fin 128) :
    ((cfg0.win 6).blk t).view.emb (ix2 p q) = ix2 (row0 t p) q := by
  obtain ⟨-, -, -, -, -, -, -, -, -, -, -, -, e60, e61⟩ := idx_facts0 t
  refine funext fun a => Fin.ext ?_
  match a with
  | ⟨0, _⟩ => show win0_6.index t (0 : Fin 2) * 5000 + 1 * p.val = t.val * 5000 + p.val; omega
  | ⟨1, _⟩ => show win0_6.index t (1 : Fin 2) * 128 + 1 * q.val = q.val; omega

/-- What point `t` writes back is block `t` of the layer's function of the arrays the launch finds. -/
theorem flushed0 (c : Dev nD) (t : Fin cfg0.N) :
    (dat0 V c).flushed 6 t = ((cfg0.win 6).blk t).view.read (Elt Ideal)
      (layerK (V c main_v36) (V c main_arg0) (V c main_v44) (V c main_v38) (V c main_v40) (V c main_v43)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  show k0_pay1 (iblk0 V c 0 t) (iblk0 V c 2 t) (iblk0 V c 1 t) (iblk0 V c 3 t) (iblk0 V c 4 t) (iblk0 V c 5 t) (ix2 p q)
    = layerK (V c main_v36) (V c main_arg0) (V c main_v44) (V c main_v38) (V c main_v40) (V c main_v43) (((cfg0.win 6).blk t).view.emb (ix2 p q))
  rw [emb0_6 t p q]
  refine (Cert.KernelIdeal.LayerPayload.k0_pay1_apply (iblk0 V c 0 t) (iblk0 V c 2 t) (iblk0 V c 1 t) (iblk0 V c 3 t)
    (iblk0 V c 4 t) (iblk0 V c 5 t) p q).trans ?_
  unfold layerK
  simp only [blk0_0 V c t, blk0_1 V c t, blk0_2 V c t, blk0_3 V c t, blk0_4 V c t, blk0_5 V c t]

/-- Every entry of the output array is in the block of the point its row falls in. -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, -, -, -, -, -, -, -, -, e60, e61⟩ := idx_facts0 t
  have ht : t.val = (i 0).val / 5000 := rfl
  refine ⟨t, flush0_6 t, ?_⟩
  show i ∈ ((View.whole main_v45).slice (win0_6.rect t)).set
  rw [View.set_slice_whole, Rect.mem_set_unit]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- After launch 0 its output array holds the layer's function of the arrays the launch found. -/
theorem final0 (c : Dev nD) : (dat0 V c).arrAt 6 cfg0.N
    = layerK (V c main_v36) (V c main_arg0) (V c main_v44) (V c main_v38) (V c main_v40) (V c main_v43) :=
  (dat0 V c).arrAt_eq_of_cover 6 _ (fun t _ => flushed0 V c t) (cover0)

end Region0

/-! ## Launch 1 -/

section Region1

/-- The block index maps of launch 1, decided over its ten grid points: the three row-blocked inputs and the output are
    at block row `t`, block column 0; the two weight matrices and the bias are one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of block `t` is row `5000 t + p` of the array. -/
def row1 (t : Fin cfg1.N) (p : Fin 5000) : Fin 50000 :=
  ⟨t.val * 5000 + p.val, by have h : t.val < 10 := Nat.lt_of_lt_of_eq t.isLt N_1; have := p.isLt; omega⟩

/-- The aggregated features' block at point `t`, read at `(p, k)`. -/
theorem blk1_0 (c : Dev nD) (t : Fin cfg1.N) (p : Fin 5000) (k : Fin 128) :
    iblk1 V c 0 t (ix2 p k) = (V c main_v84 : S50000x128.Idx → EReal) (ix2 (row1 t p) k) := by
  obtain ⟨e00, e01, -⟩ := idx_facts1 t
  unfold iblk1
  rw [View.read_apply]
  show (V c main_v84 : S50000x128.Idx → EReal) _ = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The node features' block at point `t`, read at `(p, k)`. -/
theorem blk1_1 (c : Dev nD) (t : Fin cfg1.N) (p : Fin 5000) (k : Fin 128) :
    iblk1 V c 1 t (ix2 p k) = (V c main_v74 : S50000x128.Idx → EReal) (ix2 (row1 t p) k) := by
  obtain ⟨-, -, e10, e11, -⟩ := idx_facts1 t
  unfold iblk1
  rw [View.read_apply]
  show (V c main_v74 : S50000x128.Idx → EReal) _ = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The reciprocal degrees' block at point `t`, read at `(p, 0)`. -/
theorem blk1_2 (c : Dev nD) (t : Fin cfg1.N) (p : Fin 5000) :
    iblk1 V c 2 t (ix2 p (0 : Fin 1)) = (V c main_v92 : S50000x1.Idx → EReal) (ix2 (row1 t p) (0 : Fin 1)) := by
  obtain ⟨-, -, -, -, e20, e21, -⟩ := idx_facts1 t
  unfold iblk1
  rw [View.read_apply]
  show (V c main_v92 : S50000x1.Idx → EReal) _ = _
  refine congrArg _ (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

/-- The first weight matrix is one block: read at `(q, k)`. -/
theorem blk1_3 (c : Dev nD) (t : Fin cfg1.N) (q k : Fin 128) :
    iblk1 V c 3 t (ix2 q k) = (V c main_v86 : S128x128.Idx → EReal) (ix2 q k) := by
  obtain ⟨-, -, -, -, -, -, e30, e31, -⟩ := idx_facts1 t
  unfold iblk1
  rw [View.read_apply]
  show (V c main_v86 : S128x128.Idx → EReal) _ = _
  refine congrArg _ (funext fun a => Fin.ext ?_)
  match a with
  | ⟨0, _⟩ => show win1_3.index t (0 : Fin 2) * 128 + 1 * q.val = q.val; omega
  | ⟨1, _⟩ => show win1_3.index t (1 : Fin 2) * 128 + 1 * k.val = k.val; omega

/-- The second weight matrix is one block: read at `(q, k)`. -/
theorem blk1_4 (c : Dev nD) (t : Fin cfg1.N) (q k : Fin 128) :
    iblk1 V c 4 t (ix2 q k) = (V c main_v88 : S128x128.Idx → EReal) (ix2 q k) := by
  obtain ⟨-, -, -, -, -, -, -, -, e40, e41, -⟩ := idx_facts1 t
  unfold iblk1
  rw [View.read_apply]
  show (V c main_v88 : S128x128.Idx → EReal) _ = _
  refine congrArg _ (funext fun a => Fin.ext ?_)
  match a with
  | ⟨0, _⟩ => show win1_4.index t (0 : Fin 2) * 128 + 1 * q.val = q.val; omega
  | ⟨1, _⟩ => show win1_4.index t (1 : Fin 2) * 128 + 1 * k.val = k.val; omega

/-- The bias row is one block: read at `(0, q)`. -/
theorem blk1_5 (c : Dev nD) (t : Fin cfg1.N) (q : Fin 128) :
    iblk1 V c 5 t (ix2 (0 : Fin 1) q) = (V c main_v91 : S1x128.Idx → EReal) (ix2 (0 : Fin 1) q) := by
  obtain ⟨-, -, -, -, -, -, -, -, -, -, e50, e51, -⟩ := idx_facts1 t
  unfold iblk1
  rw [View.read_apply]
  show (V c main_v91 : S1x128.Idx → EReal) _ = _
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- Entry `(p, q)` of the output's block `t` is entry `(5000 t + p, q)` of the array. -/
theorem emb1_6 (t : Fin cfg1.N) (p : Fin 5000) (q : Fin 128) :
    ((cfg1.win 6).blk t).view.emb (ix2 p q) = ix2 (row1 t p) q := by
  obtain ⟨-, -, -, -, -, -, -, -, -, -, -, -, e60, e61⟩ := idx_facts1 t
  refine funext fun a => Fin.ext ?_
  match a with
  | ⟨0, _⟩ => show win1_6.index t (0 : Fin 2) * 5000 + 1 * p.val = t.val * 5000 + p.val; omega
  | ⟨1, _⟩ => show win1_6.index t (1 : Fin 2) * 128 + 1 * q.val = q.val; omega

/-- What point `t` writes back is block `t` of the layer's function of the arrays the launch finds. -/
theorem flushed1 (c : Dev nD) (t : Fin cfg1.N) :
    (dat1 V c).flushed 6 t = ((cfg1.win 6).blk t).view.read (Elt Ideal)
      (layerK (V c main_v84) (V c main_v74) (V c main_v92) (V c main_v86) (V c main_v88) (V c main_v91)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  show k1_pay1 (iblk1 V c 0 t) (iblk1 V c 2 t) (iblk1 V c 1 t) (iblk1 V c 3 t) (iblk1 V c 4 t) (iblk1 V c 5 t) (ix2 p q)
    = layerK (V c main_v84) (V c main_v74) (V c main_v92) (V c main_v86) (V c main_v88) (V c main_v91) (((cfg1.win 6).blk t).view.emb (ix2 p q))
  rw [emb1_6 t p q]
  refine (Cert.KernelIdeal.LayerPayload.k1_pay1_apply (iblk1 V c 0 t) (iblk1 V c 2 t) (iblk1 V c 1 t) (iblk1 V c 3 t)
    (iblk1 V c 4 t) (iblk1 V c 5 t) p q).trans ?_
  unfold layerK
  simp only [blk1_0 V c t, blk1_1 V c t, blk1_2 V c t, blk1_3 V c t, blk1_4 V c t, blk1_5 V c t]

/-- Every entry of the output array is in the block of the point its row falls in. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, -, -, -, -, -, -, -, -, e60, e61⟩ := idx_facts1 t
  have ht : t.val = (i 0).val / 5000 := rfl
  refine ⟨t, flush1_6 t, ?_⟩
  show i ∈ ((View.whole main_v93).slice (win1_6.rect t)).set
  rw [View.set_slice_whole, Rect.mem_set_unit]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- After launch 1 its output array holds the layer's function of the arrays the launch found. -/
theorem final1 (c : Dev nD) : (dat1 V c).arrAt 6 cfg1.N
    = layerK (V c main_v84) (V c main_v74) (V c main_v92) (V c main_v86) (V c main_v88) (V c main_v91) :=
  (dat1 V c).arrAt_eq_of_cover 6 _ (fun t _ => flushed1 V c t) (cover1)

end Region1

/-! ## Launch 2 -/

section Region2

/-- The block index maps of launch 2, decided over its ten grid points: the three row-blocked inputs and the output are
    at block row `t`, block column 0; the two weight matrices and the bias are one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `p` of block `t` is row `5000 t + p` of the array. -/
def row2 (t : Fin cfg2.N) (p : Fin 5000) : Fin 50000 :=
  ⟨t.val * 5000 + p.val, by have h : t.val < 10 := Nat.lt_of_lt_of_eq t.isLt N_2; have := p.isLt; omega⟩

/-- The aggregated features' block at point `t`, read at `(p, k)`. -/
theorem blk2_0 (c : Dev nD) (t : Fin cfg2.N) (p : Fin 5000) (k : Fin 128) :
    iblk2 V c 0 t (ix2 p k) = (V c main_v132 : S50000x128.Idx → EReal) (ix2 (row2 t p) k) := by
  obtain ⟨e00, e01, -⟩ := idx_facts2 t
  unfold iblk2
  rw [View.read_apply]
  show (V c main_v132 : S50000x128.Idx → EReal) _ = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- The node features' block at point `t`, read at `(p, k)`. -/
theorem blk2_1 (c : Dev nD) (t : Fin cfg2.N) (p : Fin 5000) (k : Fin 128) :
    iblk2 V c 1 t (ix2 p k) = (V c main_v122 : S50000x128.Idx → EReal) (ix2 (row2 t p) k) := by
  obtain ⟨-, -, e10, e11, -⟩ := idx_facts2 t
  unfold iblk2
  rw [View.read_apply]
  show (V c main_v122 : S50000x128.Idx → EReal) _ = _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega

/-- The reciprocal degrees' block at point `t`, read at `(p, 0)`. -/
theorem blk2_2 (c : Dev nD) (t : Fin cfg2.N) (p : Fin 5000) :
    iblk2 V c 2 t (ix2 p (0 : Fin 1)) = (V c main_v140 : S50000x1.Idx → EReal) (ix2 (row2 t p) (0 : Fin 1)) := by
  obtain ⟨-, -, -, -, e20, e21, -⟩ := idx_facts2 t
  unfold iblk2
  rw [View.read_apply]
  show (V c main_v140 : S50000x1.Idx → EReal) _ = _
  refine congrArg _ (funext fun a => Fin.ext ?_)
  match a with
  | ⟨0, _⟩ => show win2_2.index t (0 : Fin 2) * 5000 + 1 * p.val = t.val * 5000 + p.val; omega
  | ⟨1, _⟩ => show win2_2.index t (1 : Fin 2) * 1 + 1 * 0 = 0; omega

/-- The first weight matrix is one block: read at `(q, k)`. -/
theorem blk2_3 (c : Dev nD) (t : Fin cfg2.N) (q k : Fin 128) :
    iblk2 V c 3 t (ix2 q k) = (V c main_v134 : S128x128.Idx → EReal) (ix2 q k) := by
  obtain ⟨-, -, -, -, -, -, e30, e31, -⟩ := idx_facts2 t
  unfold iblk2
  rw [View.read_apply]
  show (V c main_v134 : S128x128.Idx → EReal) _ = _
  refine congrArg _ (funext fun a => Fin.ext ?_)
  match a with
  | ⟨0, _⟩ => show win2_3.index t (0 : Fin 2) * 128 + 1 * q.val = q.val; omega
  | ⟨1, _⟩ => show win2_3.index t (1 : Fin 2) * 128 + 1 * k.val = k.val; omega

/-- The second weight matrix is one block: read at `(q, k)`. -/
theorem blk2_4 (c : Dev nD) (t : Fin cfg2.N) (q k : Fin 128) :
    iblk2 V c 4 t (ix2 q k) = (V c main_v136 : S128x128.Idx → EReal) (ix2 q k) := by
  obtain ⟨-, -, -, -, -, -, -, -, e40, e41, -⟩ := idx_facts2 t
  unfold iblk2
  rw [View.read_apply]
  show (V c main_v136 : S128x128.Idx → EReal) _ = _
  refine congrArg _ (funext fun a => Fin.ext ?_)
  match a with
  | ⟨0, _⟩ => show win2_4.index t (0 : Fin 2) * 128 + 1 * q.val = q.val; omega
  | ⟨1, _⟩ => show win2_4.index t (1 : Fin 2) * 128 + 1 * k.val = k.val; omega

/-- The bias row is one block: read at `(0, q)`. -/
theorem blk2_5 (c : Dev nD) (t : Fin cfg2.N) (q : Fin 128) :
    iblk2 V c 5 t (ix2 (0 : Fin 1) q) = (V c main_v139 : S1x128.Idx → EReal) (ix2 (0 : Fin 1) q) := by
  obtain ⟨-, -, -, -, -, -, -, -, -, -, e50, e51, -⟩ := idx_facts2 t
  unfold iblk2
  rw [View.read_apply]
  show (V c main_v139 : S1x128.Idx → EReal) _ = _
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * q.val = q.val; omega

/-- Entry `(p, q)` of the output's block `t` is entry `(5000 t + p, q)` of the array. -/
theorem emb2_6 (t : Fin cfg2.N) (p : Fin 5000) (q : Fin 128) :
    ((cfg2.win 6).blk t).view.emb (ix2 p q) = ix2 (row2 t p) q := by
  obtain ⟨-, -, -, -, -, -, -, -, -, -, -, -, e60, e61⟩ := idx_facts2 t
  refine funext fun a => Fin.ext ?_
  match a with
  | ⟨0, _⟩ => show win2_6.index t (0 : Fin 2) * 5000 + 1 * p.val = t.val * 5000 + p.val; omega
  | ⟨1, _⟩ => show win2_6.index t (1 : Fin 2) * 128 + 1 * q.val = q.val; omega

/-- What point `t` writes back is block `t` of the layer's function of the arrays the launch finds. -/
theorem flushed2 (c : Dev nD) (t : Fin cfg2.N) :
    (dat2 V c).flushed 6 t = ((cfg2.win 6).blk t).view.read (Elt Ideal)
      (layerK (V c main_v132) (V c main_v122) (V c main_v140) (V c main_v134) (V c main_v136) (V c main_v139)) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  show k2_pay1 (iblk2 V c 0 t) (iblk2 V c 2 t) (iblk2 V c 1 t) (iblk2 V c 3 t) (iblk2 V c 4 t) (iblk2 V c 5 t) (ix2 p q)
    = layerK (V c main_v132) (V c main_v122) (V c main_v140) (V c main_v134) (V c main_v136) (V c main_v139) (((cfg2.win 6).blk t).view.emb (ix2 p q))
  rw [emb2_6 t p q]
  refine (Cert.KernelIdeal.LayerPayload.k2_pay1_apply (iblk2 V c 0 t) (iblk2 V c 2 t) (iblk2 V c 1 t) (iblk2 V c 3 t)
    (iblk2 V c 4 t) (iblk2 V c 5 t) p q).trans ?_
  unfold layerK
  simp only [blk2_0 V c t, blk2_1 V c t, blk2_2 V c t, blk2_3 V c t, blk2_4 V c t, blk2_5 V c t]

/-- Every entry of the output array is in the block of the point its row falls in. -/
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  let t : Fin cfg2.N := ⟨(i 0).val / 5000, by rw [show cfg2.N = 10 from N_2]; omega⟩
  obtain ⟨-, -, -, -, -, -, -, -, -, -, -, -, e60, e61⟩ := idx_facts2 t
  have ht : t.val = (i 0).val / 5000 := rfl
  refine ⟨t, flush2_6 t, ?_⟩
  show i ∈ ((View.whole main_v141).slice (win2_6.rect t)).set
  rw [View.set_slice_whole, Rect.mem_set_unit]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

/-- After launch 2 its output array holds the layer's function of the arrays the launch found. -/
theorem final2 (c : Dev nD) : (dat2 V c).arrAt 6 cfg2.N
    = layerK (V c main_v132) (V c main_v122) (V c main_v140) (V c main_v134) (V c main_v136) (V c main_v139) :=
  (dat2 V c).arrAt_eq_of_cover 6 _ (fun t _ => flushed2 V c t) (cover2)

end Region2

end Cert.KernelIdeal.RegionValue

end
-- ==== Proof.LibTypedHEq.lean ====
/-
  A transport along a typed reference's type equation is, heterogeneously, its argument (a general lemma file; nothing
  here mentions a particular program).

  A typed reference carries an equation between its buffer's type and the type `T` of the tensor value it holds, and
  operations over typed references store and read values through a transport along that equation. Whatever the
  reference, the transported value is heterogeneously equal to the value: destructure the reference and substitute
  the equation. At a LITERAL reference the two types are the same by computation, so the heterogeneous equality is
  an equation — `eq_of_heq (toBuf_heq x v) : x.toBuf v = v` — which removes the transport without ever reducing it.
-/
import Idealize.ShloMosaic.Lib.StableHlo.Run

noncomputable section

namespace Cert.TypedRead

open Idealize.ShloMosaic Idealize.ShloMosaic.StableHlo

variable {sig : RefSig} {Val : EltTy → Type} {T : BufTy}

/-- Stored through a typed reference, a value is heterogeneously itself. -/
theorem toBuf_heq (x : TRef sig T) (v : T.Contents Val) : HEq (x.toBuf v) v := by
  obtain ⟨r, h, h1, h2⟩ := x
  subst h
  rfl

/-- Read back through a typed reference, a buffer's contents are heterogeneously themselves. -/
theorem ofBuf_heq (x : TRef sig T) (v : x.ref.ty.Contents Val) : HEq (x.ofBuf v) v := by
  obtain ⟨r, h, h1, h2⟩ := x
  subst h
  rfl

end Cert.TypedRead

end
-- ==== Proof.KernelValue.lean ====
/-
  What the kernel program's result buffer holds after the run.

  The program's buffers at each boundary between its segments are a fold from the launch memory: a stretch of host
  operations rewrites the buffers its operations write, a kernel launch rewrites its output array. Read one stretch at a
  time, from any contents `W` at its entry: the first stretches slice the edge list, sort the edges by destination and read
  source and destination through the sorted order, count the edges arriving at each node, aggregate the first layer's
  features and slice the first layer's parameters; each stretch after a launch normalises the launch's output, aggregates
  the next layer's features over the same sorted edges and slices the next layer's parameters; the last one normalises,
  sums the rows of each graph and applies the output head. A buffer no operation of a stretch writes keeps its contents,
  and a launch changes only its output array, which ends at the layer's function of the arrays the launch found
  (the launches' value). Chained from the launch memory, the result buffer holds `kerAll` of the arguments.
-/
import proofs.«126205_j20633022890229_2_alg».proof.Proof.Gen.KernelIdeal.Frame
import proofs.«126205_j20633022890229_2_alg».proof.Proof.Spec
import proofs.«126205_j20633022890229_2_alg».proof.Proof.RegionValue
import proofs.«126205_j20633022890229_2_alg».proof.Proof.LibTypedHEq
import Idealize.ShloMosaic.Lib.StableHlo.Run
import Idealize.ShloMosaic.PureOps.Ideal

set_option maxRecDepth 16384

noncomputable section

namespace Cert.KernelIdeal.KernelValue

open Idealize.ShloMosaic Idealize.ShloMosaic.TcCoe Idealize.ShloMosaic.StableHlo Idealize.SL.Sem
open Cert.KernelIdeal Cert.KernelIdeal.Gen Cert.Sage Cert.TypedRead

/-! ## Each stretch of host operations, from any contents at its entry -/

theorem s0_v1 (W : Valuation τ sig (Elt Ideal)) :
    (StableHlo.after (hostOps0 (F := Ideal)) W (Proc.devRef .tc main_v1) : S800000.Idx → BitVec 32) = srcOf (W (Proc.devRef .tc main_arg1)) := by
  dsimp only [hostOps0]; after_results_simp; rfl

theorem s0_v3 (W : Valuation τ sig (Elt Ideal)) :
    (StableHlo.after (hostOps0 (F := Ideal)) W (Proc.devRef .tc main_v3) : S800000.Idx → BitVec 32) = dstOf (W (Proc.devRef .tc main_arg1)) := by
  dsimp only [hostOps0]; after_results_simp; rfl

/-- The argsort stretch leaves the positions of the stably sorted destinations. -/
theorem s01_v4 (W : Valuation τ sig (Elt Ideal)) :
    (StableHlo.after (hostOps0_1 (F := Ideal)) W (Proc.devRef .tc main_v4) : S800000.Idx → BitVec 32) = orderOf (W (Proc.devRef .tc main_v3)) := by
  dsimp only [hostOps0_1]; after_results_simp
  refine (eq_of_heq (toBuf_heq _ _)).trans ?_
  unfold Cert.Sage.orderOf
  refine congrArg Prod.snd (congrArg₂ (Host.sort2 S800000 0 comparator_i32_i32_d0) ?_ ?_)
  · exact eq_of_heq (ofBuf_heq _ _)
  · exact (eq_of_heq (ofBuf_heq _ _)).trans (eq_of_heq (toBuf_heq _ _))

theorem s02_v11 (W : Valuation τ sig (Elt Ideal)) :
    (StableHlo.after (hostOps0_2 (F := Ideal)) W (Proc.devRef .tc main_v11) : S800000.Idx → BitVec 32) = permuteBy (W (Proc.devRef .tc main_v1)) (W (Proc.devRef .tc main_v4)) := by
  dsimp only [hostOps0_2]; after_results_simp; rfl

theorem s02_v18 (W : Valuation τ sig (Elt Ideal)) :
    (StableHlo.after (hostOps0_2 (F := Ideal)) W (Proc.devRef .tc main_v18) : S800000.Idx → BitVec 32) = permuteBy (W (Proc.devRef .tc main_v3)) (W (Proc.devRef .tc main_v4)) := by
  dsimp only [hostOps0_2]; after_results_simp; rfl

theorem s02_v26 (W : Valuation τ sig (Elt Ideal)) :
    (StableHlo.after (hostOps0_2 (F := Ideal)) W (Proc.devRef .tc main_v26) : S50000.Idx → EReal) = Host.divf (broadcastInDim S50000 ![] bcast_S_S50000 (constant (F := Ideal) S_ .f32 0x3F800000#32)) (degClamp (degOf (permuteBy (W (Proc.devRef .tc main_v3)) (W (Proc.devRef .tc main_v4))))) := by
  dsimp only [hostOps0_2]; after_results_simp; rfl

theorem s02_v36 (W : Valuation τ sig (Elt Ideal)) :
    (StableHlo.after (hostOps0_2 (F := Ideal)) W (Proc.devRef .tc main_v36) : S50000x128.Idx → EReal) = aggOf (W (Proc.devRef .tc main_arg0)) (permuteBy (W (Proc.devRef .tc main_v1)) (W (Proc.devRef .tc main_v4))) (permuteBy (W (Proc.devRef .tc main_v3)) (W (Proc.devRef .tc main_v4))) := by
  dsimp only [hostOps0_2]; after_results_simp; rfl

theorem s02_v44 (W : Valuation τ sig (Elt Ideal)) :
    (StableHlo.after (hostOps0_2 (F := Ideal)) W (Proc.devRef .tc main_v44) : S50000x1.Idx → EReal) = invDeg (degOf (permuteBy (W (Proc.devRef .tc main_v3)) (W (Proc.devRef .tc main_v4)))) := by
  dsimp only [hostOps0_2]; after_results_simp; rfl

theorem s02_v38 (W : Valuation τ sig (Elt Ideal)) :
    (StableHlo.after (hostOps0_2 (F := Ideal)) W (Proc.devRef .tc main_v38) : S128x128.Idx → EReal) = matOf0 (W (Proc.devRef .tc main_arg4)) := by
  dsimp only [hostOps0_2]; after_results_simp; rfl

theorem s02_v40 (W : Valuation τ sig (Elt Ideal)) :
    (StableHlo.after (hostOps0_2 (F := Ideal)) W (Proc.devRef .tc main_v40) : S128x128.Idx → EReal) = matOf0 (W (Proc.devRef .tc main_arg6)) := by
  dsimp only [hostOps0_2]; after_results_simp; rfl

theorem s02_v43 (W : Valuation τ sig (Elt Ideal)) :
    (StableHlo.after (hostOps0_2 (F := Ideal)) W (Proc.devRef .tc main_v43) : S1x128.Idx → EReal) = shapeCast S1x128 (rowOf0 (W (Proc.devRef .tc main_arg5))) shapeCasts_S128_S1x128 := by
  dsimp only [hostOps0_2]; after_results_simp; rfl

theorem s1_h (W : Valuation τ sig (Elt Ideal)) :
    (StableHlo.after (hostOps1 (F := Ideal)) W (Proc.devRef .tc main_v74) : S50000x128.Idx → EReal) = bnOf (W (Proc.devRef .tc main_v45)) (rowOf0 (W (Proc.devRef .tc main_arg7))) (rowOf0 (W (Proc.devRef .tc main_arg8))) := by
  dsimp only [hostOps1]; after_results_simp; rfl

theorem s1_agg (W : Valuation τ sig (Elt Ideal)) :
    (StableHlo.after (hostOps1 (F := Ideal)) W (Proc.devRef .tc main_v84) : S50000x128.Idx → EReal) = aggOf (bnOf (W (Proc.devRef .tc main_v45)) (rowOf0 (W (Proc.devRef .tc main_arg7))) (rowOf0 (W (Proc.devRef .tc main_arg8)))) (W (Proc.devRef .tc main_v11)) (W (Proc.devRef .tc main_v18)) := by
  dsimp only [hostOps1]; after_results_simp; rfl

theorem s1_inv (W : Valuation τ sig (Elt Ideal)) :
    (StableHlo.after (hostOps1 (F := Ideal)) W (Proc.devRef .tc main_v92) : S50000x1.Idx → EReal) = shapeCast S50000x1 (W (Proc.devRef .tc main_v26)) shapeCasts_S50000_S50000x1 := by
  dsimp only [hostOps1]; after_results_simp; rfl

theorem s1_wl (W : Valuation τ sig (Elt Ideal)) :
    (StableHlo.after (hostOps1 (F := Ideal)) W (Proc.devRef .tc main_v86) : S128x128.Idx → EReal) = matOf1 (W (Proc.devRef .tc main_arg4)) := by
  dsimp only [hostOps1]; after_results_simp; rfl

theorem s1_wr (W : Valuation τ sig (Elt Ideal)) :
    (StableHlo.after (hostOps1 (F := Ideal)) W (Proc.devRef .tc main_v88) : S128x128.Idx → EReal) = matOf1 (W (Proc.devRef .tc main_arg6)) := by
  dsimp only [hostOps1]; after_results_simp; rfl

theorem s1_b (W : Valuation τ sig (Elt Ideal)) :
    (StableHlo.after (hostOps1 (F := Ideal)) W (Proc.devRef .tc main_v91) : S1x128.Idx → EReal) = shapeCast S1x128 (rowOf1 (W (Proc.devRef .tc main_arg5))) shapeCasts_S128_S1x128 := by
  dsimp only [hostOps1]; after_results_simp; rfl

theorem s2_h (W : Valuation τ sig (Elt Ideal)) :
    (StableHlo.after (hostOps2 (F := Ideal)) W (Proc.devRef .tc main_v122) : S50000x128.Idx → EReal) = bnOf (W (Proc.devRef .tc main_v93)) (rowOf1 (W (Proc.devRef .tc main_arg7))) (rowOf1 (W (Proc.devRef .tc main_arg8))) := by
  dsimp only [hostOps2]; after_results_simp; rfl

theorem s2_agg (W : Valuation τ sig (Elt Ideal)) :
    (StableHlo.after (hostOps2 (F := Ideal)) W (Proc.devRef .tc main_v132) : S50000x128.Idx → EReal) = aggOf (bnOf (W (Proc.devRef .tc main_v93)) (rowOf1 (W (Proc.devRef .tc main_arg7))) (rowOf1 (W (Proc.devRef .tc main_arg8)))) (W (Proc.devRef .tc main_v11)) (W (Proc.devRef .tc main_v18)) := by
  dsimp only [hostOps2]; after_results_simp; rfl

theorem s2_inv (W : Valuation τ sig (Elt Ideal)) :
    (StableHlo.after (hostOps2 (F := Ideal)) W (Proc.devRef .tc main_v140) : S50000x1.Idx → EReal) = shapeCast S50000x1 (W (Proc.devRef .tc main_v26)) shapeCasts_S50000_S50000x1 := by
  dsimp only [hostOps2]; after_results_simp; rfl

theorem s2_wl (W : Valuation τ sig (Elt Ideal)) :
    (StableHlo.after (hostOps2 (F := Ideal)) W (Proc.devRef .tc main_v134) : S128x128.Idx → EReal) = matOf2 (W (Proc.devRef .tc main_arg4)) := by
  dsimp only [hostOps2]; after_results_simp; rfl

theorem s2_wr (W : Valuation τ sig (Elt Ideal)) :
    (StableHlo.after (hostOps2 (F := Ideal)) W (Proc.devRef .tc main_v136) : S128x128.Idx → EReal) = matOf2 (W (Proc.devRef .tc main_arg6)) := by
  dsimp only [hostOps2]; after_results_simp; rfl

theorem s2_b (W : Valuation τ sig (Elt Ideal)) :
    (StableHlo.after (hostOps2 (F := Ideal)) W (Proc.devRef .tc main_v139) : S1x128.Idx → EReal) = shapeCast S1x128 (rowOf2 (W (Proc.devRef .tc main_arg5))) shapeCasts_S128_S1x128 := by
  dsimp only [hostOps2]; after_results_simp; rfl

theorem s3_out (W : Valuation τ sig (Elt Ideal)) :
    (StableHlo.after (hostOps3 (F := Ideal)) W (Proc.devRef .tc main_v184) : S64x1.Idx → EReal) = tailOf (bnOf (W (Proc.devRef .tc main_v141)) (rowOf2 (W (Proc.devRef .tc main_arg7))) (rowOf2 (W (Proc.devRef .tc main_arg8)))) (W (Proc.devRef .tc main_arg3)) (W (Proc.devRef .tc main_arg9)) (W (Proc.devRef .tc main_arg10)) := by
  dsimp only [hostOps3]; after_results_simp; rfl

/-! ## Buffers a stretch does not write keep their contents -/

theorem s0_keep_arg0 (W : Valuation τ sig (Elt Ideal)) :
    StableHlo.after (hostOps0 (F := Ideal)) W (Proc.devRef .tc main_arg0) = W (Proc.devRef .tc main_arg0) := by
  dsimp only [hostOps0]; after_results_simp
theorem s0_keep_arg3 (W : Valuation τ sig (Elt Ideal)) :
    StableHlo.after (hostOps0 (F := Ideal)) W (Proc.devRef .tc main_arg3) = W (Proc.devRef .tc main_arg3) := by
  dsimp only [hostOps0]; after_results_simp
theorem s0_keep_arg4 (W : Valuation τ sig (Elt Ideal)) :
    StableHlo.after (hostOps0 (F := Ideal)) W (Proc.devRef .tc main_arg4) = W (Proc.devRef .tc main_arg4) := by
  dsimp only [hostOps0]; after_results_simp
theorem s0_keep_arg5 (W : Valuation τ sig (Elt Ideal)) :
    StableHlo.after (hostOps0 (F := Ideal)) W (Proc.devRef .tc main_arg5) = W (Proc.devRef .tc main_arg5) := by
  dsimp only [hostOps0]; after_results_simp
theorem s0_keep_arg6 (W : Valuation τ sig (Elt Ideal)) :
    StableHlo.after (hostOps0 (F := Ideal)) W (Proc.devRef .tc main_arg6) = W (Proc.devRef .tc main_arg6) := by
  dsimp only [hostOps0]; after_results_simp
theorem s0_keep_arg7 (W : Valuation τ sig (Elt Ideal)) :
    StableHlo.after (hostOps0 (F := Ideal)) W (Proc.devRef .tc main_arg7) = W (Proc.devRef .tc main_arg7) := by
  dsimp only [hostOps0]; after_results_simp
theorem s0_keep_arg8 (W : Valuation τ sig (Elt Ideal)) :
    StableHlo.after (hostOps0 (F := Ideal)) W (Proc.devRef .tc main_arg8) = W (Proc.devRef .tc main_arg8) := by
  dsimp only [hostOps0]; after_results_simp
theorem s0_keep_arg9 (W : Valuation τ sig (Elt Ideal)) :
    StableHlo.after (hostOps0 (F := Ideal)) W (Proc.devRef .tc main_arg9) = W (Proc.devRef .tc main_arg9) := by
  dsimp only [hostOps0]; after_results_simp
theorem s0_keep_arg10 (W : Valuation τ sig (Elt Ideal)) :
    StableHlo.after (hostOps0 (F := Ideal)) W (Proc.devRef .tc main_arg10) = W (Proc.devRef .tc main_arg10) := by
  dsimp only [hostOps0]; after_results_simp
theorem s01_keep_v1 (W : Valuation τ sig (Elt Ideal)) :
    StableHlo.after (hostOps0_1 (F := Ideal)) W (Proc.devRef .tc main_v1) = W (Proc.devRef .tc main_v1) := by
  dsimp only [hostOps0_1]; after_results_simp
theorem s01_keep_v3 (W : Valuation τ sig (Elt Ideal)) :
    StableHlo.after (hostOps0_1 (F := Ideal)) W (Proc.devRef .tc main_v3) = W (Proc.devRef .tc main_v3) := by
  dsimp only [hostOps0_1]; after_results_simp
theorem s01_keep_arg0 (W : Valuation τ sig (Elt Ideal)) :
    StableHlo.after (hostOps0_1 (F := Ideal)) W (Proc.devRef .tc main_arg0) = W (Proc.devRef .tc main_arg0) := by
  dsimp only [hostOps0_1]; after_results_simp
theorem s01_keep_arg3 (W : Valuation τ sig (Elt Ideal)) :
    StableHlo.after (hostOps0_1 (F := Ideal)) W (Proc.devRef .tc main_arg3) = W (Proc.devRef .tc main_arg3) := by
  dsimp only [hostOps0_1]; after_results_simp
theorem s01_keep_arg4 (W : Valuation τ sig (Elt Ideal)) :
    StableHlo.after (hostOps0_1 (F := Ideal)) W (Proc.devRef .tc main_arg4) = W (Proc.devRef .tc main_arg4) := by
  dsimp only [hostOps0_1]; after_results_simp
theorem s01_keep_arg5 (W : Valuation τ sig (Elt Ideal)) :
    StableHlo.after (hostOps0_1 (F := Ideal)) W (Proc.devRef .tc main_arg5) = W (Proc.devRef .tc main_arg5) := by
  dsimp only [hostOps0_1]; after_results_simp
theorem s01_keep_arg6 (W : Valuation τ sig (Elt Ideal)) :
    StableHlo.after (hostOps0_1 (F := Ideal)) W (Proc.devRef .tc main_arg6) = W (Proc.devRef .tc main_arg6) := by
  dsimp only [hostOps0_1]; after_results_simp
theorem s01_keep_arg7 (W : Valuation τ sig (Elt Ideal)) :
    StableHlo.after (hostOps0_1 (F := Ideal)) W (Proc.devRef .tc main_arg7) = W (Proc.devRef .tc main_arg7) := by
  dsimp only [hostOps0_1]; after_results_simp
theorem s01_keep_arg8 (W : Valuation τ sig (Elt Ideal)) :
    StableHlo.after (hostOps0_1 (F := Ideal)) W (Proc.devRef .tc main_arg8) = W (Proc.devRef .tc main_arg8) := by
  dsimp only [hostOps0_1]; after_results_simp
theorem s01_keep_arg9 (W : Valuation τ sig (Elt Ideal)) :
    StableHlo.after (hostOps0_1 (F := Ideal)) W (Proc.devRef .tc main_arg9) = W (Proc.devRef .tc main_arg9) := by
  dsimp only [hostOps0_1]; after_results_simp
theorem s01_keep_arg10 (W : Valuation τ sig (Elt Ideal)) :
    StableHlo.after (hostOps0_1 (F := Ideal)) W (Proc.devRef .tc main_arg10) = W (Proc.devRef .tc main_arg10) := by
  dsimp only [hostOps0_1]; after_results_simp
theorem s02_keep_arg0 (W : Valuation τ sig (Elt Ideal)) :
    StableHlo.after (hostOps0_2 (F := Ideal)) W (Proc.devRef .tc main_arg0) = W (Proc.devRef .tc main_arg0) := by
  dsimp only [hostOps0_2]; after_results_simp
theorem s02_keep_arg3 (W : Valuation τ sig (Elt Ideal)) :
    StableHlo.after (hostOps0_2 (F := Ideal)) W (Proc.devRef .tc main_arg3) = W (Proc.devRef .tc main_arg3) := by
  dsimp only [hostOps0_2]; after_results_simp
theorem s02_keep_arg4 (W : Valuation τ sig (Elt Ideal)) :
    StableHlo.after (hostOps0_2 (F := Ideal)) W (Proc.devRef .tc main_arg4) = W (Proc.devRef .tc main_arg4) := by
  dsimp only [hostOps0_2]; after_results_simp
theorem s02_keep_arg5 (W : Valuation τ sig (Elt Ideal)) :
    StableHlo.after (hostOps0_2 (F := Ideal)) W (Proc.devRef .tc main_arg5) = W (Proc.devRef .tc main_arg5) := by
  dsimp only [hostOps0_2]; after_results_simp
theorem s02_keep_arg6 (W : Valuation τ sig (Elt Ideal)) :
    StableHlo.after (hostOps0_2 (F := Ideal)) W (Proc.devRef .tc main_arg6) = W (Proc.devRef .tc main_arg6) := by
  dsimp only [hostOps0_2]; after_results_simp
theorem s02_keep_arg7 (W : Valuation τ sig (Elt Ideal)) :
    StableHlo.after (hostOps0_2 (F := Ideal)) W (Proc.devRef .tc main_arg7) = W (Proc.devRef .tc main_arg7) := by
  dsimp only [hostOps0_2]; after_results_simp
theorem s02_keep_arg8 (W : Valuation τ sig (Elt Ideal)) :
    StableHlo.after (hostOps0_2 (F := Ideal)) W (Proc.devRef .tc main_arg8) = W (Proc.devRef .tc main_arg8) := by
  dsimp only [hostOps0_2]; after_results_simp
theorem s02_keep_arg9 (W : Valuation τ sig (Elt Ideal)) :
    StableHlo.after (hostOps0_2 (F := Ideal)) W (Proc.devRef .tc main_arg9) = W (Proc.devRef .tc main_arg9) := by
  dsimp only [hostOps0_2]; after_results_simp
theorem s02_keep_arg10 (W : Valuation τ sig (Elt Ideal)) :
    StableHlo.after (hostOps0_2 (F := Ideal)) W (Proc.devRef .tc main_arg10) = W (Proc.devRef .tc main_arg10) := by
  dsimp only [hostOps0_2]; after_results_simp
theorem s1_keep_v11 (W : Valuation τ sig (Elt Ideal)) :
    StableHlo.after (hostOps1 (F := Ideal)) W (Proc.devRef .tc main_v11) = W (Proc.devRef .tc main_v11) := by
  dsimp only [hostOps1]; after_results_simp
theorem s1_keep_v18 (W : Valuation τ sig (Elt Ideal)) :
    StableHlo.after (hostOps1 (F := Ideal)) W (Proc.devRef .tc main_v18) = W (Proc.devRef .tc main_v18) := by
  dsimp only [hostOps1]; after_results_simp
theorem s1_keep_v26 (W : Valuation τ sig (Elt Ideal)) :
    StableHlo.after (hostOps1 (F := Ideal)) W (Proc.devRef .tc main_v26) = W (Proc.devRef .tc main_v26) := by
  dsimp only [hostOps1]; after_results_simp
theorem s1_keep_arg3 (W : Valuation τ sig (Elt Ideal)) :
    StableHlo.after (hostOps1 (F := Ideal)) W (Proc.devRef .tc main_arg3) = W (Proc.devRef .tc main_arg3) := by
  dsimp only [hostOps1]; after_results_simp
theorem s1_keep_arg4 (W : Valuation τ sig (Elt Ideal)) :
    StableHlo.after (hostOps1 (F := Ideal)) W (Proc.devRef .tc main_arg4) = W (Proc.devRef .tc main_arg4) := by
  dsimp only [hostOps1]; after_results_simp
theorem s1_keep_arg5 (W : Valuation τ sig (Elt Ideal)) :
    StableHlo.after (hostOps1 (F := Ideal)) W (Proc.devRef .tc main_arg5) = W (Proc.devRef .tc main_arg5) := by
  dsimp only [hostOps1]; after_results_simp
theorem s1_keep_arg6 (W : Valuation τ sig (Elt Ideal)) :
    StableHlo.after (hostOps1 (F := Ideal)) W (Proc.devRef .tc main_arg6) = W (Proc.devRef .tc main_arg6) := by
  dsimp only [hostOps1]; after_results_simp
theorem s1_keep_arg7 (W : Valuation τ sig (Elt Ideal)) :
    StableHlo.after (hostOps1 (F := Ideal)) W (Proc.devRef .tc main_arg7) = W (Proc.devRef .tc main_arg7) := by
  dsimp only [hostOps1]; after_results_simp
theorem s1_keep_arg8 (W : Valuation τ sig (Elt Ideal)) :
    StableHlo.after (hostOps1 (F := Ideal)) W (Proc.devRef .tc main_arg8) = W (Proc.devRef .tc main_arg8) := by
  dsimp only [hostOps1]; after_results_simp
theorem s1_keep_arg9 (W : Valuation τ sig (Elt Ideal)) :
    StableHlo.after (hostOps1 (F := Ideal)) W (Proc.devRef .tc main_arg9) = W (Proc.devRef .tc main_arg9) := by
  dsimp only [hostOps1]; after_results_simp
theorem s1_keep_arg10 (W : Valuation τ sig (Elt Ideal)) :
    StableHlo.after (hostOps1 (F := Ideal)) W (Proc.devRef .tc main_arg10) = W (Proc.devRef .tc main_arg10) := by
  dsimp only [hostOps1]; after_results_simp
theorem s2_keep_arg3 (W : Valuation τ sig (Elt Ideal)) :
    StableHlo.after (hostOps2 (F := Ideal)) W (Proc.devRef .tc main_arg3) = W (Proc.devRef .tc main_arg3) := by
  dsimp only [hostOps2]; after_results_simp
theorem s2_keep_arg7 (W : Valuation τ sig (Elt Ideal)) :
    StableHlo.after (hostOps2 (F := Ideal)) W (Proc.devRef .tc main_arg7) = W (Proc.devRef .tc main_arg7) := by
  dsimp only [hostOps2]; after_results_simp
theorem s2_keep_arg8 (W : Valuation τ sig (Elt Ideal)) :
    StableHlo.after (hostOps2 (F := Ideal)) W (Proc.devRef .tc main_arg8) = W (Proc.devRef .tc main_arg8) := by
  dsimp only [hostOps2]; after_results_simp
theorem s2_keep_arg9 (W : Valuation τ sig (Elt Ideal)) :
    StableHlo.after (hostOps2 (F := Ideal)) W (Proc.devRef .tc main_arg9) = W (Proc.devRef .tc main_arg9) := by
  dsimp only [hostOps2]; after_results_simp
theorem s2_keep_arg10 (W : Valuation τ sig (Elt Ideal)) :
    StableHlo.after (hostOps2 (F := Ideal)) W (Proc.devRef .tc main_arg10) = W (Proc.devRef .tc main_arg10) := by
  dsimp only [hostOps2]; after_results_simp

/-! ## The buffers at the segment boundaries, from the launch memory -/

section Chain

variable (m : (ℓ : Loc nD τ sig) → Buf (Elt Ideal) ℓ) (ρ : Dev nD → PrngReg)

/-- The sources and the destinations of the edges in the sorted order. -/
abbrev sS (c : Dev nD) : EdgeIx := permuteBy (srcOf (m ((c : Thread nD τ).loc main_arg1))) (orderOf (dstOf (m ((c : Thread nD τ).loc main_arg1))))
abbrev dS (c : Dev nD) : EdgeIx := permuteBy (dstOf (m ((c : Thread nD τ).loc main_arg1))) (orderOf (dstOf (m ((c : Thread nD τ).loc main_arg1))))
/-- The three launches' outputs and their normalisations. -/
abbrev p1 (c : Dev nD) : Feat := layerK (aggOf (m ((c : Thread nD τ).loc main_arg0)) (sS m c) (dS m c)) (m ((c : Thread nD τ).loc main_arg0)) (invDeg (degOf (dS m c))) (matOf0 (m ((c : Thread nD τ).loc main_arg4))) (matOf0 (m ((c : Thread nD τ).loc main_arg6))) (shapeCast S1x128 (rowOf0 (m ((c : Thread nD τ).loc main_arg5))) shapeCasts_S128_S1x128)
abbrev f1 (c : Dev nD) : Feat := bnOf (p1 m c) (rowOf0 (m ((c : Thread nD τ).loc main_arg7))) (rowOf0 (m ((c : Thread nD τ).loc main_arg8)))
abbrev p2 (c : Dev nD) : Feat := layerK (aggOf (f1 m c) (sS m c) (dS m c)) (f1 m c) (invDeg (degOf (dS m c))) (matOf1 (m ((c : Thread nD τ).loc main_arg4))) (matOf1 (m ((c : Thread nD τ).loc main_arg6))) (shapeCast S1x128 (rowOf1 (m ((c : Thread nD τ).loc main_arg5))) shapeCasts_S128_S1x128)
abbrev f2 (c : Dev nD) : Feat := bnOf (p2 m c) (rowOf1 (m ((c : Thread nD τ).loc main_arg7))) (rowOf1 (m ((c : Thread nD τ).loc main_arg8)))
abbrev p3 (c : Dev nD) : Feat := layerK (aggOf (f2 m c) (sS m c) (dS m c)) (f2 m c) (invDeg (degOf (dS m c))) (matOf2 (m ((c : Thread nD τ).loc main_arg4))) (matOf2 (m ((c : Thread nD τ).loc main_arg6))) (shapeCast S1x128 (rowOf2 (m ((c : Thread nD τ).loc main_arg5))) shapeCasts_S128_S1x128)

theorem W1_arg0 (c : Dev nD) : (W1 m ρ c (Proc.devRef .tc main_arg0) : S50000x128.Idx → EReal) = (m ((c : Thread nD τ).loc main_arg0)) :=
  s0_keep_arg0 (W0 m ρ c)
theorem W2_arg0 (c : Dev nD) : (W2 m ρ c (Proc.devRef .tc main_arg0) : S50000x128.Idx → EReal) = (m ((c : Thread nD τ).loc main_arg0)) :=
  (s01_keep_arg0 (W1 m ρ c)).trans (W1_arg0 m ρ c)
theorem W3_arg0 (c : Dev nD) : (W3 m ρ c (Proc.devRef .tc main_arg0) : S50000x128.Idx → EReal) = (m ((c : Thread nD τ).loc main_arg0)) :=
  (s02_keep_arg0 (W2 m ρ c)).trans (W2_arg0 m ρ c)

theorem W1_arg3 (c : Dev nD) : (W1 m ρ c (Proc.devRef .tc main_arg3) : S50000.Idx → BitVec 32) = (m ((c : Thread nD τ).loc main_arg3)) :=
  s0_keep_arg3 (W0 m ρ c)
theorem W2_arg3 (c : Dev nD) : (W2 m ρ c (Proc.devRef .tc main_arg3) : S50000.Idx → BitVec 32) = (m ((c : Thread nD τ).loc main_arg3)) :=
  (s01_keep_arg3 (W1 m ρ c)).trans (W1_arg3 m ρ c)
theorem W3_arg3 (c : Dev nD) : (W3 m ρ c (Proc.devRef .tc main_arg3) : S50000.Idx → BitVec 32) = (m ((c : Thread nD τ).loc main_arg3)) :=
  (s02_keep_arg3 (W2 m ρ c)).trans (W2_arg3 m ρ c)
theorem W4_arg3 (c : Dev nD) : (W4 m ρ c (Proc.devRef .tc main_arg3) : S50000.Idx → BitVec 32) = (m ((c : Thread nD τ).loc main_arg3)) :=
  (W4_of_ne m ρ c main_arg3 (by decide)).trans (W3_arg3 m ρ c)
theorem W5_arg3 (c : Dev nD) : (W5 m ρ c (Proc.devRef .tc main_arg3) : S50000.Idx → BitVec 32) = (m ((c : Thread nD τ).loc main_arg3)) :=
  (s1_keep_arg3 (W4 m ρ c)).trans (W4_arg3 m ρ c)
theorem W6_arg3 (c : Dev nD) : (W6 m ρ c (Proc.devRef .tc main_arg3) : S50000.Idx → BitVec 32) = (m ((c : Thread nD τ).loc main_arg3)) :=
  (W6_of_ne m ρ c main_arg3 (by decide)).trans (W5_arg3 m ρ c)
theorem W7_arg3 (c : Dev nD) : (W7 m ρ c (Proc.devRef .tc main_arg3) : S50000.Idx → BitVec 32) = (m ((c : Thread nD τ).loc main_arg3)) :=
  (s2_keep_arg3 (W6 m ρ c)).trans (W6_arg3 m ρ c)
theorem W8_arg3 (c : Dev nD) : (W8 m ρ c (Proc.devRef .tc main_arg3) : S50000.Idx → BitVec 32) = (m ((c : Thread nD τ).loc main_arg3)) :=
  (W8_of_ne m ρ c main_arg3 (by decide)).trans (W7_arg3 m ρ c)

theorem W1_arg4 (c : Dev nD) : (W1 m ρ c (Proc.devRef .tc main_arg4) : S3x128x128.Idx → EReal) = (m ((c : Thread nD τ).loc main_arg4)) :=
  s0_keep_arg4 (W0 m ρ c)
theorem W2_arg4 (c : Dev nD) : (W2 m ρ c (Proc.devRef .tc main_arg4) : S3x128x128.Idx → EReal) = (m ((c : Thread nD τ).loc main_arg4)) :=
  (s01_keep_arg4 (W1 m ρ c)).trans (W1_arg4 m ρ c)
theorem W3_arg4 (c : Dev nD) : (W3 m ρ c (Proc.devRef .tc main_arg4) : S3x128x128.Idx → EReal) = (m ((c : Thread nD τ).loc main_arg4)) :=
  (s02_keep_arg4 (W2 m ρ c)).trans (W2_arg4 m ρ c)
theorem W4_arg4 (c : Dev nD) : (W4 m ρ c (Proc.devRef .tc main_arg4) : S3x128x128.Idx → EReal) = (m ((c : Thread nD τ).loc main_arg4)) :=
  (W4_of_ne m ρ c main_arg4 (by decide)).trans (W3_arg4 m ρ c)
theorem W5_arg4 (c : Dev nD) : (W5 m ρ c (Proc.devRef .tc main_arg4) : S3x128x128.Idx → EReal) = (m ((c : Thread nD τ).loc main_arg4)) :=
  (s1_keep_arg4 (W4 m ρ c)).trans (W4_arg4 m ρ c)
theorem W6_arg4 (c : Dev nD) : (W6 m ρ c (Proc.devRef .tc main_arg4) : S3x128x128.Idx → EReal) = (m ((c : Thread nD τ).loc main_arg4)) :=
  (W6_of_ne m ρ c main_arg4 (by decide)).trans (W5_arg4 m ρ c)

theorem W1_arg5 (c : Dev nD) : (W1 m ρ c (Proc.devRef .tc main_arg5) : S3x128.Idx → EReal) = (m ((c : Thread nD τ).loc main_arg5)) :=
  s0_keep_arg5 (W0 m ρ c)
theorem W2_arg5 (c : Dev nD) : (W2 m ρ c (Proc.devRef .tc main_arg5) : S3x128.Idx → EReal) = (m ((c : Thread nD τ).loc main_arg5)) :=
  (s01_keep_arg5 (W1 m ρ c)).trans (W1_arg5 m ρ c)
theorem W3_arg5 (c : Dev nD) : (W3 m ρ c (Proc.devRef .tc main_arg5) : S3x128.Idx → EReal) = (m ((c : Thread nD τ).loc main_arg5)) :=
  (s02_keep_arg5 (W2 m ρ c)).trans (W2_arg5 m ρ c)
theorem W4_arg5 (c : Dev nD) : (W4 m ρ c (Proc.devRef .tc main_arg5) : S3x128.Idx → EReal) = (m ((c : Thread nD τ).loc main_arg5)) :=
  (W4_of_ne m ρ c main_arg5 (by decide)).trans (W3_arg5 m ρ c)
theorem W5_arg5 (c : Dev nD) : (W5 m ρ c (Proc.devRef .tc main_arg5) : S3x128.Idx → EReal) = (m ((c : Thread nD τ).loc main_arg5)) :=
  (s1_keep_arg5 (W4 m ρ c)).trans (W4_arg5 m ρ c)
theorem W6_arg5 (c : Dev nD) : (W6 m ρ c (Proc.devRef .tc main_arg5) : S3x128.Idx → EReal) = (m ((c : Thread nD τ).loc main_arg5)) :=
  (W6_of_ne m ρ c main_arg5 (by decide)).trans (W5_arg5 m ρ c)

theorem W1_arg6 (c : Dev nD) : (W1 m ρ c (Proc.devRef .tc main_arg6) : S3x128x128.Idx → EReal) = (m ((c : Thread nD τ).loc main_arg6)) :=
  s0_keep_arg6 (W0 m ρ c)
theorem W2_arg6 (c : Dev nD) : (W2 m ρ c (Proc.devRef .tc main_arg6) : S3x128x128.Idx → EReal) = (m ((c : Thread nD τ).loc main_arg6)) :=
  (s01_keep_arg6 (W1 m ρ c)).trans (W1_arg6 m ρ c)
theorem W3_arg6 (c : Dev nD) : (W3 m ρ c (Proc.devRef .tc main_arg6) : S3x128x128.Idx → EReal) = (m ((c : Thread nD τ).loc main_arg6)) :=
  (s02_keep_arg6 (W2 m ρ c)).trans (W2_arg6 m ρ c)
theorem W4_arg6 (c : Dev nD) : (W4 m ρ c (Proc.devRef .tc main_arg6) : S3x128x128.Idx → EReal) = (m ((c : Thread nD τ).loc main_arg6)) :=
  (W4_of_ne m ρ c main_arg6 (by decide)).trans (W3_arg6 m ρ c)
theorem W5_arg6 (c : Dev nD) : (W5 m ρ c (Proc.devRef .tc main_arg6) : S3x128x128.Idx → EReal) = (m ((c : Thread nD τ).loc main_arg6)) :=
  (s1_keep_arg6 (W4 m ρ c)).trans (W4_arg6 m ρ c)
theorem W6_arg6 (c : Dev nD) : (W6 m ρ c (Proc.devRef .tc main_arg6) : S3x128x128.Idx → EReal) = (m ((c : Thread nD τ).loc main_arg6)) :=
  (W6_of_ne m ρ c main_arg6 (by decide)).trans (W5_arg6 m ρ c)

theorem W1_arg7 (c : Dev nD) : (W1 m ρ c (Proc.devRef .tc main_arg7) : S3x128.Idx → EReal) = (m ((c : Thread nD τ).loc main_arg7)) :=
  s0_keep_arg7 (W0 m ρ c)
theorem W2_arg7 (c : Dev nD) : (W2 m ρ c (Proc.devRef .tc main_arg7) : S3x128.Idx → EReal) = (m ((c : Thread nD τ).loc main_arg7)) :=
  (s01_keep_arg7 (W1 m ρ c)).trans (W1_arg7 m ρ c)
theorem W3_arg7 (c : Dev nD) : (W3 m ρ c (Proc.devRef .tc main_arg7) : S3x128.Idx → EReal) = (m ((c : Thread nD τ).loc main_arg7)) :=
  (s02_keep_arg7 (W2 m ρ c)).trans (W2_arg7 m ρ c)
theorem W4_arg7 (c : Dev nD) : (W4 m ρ c (Proc.devRef .tc main_arg7) : S3x128.Idx → EReal) = (m ((c : Thread nD τ).loc main_arg7)) :=
  (W4_of_ne m ρ c main_arg7 (by decide)).trans (W3_arg7 m ρ c)
theorem W5_arg7 (c : Dev nD) : (W5 m ρ c (Proc.devRef .tc main_arg7) : S3x128.Idx → EReal) = (m ((c : Thread nD τ).loc main_arg7)) :=
  (s1_keep_arg7 (W4 m ρ c)).trans (W4_arg7 m ρ c)
theorem W6_arg7 (c : Dev nD) : (W6 m ρ c (Proc.devRef .tc main_arg7) : S3x128.Idx → EReal) = (m ((c : Thread nD τ).loc main_arg7)) :=
  (W6_of_ne m ρ c main_arg7 (by decide)).trans (W5_arg7 m ρ c)
theorem W7_arg7 (c : Dev nD) : (W7 m ρ c (Proc.devRef .tc main_arg7) : S3x128.Idx → EReal) = (m ((c : Thread nD τ).loc main_arg7)) :=
  (s2_keep_arg7 (W6 m ρ c)).trans (W6_arg7 m ρ c)
theorem W8_arg7 (c : Dev nD) : (W8 m ρ c (Proc.devRef .tc main_arg7) : S3x128.Idx → EReal) = (m ((c : Thread nD τ).loc main_arg7)) :=
  (W8_of_ne m ρ c main_arg7 (by decide)).trans (W7_arg7 m ρ c)

theorem W1_arg8 (c : Dev nD) : (W1 m ρ c (Proc.devRef .tc main_arg8) : S3x128.Idx → EReal) = (m ((c : Thread nD τ).loc main_arg8)) :=
  s0_keep_arg8 (W0 m ρ c)
theorem W2_arg8 (c : Dev nD) : (W2 m ρ c (Proc.devRef .tc main_arg8) : S3x128.Idx → EReal) = (m ((c : Thread nD τ).loc main_arg8)) :=
  (s01_keep_arg8 (W1 m ρ c)).trans (W1_arg8 m ρ c)
theorem W3_arg8 (c : Dev nD) : (W3 m ρ c (Proc.devRef .tc main_arg8) : S3x128.Idx → EReal) = (m ((c : Thread nD τ).loc main_arg8)) :=
  (s02_keep_arg8 (W2 m ρ c)).trans (W2_arg8 m ρ c)
theorem W4_arg8 (c : Dev nD) : (W4 m ρ c (Proc.devRef .tc main_arg8) : S3x128.Idx → EReal) = (m ((c : Thread nD τ).loc main_arg8)) :=
  (W4_of_ne m ρ c main_arg8 (by decide)).trans (W3_arg8 m ρ c)
theorem W5_arg8 (c : Dev nD) : (W5 m ρ c (Proc.devRef .tc main_arg8) : S3x128.Idx → EReal) = (m ((c : Thread nD τ).loc main_arg8)) :=
  (s1_keep_arg8 (W4 m ρ c)).trans (W4_arg8 m ρ c)
theorem W6_arg8 (c : Dev nD) : (W6 m ρ c (Proc.devRef .tc main_arg8) : S3x128.Idx → EReal) = (m ((c : Thread nD τ).loc main_arg8)) :=
  (W6_of_ne m ρ c main_arg8 (by decide)).trans (W5_arg8 m ρ c)
theorem W7_arg8 (c : Dev nD) : (W7 m ρ c (Proc.devRef .tc main_arg8) : S3x128.Idx → EReal) = (m ((c : Thread nD τ).loc main_arg8)) :=
  (s2_keep_arg8 (W6 m ρ c)).trans (W6_arg8 m ρ c)
theorem W8_arg8 (c : Dev nD) : (W8 m ρ c (Proc.devRef .tc main_arg8) : S3x128.Idx → EReal) = (m ((c : Thread nD τ).loc main_arg8)) :=
  (W8_of_ne m ρ c main_arg8 (by decide)).trans (W7_arg8 m ρ c)

theorem W1_arg9 (c : Dev nD) : (W1 m ρ c (Proc.devRef .tc main_arg9) : S1x128.Idx → EReal) = (m ((c : Thread nD τ).loc main_arg9)) :=
  s0_keep_arg9 (W0 m ρ c)
theorem W2_arg9 (c : Dev nD) : (W2 m ρ c (Proc.devRef .tc main_arg9) : S1x128.Idx → EReal) = (m ((c : Thread nD τ).loc main_arg9)) :=
  (s01_keep_arg9 (W1 m ρ c)).trans (W1_arg9 m ρ c)
theorem W3_arg9 (c : Dev nD) : (W3 m ρ c (Proc.devRef .tc main_arg9) : S1x128.Idx → EReal) = (m ((c : Thread nD τ).loc main_arg9)) :=
  (s02_keep_arg9 (W2 m ρ c)).trans (W2_arg9 m ρ c)
theorem W4_arg9 (c : Dev nD) : (W4 m ρ c (Proc.devRef .tc main_arg9) : S1x128.Idx → EReal) = (m ((c : Thread nD τ).loc main_arg9)) :=
  (W4_of_ne m ρ c main_arg9 (by decide)).trans (W3_arg9 m ρ c)
theorem W5_arg9 (c : Dev nD) : (W5 m ρ c (Proc.devRef .tc main_arg9) : S1x128.Idx → EReal) = (m ((c : Thread nD τ).loc main_arg9)) :=
  (s1_keep_arg9 (W4 m ρ c)).trans (W4_arg9 m ρ c)
theorem W6_arg9 (c : Dev nD) : (W6 m ρ c (Proc.devRef .tc main_arg9) : S1x128.Idx → EReal) = (m ((c : Thread nD τ).loc main_arg9)) :=
  (W6_of_ne m ρ c main_arg9 (by decide)).trans (W5_arg9 m ρ c)
theorem W7_arg9 (c : Dev nD) : (W7 m ρ c (Proc.devRef .tc main_arg9) : S1x128.Idx → EReal) = (m ((c : Thread nD τ).loc main_arg9)) :=
  (s2_keep_arg9 (W6 m ρ c)).trans (W6_arg9 m ρ c)
theorem W8_arg9 (c : Dev nD) : (W8 m ρ c (Proc.devRef .tc main_arg9) : S1x128.Idx → EReal) = (m ((c : Thread nD τ).loc main_arg9)) :=
  (W8_of_ne m ρ c main_arg9 (by decide)).trans (W7_arg9 m ρ c)

theorem W1_arg10 (c : Dev nD) : (W1 m ρ c (Proc.devRef .tc main_arg10) : S1.Idx → EReal) = (m ((c : Thread nD τ).loc main_arg10)) :=
  s0_keep_arg10 (W0 m ρ c)
theorem W2_arg10 (c : Dev nD) : (W2 m ρ c (Proc.devRef .tc main_arg10) : S1.Idx → EReal) = (m ((c : Thread nD τ).loc main_arg10)) :=
  (s01_keep_arg10 (W1 m ρ c)).trans (W1_arg10 m ρ c)
theorem W3_arg10 (c : Dev nD) : (W3 m ρ c (Proc.devRef .tc main_arg10) : S1.Idx → EReal) = (m ((c : Thread nD τ).loc main_arg10)) :=
  (s02_keep_arg10 (W2 m ρ c)).trans (W2_arg10 m ρ c)
theorem W4_arg10 (c : Dev nD) : (W4 m ρ c (Proc.devRef .tc main_arg10) : S1.Idx → EReal) = (m ((c : Thread nD τ).loc main_arg10)) :=
  (W4_of_ne m ρ c main_arg10 (by decide)).trans (W3_arg10 m ρ c)
theorem W5_arg10 (c : Dev nD) : (W5 m ρ c (Proc.devRef .tc main_arg10) : S1.Idx → EReal) = (m ((c : Thread nD τ).loc main_arg10)) :=
  (s1_keep_arg10 (W4 m ρ c)).trans (W4_arg10 m ρ c)
theorem W6_arg10 (c : Dev nD) : (W6 m ρ c (Proc.devRef .tc main_arg10) : S1.Idx → EReal) = (m ((c : Thread nD τ).loc main_arg10)) :=
  (W6_of_ne m ρ c main_arg10 (by decide)).trans (W5_arg10 m ρ c)
theorem W7_arg10 (c : Dev nD) : (W7 m ρ c (Proc.devRef .tc main_arg10) : S1.Idx → EReal) = (m ((c : Thread nD τ).loc main_arg10)) :=
  (s2_keep_arg10 (W6 m ρ c)).trans (W6_arg10 m ρ c)
theorem W8_arg10 (c : Dev nD) : (W8 m ρ c (Proc.devRef .tc main_arg10) : S1.Idx → EReal) = (m ((c : Thread nD τ).loc main_arg10)) :=
  (W8_of_ne m ρ c main_arg10 (by decide)).trans (W7_arg10 m ρ c)

theorem W1_v1 (c : Dev nD) : (W1 m ρ c (Proc.devRef .tc main_v1) : S800000.Idx → BitVec 32) = srcOf (m ((c : Thread nD τ).loc main_arg1)) :=
  s0_v1 (W0 m ρ c)
theorem W1_v3 (c : Dev nD) : (W1 m ρ c (Proc.devRef .tc main_v3) : S800000.Idx → BitVec 32) = dstOf (m ((c : Thread nD τ).loc main_arg1)) :=
  s0_v3 (W0 m ρ c)
theorem W2_v1 (c : Dev nD) : (W2 m ρ c (Proc.devRef .tc main_v1) : S800000.Idx → BitVec 32) = srcOf (m ((c : Thread nD τ).loc main_arg1)) :=
  (s01_keep_v1 (W1 m ρ c)).trans (W1_v1 m ρ c)
theorem W2_v3 (c : Dev nD) : (W2 m ρ c (Proc.devRef .tc main_v3) : S800000.Idx → BitVec 32) = dstOf (m ((c : Thread nD τ).loc main_arg1)) :=
  (s01_keep_v3 (W1 m ρ c)).trans (W1_v3 m ρ c)
theorem W2_v4 (c : Dev nD) : (W2 m ρ c (Proc.devRef .tc main_v4) : S800000.Idx → BitVec 32) = orderOf (dstOf (m ((c : Thread nD τ).loc main_arg1))) :=
  by
  show StableHlo.after (hostOps0_1 (F := Ideal)) (W1 m ρ c) (Proc.devRef .tc main_v4) = _
  rw [s01_v4, W1_v3 m ρ c]
theorem W3_v11 (c : Dev nD) : (W3 m ρ c (Proc.devRef .tc main_v11) : S800000.Idx → BitVec 32) = sS m c :=
  by
  show StableHlo.after (hostOps0_2 (F := Ideal)) (W2 m ρ c) (Proc.devRef .tc main_v11) = _
  rw [s02_v11, W2_v1 m ρ c, W2_v4 m ρ c]
theorem W3_v18 (c : Dev nD) : (W3 m ρ c (Proc.devRef .tc main_v18) : S800000.Idx → BitVec 32) = dS m c :=
  by
  show StableHlo.after (hostOps0_2 (F := Ideal)) (W2 m ρ c) (Proc.devRef .tc main_v18) = _
  rw [s02_v18, W2_v3 m ρ c, W2_v4 m ρ c]
theorem W3_v26 (c : Dev nD) : (W3 m ρ c (Proc.devRef .tc main_v26) : S50000.Idx → EReal) = Host.divf (broadcastInDim S50000 ![] bcast_S_S50000 (constant (F := Ideal) S_ .f32 0x3F800000#32)) (degClamp (degOf (dS m c))) :=
  by
  show StableHlo.after (hostOps0_2 (F := Ideal)) (W2 m ρ c) (Proc.devRef .tc main_v26) = _
  rw [s02_v26, W2_v3 m ρ c, W2_v4 m ρ c]
theorem W3_v36 (c : Dev nD) : (W3 m ρ c (Proc.devRef .tc main_v36) : S50000x128.Idx → EReal) = aggOf (m ((c : Thread nD τ).loc main_arg0)) (sS m c) (dS m c) :=
  by
  show StableHlo.after (hostOps0_2 (F := Ideal)) (W2 m ρ c) (Proc.devRef .tc main_v36) = _
  rw [s02_v36, W2_arg0 m ρ c, W2_v1 m ρ c, W2_v3 m ρ c, W2_v4 m ρ c]
theorem W3_v44 (c : Dev nD) : (W3 m ρ c (Proc.devRef .tc main_v44) : S50000x1.Idx → EReal) = invDeg (degOf (dS m c)) :=
  by
  show StableHlo.after (hostOps0_2 (F := Ideal)) (W2 m ρ c) (Proc.devRef .tc main_v44) = _
  rw [s02_v44, W2_v3 m ρ c, W2_v4 m ρ c]
theorem W3_v38 (c : Dev nD) : (W3 m ρ c (Proc.devRef .tc main_v38) : S128x128.Idx → EReal) = matOf0 (m ((c : Thread nD τ).loc main_arg4)) :=
  by
  show StableHlo.after (hostOps0_2 (F := Ideal)) (W2 m ρ c) (Proc.devRef .tc main_v38) = _
  rw [s02_v38, W2_arg4 m ρ c]
theorem W3_v40 (c : Dev nD) : (W3 m ρ c (Proc.devRef .tc main_v40) : S128x128.Idx → EReal) = matOf0 (m ((c : Thread nD τ).loc main_arg6)) :=
  by
  show StableHlo.after (hostOps0_2 (F := Ideal)) (W2 m ρ c) (Proc.devRef .tc main_v40) = _
  rw [s02_v40, W2_arg6 m ρ c]
theorem W3_v43 (c : Dev nD) : (W3 m ρ c (Proc.devRef .tc main_v43) : S1x128.Idx → EReal) = shapeCast S1x128 (rowOf0 (m ((c : Thread nD τ).loc main_arg5))) shapeCasts_S128_S1x128 :=
  by
  show StableHlo.after (hostOps0_2 (F := Ideal)) (W2 m ρ c) (Proc.devRef .tc main_v43) = _
  rw [s02_v43, W2_arg5 m ρ c]
theorem W4_v45 (c : Dev nD) : (W4 m ρ c (Proc.devRef .tc main_v45) : S50000x128.Idx → EReal) = p1 m c := by
  refine (W4_arr m ρ c 6).trans ((Cert.KernelIdeal.RegionValue.final0 (V3 m ρ) c).trans ?_)
  show layerK (W3 m ρ c (Proc.devRef .tc main_v36)) (W3 m ρ c (Proc.devRef .tc main_arg0)) (W3 m ρ c (Proc.devRef .tc main_v44)) (W3 m ρ c (Proc.devRef .tc main_v38)) (W3 m ρ c (Proc.devRef .tc main_v40)) (W3 m ρ c (Proc.devRef .tc main_v43)) = _
  rw [W3_v36 m ρ c, W3_arg0 m ρ c, W3_v44 m ρ c, W3_v38 m ρ c, W3_v40 m ρ c, W3_v43 m ρ c]
theorem W4_v11 (c : Dev nD) : (W4 m ρ c (Proc.devRef .tc main_v11) : S800000.Idx → BitVec 32) = sS m c :=
  (W4_of_ne m ρ c main_v11 (by decide)).trans (W3_v11 m ρ c)
theorem W4_v18 (c : Dev nD) : (W4 m ρ c (Proc.devRef .tc main_v18) : S800000.Idx → BitVec 32) = dS m c :=
  (W4_of_ne m ρ c main_v18 (by decide)).trans (W3_v18 m ρ c)
theorem W4_v26 (c : Dev nD) : (W4 m ρ c (Proc.devRef .tc main_v26) : S50000.Idx → EReal) = Host.divf (broadcastInDim S50000 ![] bcast_S_S50000 (constant (F := Ideal) S_ .f32 0x3F800000#32)) (degClamp (degOf (dS m c))) :=
  (W4_of_ne m ρ c main_v26 (by decide)).trans (W3_v26 m ρ c)
theorem W5_v74 (c : Dev nD) : (W5 m ρ c (Proc.devRef .tc main_v74) : S50000x128.Idx → EReal) = f1 m c :=
  by
  show StableHlo.after (hostOps1 (F := Ideal)) (W4 m ρ c) (Proc.devRef .tc main_v74) = _
  rw [s1_h, W4_v45 m ρ c, W4_arg7 m ρ c, W4_arg8 m ρ c]
theorem W5_v84 (c : Dev nD) : (W5 m ρ c (Proc.devRef .tc main_v84) : S50000x128.Idx → EReal) = aggOf (f1 m c) (sS m c) (dS m c) :=
  by
  show StableHlo.after (hostOps1 (F := Ideal)) (W4 m ρ c) (Proc.devRef .tc main_v84) = _
  rw [s1_agg, W4_v45 m ρ c, W4_arg7 m ρ c, W4_arg8 m ρ c, W4_v11 m ρ c, W4_v18 m ρ c]
theorem W5_v92 (c : Dev nD) : (W5 m ρ c (Proc.devRef .tc main_v92) : S50000x1.Idx → EReal) = invDeg (degOf (dS m c)) :=
  by
  show StableHlo.after (hostOps1 (F := Ideal)) (W4 m ρ c) (Proc.devRef .tc main_v92) = _
  rw [s1_inv, W4_v26 m ρ c]
  rfl
theorem W5_v86 (c : Dev nD) : (W5 m ρ c (Proc.devRef .tc main_v86) : S128x128.Idx → EReal) = matOf1 (m ((c : Thread nD τ).loc main_arg4)) :=
  by
  show StableHlo.after (hostOps1 (F := Ideal)) (W4 m ρ c) (Proc.devRef .tc main_v86) = _
  rw [s1_wl, W4_arg4 m ρ c]
theorem W5_v88 (c : Dev nD) : (W5 m ρ c (Proc.devRef .tc main_v88) : S128x128.Idx → EReal) = matOf1 (m ((c : Thread nD τ).loc main_arg6)) :=
  by
  show StableHlo.after (hostOps1 (F := Ideal)) (W4 m ρ c) (Proc.devRef .tc main_v88) = _
  rw [s1_wr, W4_arg6 m ρ c]
theorem W5_v91 (c : Dev nD) : (W5 m ρ c (Proc.devRef .tc main_v91) : S1x128.Idx → EReal) = shapeCast S1x128 (rowOf1 (m ((c : Thread nD τ).loc main_arg5))) shapeCasts_S128_S1x128 :=
  by
  show StableHlo.after (hostOps1 (F := Ideal)) (W4 m ρ c) (Proc.devRef .tc main_v91) = _
  rw [s1_b, W4_arg5 m ρ c]
theorem W6_v93 (c : Dev nD) : (W6 m ρ c (Proc.devRef .tc main_v93) : S50000x128.Idx → EReal) = p2 m c := by
  refine (W6_arr m ρ c 6).trans ((Cert.KernelIdeal.RegionValue.final1 (V5 m ρ) c).trans ?_)
  show layerK (W5 m ρ c (Proc.devRef .tc main_v84)) (W5 m ρ c (Proc.devRef .tc main_v74)) (W5 m ρ c (Proc.devRef .tc main_v92)) (W5 m ρ c (Proc.devRef .tc main_v86)) (W5 m ρ c (Proc.devRef .tc main_v88)) (W5 m ρ c (Proc.devRef .tc main_v91)) = _
  rw [W5_v84 m ρ c, W5_v74 m ρ c, W5_v92 m ρ c, W5_v86 m ρ c, W5_v88 m ρ c, W5_v91 m ρ c]
theorem W5_v11 (c : Dev nD) : (W5 m ρ c (Proc.devRef .tc main_v11) : S800000.Idx → BitVec 32) = sS m c :=
  (s1_keep_v11 (W4 m ρ c)).trans (W4_v11 m ρ c)
theorem W6_v11 (c : Dev nD) : (W6 m ρ c (Proc.devRef .tc main_v11) : S800000.Idx → BitVec 32) = sS m c :=
  (W6_of_ne m ρ c main_v11 (by decide)).trans (W5_v11 m ρ c)
theorem W5_v18 (c : Dev nD) : (W5 m ρ c (Proc.devRef .tc main_v18) : S800000.Idx → BitVec 32) = dS m c :=
  (s1_keep_v18 (W4 m ρ c)).trans (W4_v18 m ρ c)
theorem W6_v18 (c : Dev nD) : (W6 m ρ c (Proc.devRef .tc main_v18) : S800000.Idx → BitVec 32) = dS m c :=
  (W6_of_ne m ρ c main_v18 (by decide)).trans (W5_v18 m ρ c)
theorem W5_v26 (c : Dev nD) : (W5 m ρ c (Proc.devRef .tc main_v26) : S50000.Idx → EReal) = Host.divf (broadcastInDim S50000 ![] bcast_S_S50000 (constant (F := Ideal) S_ .f32 0x3F800000#32)) (degClamp (degOf (dS m c))) :=
  (s1_keep_v26 (W4 m ρ c)).trans (W4_v26 m ρ c)
theorem W6_v26 (c : Dev nD) : (W6 m ρ c (Proc.devRef .tc main_v26) : S50000.Idx → EReal) = Host.divf (broadcastInDim S50000 ![] bcast_S_S50000 (constant (F := Ideal) S_ .f32 0x3F800000#32)) (degClamp (degOf (dS m c))) :=
  (W6_of_ne m ρ c main_v26 (by decide)).trans (W5_v26 m ρ c)
theorem W7_v122 (c : Dev nD) : (W7 m ρ c (Proc.devRef .tc main_v122) : S50000x128.Idx → EReal) = f2 m c :=
  by
  show StableHlo.after (hostOps2 (F := Ideal)) (W6 m ρ c) (Proc.devRef .tc main_v122) = _
  rw [s2_h, W6_v93 m ρ c, W6_arg7 m ρ c, W6_arg8 m ρ c]
theorem W7_v132 (c : Dev nD) : (W7 m ρ c (Proc.devRef .tc main_v132) : S50000x128.Idx → EReal) = aggOf (f2 m c) (sS m c) (dS m c) :=
  by
  show StableHlo.after (hostOps2 (F := Ideal)) (W6 m ρ c) (Proc.devRef .tc main_v132) = _
  rw [s2_agg, W6_v93 m ρ c, W6_arg7 m ρ c, W6_arg8 m ρ c, W6_v11 m ρ c, W6_v18 m ρ c]
theorem W7_v140 (c : Dev nD) : (W7 m ρ c (Proc.devRef .tc main_v140) : S50000x1.Idx → EReal) = invDeg (degOf (dS m c)) :=
  by
  show StableHlo.after (hostOps2 (F := Ideal)) (W6 m ρ c) (Proc.devRef .tc main_v140) = _
  rw [s2_inv, W6_v26 m ρ c]
  rfl
theorem W7_v134 (c : Dev nD) : (W7 m ρ c (Proc.devRef .tc main_v134) : S128x128.Idx → EReal) = matOf2 (m ((c : Thread nD τ).loc main_arg4)) :=
  by
  show StableHlo.after (hostOps2 (F := Ideal)) (W6 m ρ c) (Proc.devRef .tc main_v134) = _
  rw [s2_wl, W6_arg4 m ρ c]
theorem W7_v136 (c : Dev nD) : (W7 m ρ c (Proc.devRef .tc main_v136) : S128x128.Idx → EReal) = matOf2 (m ((c : Thread nD τ).loc main_arg6)) :=
  by
  show StableHlo.after (hostOps2 (F := Ideal)) (W6 m ρ c) (Proc.devRef .tc main_v136) = _
  rw [s2_wr, W6_arg6 m ρ c]
theorem W7_v139 (c : Dev nD) : (W7 m ρ c (Proc.devRef .tc main_v139) : S1x128.Idx → EReal) = shapeCast S1x128 (rowOf2 (m ((c : Thread nD τ).loc main_arg5))) shapeCasts_S128_S1x128 :=
  by
  show StableHlo.after (hostOps2 (F := Ideal)) (W6 m ρ c) (Proc.devRef .tc main_v139) = _
  rw [s2_b, W6_arg5 m ρ c]
theorem W8_v141 (c : Dev nD) : (W8 m ρ c (Proc.devRef .tc main_v141) : S50000x128.Idx → EReal) = p3 m c := by
  refine (W8_arr m ρ c 6).trans ((Cert.KernelIdeal.RegionValue.final2 (V7 m ρ) c).trans ?_)
  show layerK (W7 m ρ c (Proc.devRef .tc main_v132)) (W7 m ρ c (Proc.devRef .tc main_v122)) (W7 m ρ c (Proc.devRef .tc main_v140)) (W7 m ρ c (Proc.devRef .tc main_v134)) (W7 m ρ c (Proc.devRef .tc main_v136)) (W7 m ρ c (Proc.devRef .tc main_v139)) = _
  rw [W7_v132 m ρ c, W7_v122 m ρ c, W7_v140 m ρ c, W7_v134 m ρ c, W7_v136 m ρ c, W7_v139 m ρ c]

/-- The result buffer ends at `kerAll` of the arguments. -/
theorem result_eq (c : Dev nD) : (W9 m ρ c (Proc.devRef .tc main_v184) : S64x1.Idx → EReal)
    = kerAll (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after (hostOps3 (F := Ideal)) (W8 m ρ c) (Proc.devRef .tc main_v184) = _
  rw [s3_out, W8_v141 m ρ c, W8_arg7 m ρ c, W8_arg8 m ρ c, W8_arg3 m ρ c, W8_arg9 m ρ c, W8_arg10 m ρ c]
  rfl

end Chain

end Cert.KernelIdeal.KernelValue

end
-- ==== Proof.RefValue.lean ====
/-
  What the reference program's result buffer holds after the run.

  The reference's 249 operations, cut at the layer boundaries, are four stretches. Read from any contents `W` at its entry,
  the first stretch slices the edge list and the first layer's parameters and leaves the first layer's output — aggregate,
  divide by the clamped degree, two products and a bias, relu, batch normalisation: `refLayer` — of the node features; the
  second and third leave `refLayer` of the previous layer's output with their own parameters; the last one sums the rows
  of each graph and applies the output head. A buffer no operation of a stretch writes keeps its contents. Chained from
  the launch memory, the result buffer holds `refAll` of the arguments, and the arguments end as launched.
-/
import proofs.«126205_j20633022890229_2_alg».proof.Proof.RefRun
import proofs.«126205_j20633022890229_2_alg».proof.Proof.Spec
import proofs.«126205_j20633022890229_2_alg».proof.Proof.LibTypedHEq
import Idealize.ShloMosaic.Lib.StableHlo.Run
import Idealize.ShloMosaic.PureOps.Ideal

set_option maxRecDepth 16384

noncomputable section

namespace Cert.ReferenceIdeal.RefValue

open Idealize.ShloMosaic Idealize.ShloMosaic.TcCoe Idealize.ShloMosaic.StableHlo Idealize.SL.Sem
open Cert.ReferenceIdeal Cert.ReferenceIdeal.Gen Cert.ReferenceIdeal.ValueP Cert.Sage Cert.TypedRead

/-- Two lines of operations run one after the other: the second from what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## The relu calls' typed references

A called function's operations store and read their values through a transport along the equation between a buffer's type
and the value's; at these literal references the two types are the same, and the transported value is the value. -/

theorem toBuf_call0_cst (h1 h2 h3) (v : (⟨S_, .f32⟩ : BufTy).Contents (Elt Ideal)) :
    (TRef.of (sig := sig) (T := ⟨S_, .f32⟩) main_call0_cst h1 h2 h3).toBuf v = v := eq_of_heq (toBuf_heq _ v)
theorem ofBuf_call0_cst (h1 h2 h3) (v : main_call0_cst.ty.Contents (Elt Ideal)) :
    (TRef.of (sig := sig) (T := ⟨S_, .f32⟩) main_call0_cst h1 h2 h3).ofBuf v = v :=
  eq_of_heq (ofBuf_heq (TRef.of (sig := sig) (T := ⟨S_, .f32⟩) main_call0_cst h1 h2 h3) v)
theorem toBuf_call0_v0 (h1 h2 h3) (v : (⟨S50000x128, .f32⟩ : BufTy).Contents (Elt Ideal)) :
    (TRef.of (sig := sig) (T := ⟨S50000x128, .f32⟩) main_call0_v0 h1 h2 h3).toBuf v = v := eq_of_heq (toBuf_heq _ v)
theorem ofBuf_call0_v0 (h1 h2 h3) (v : main_call0_v0.ty.Contents (Elt Ideal)) :
    (TRef.of (sig := sig) (T := ⟨S50000x128, .f32⟩) main_call0_v0 h1 h2 h3).ofBuf v = v :=
  eq_of_heq (ofBuf_heq (TRef.of (sig := sig) (T := ⟨S50000x128, .f32⟩) main_call0_v0 h1 h2 h3) v)
theorem toBuf_call1_cst (h1 h2 h3) (v : (⟨S_, .f32⟩ : BufTy).Contents (Elt Ideal)) :
    (TRef.of (sig := sig) (T := ⟨S_, .f32⟩) main_call1_cst h1 h2 h3).toBuf v = v := eq_of_heq (toBuf_heq _ v)
theorem ofBuf_call1_cst (h1 h2 h3) (v : main_call1_cst.ty.Contents (Elt Ideal)) :
    (TRef.of (sig := sig) (T := ⟨S_, .f32⟩) main_call1_cst h1 h2 h3).ofBuf v = v :=
  eq_of_heq (ofBuf_heq (TRef.of (sig := sig) (T := ⟨S_, .f32⟩) main_call1_cst h1 h2 h3) v)
theorem toBuf_call1_v0 (h1 h2 h3) (v : (⟨S50000x128, .f32⟩ : BufTy).Contents (Elt Ideal)) :
    (TRef.of (sig := sig) (T := ⟨S50000x128, .f32⟩) main_call1_v0 h1 h2 h3).toBuf v = v := eq_of_heq (toBuf_heq _ v)
theorem ofBuf_call1_v0 (h1 h2 h3) (v : main_call1_v0.ty.Contents (Elt Ideal)) :
    (TRef.of (sig := sig) (T := ⟨S50000x128, .f32⟩) main_call1_v0 h1 h2 h3).ofBuf v = v :=
  eq_of_heq (ofBuf_heq (TRef.of (sig := sig) (T := ⟨S50000x128, .f32⟩) main_call1_v0 h1 h2 h3) v)
theorem toBuf_call2_cst (h1 h2 h3) (v : (⟨S_, .f32⟩ : BufTy).Contents (Elt Ideal)) :
    (TRef.of (sig := sig) (T := ⟨S_, .f32⟩) main_call2_cst h1 h2 h3).toBuf v = v := eq_of_heq (toBuf_heq _ v)
theorem ofBuf_call2_cst (h1 h2 h3) (v : main_call2_cst.ty.Contents (Elt Ideal)) :
    (TRef.of (sig := sig) (T := ⟨S_, .f32⟩) main_call2_cst h1 h2 h3).ofBuf v = v :=
  eq_of_heq (ofBuf_heq (TRef.of (sig := sig) (T := ⟨S_, .f32⟩) main_call2_cst h1 h2 h3) v)
theorem toBuf_call2_v0 (h1 h2 h3) (v : (⟨S50000x128, .f32⟩ : BufTy).Contents (Elt Ideal)) :
    (TRef.of (sig := sig) (T := ⟨S50000x128, .f32⟩) main_call2_v0 h1 h2 h3).toBuf v = v := eq_of_heq (toBuf_heq _ v)
theorem ofBuf_call2_v0 (h1 h2 h3) (v : main_call2_v0.ty.Contents (Elt Ideal)) :
    (TRef.of (sig := sig) (T := ⟨S50000x128, .f32⟩) main_call2_v0 h1 h2 h3).ofBuf v = v :=
  eq_of_heq (ofBuf_heq (TRef.of (sig := sig) (T := ⟨S50000x128, .f32⟩) main_call2_v0 h1 h2 h3) v)
theorem toBuf_v36 (h1 h2 h3) (v : (⟨S50000x128, .f32⟩ : BufTy).Contents (Elt Ideal)) :
    (TRef.of (sig := sig) (T := ⟨S50000x128, .f32⟩) main_v36 h1 h2 h3).toBuf v = v := eq_of_heq (toBuf_heq _ v)
theorem ofBuf_v36 (h1 h2 h3) (v : main_v36.ty.Contents (Elt Ideal)) :
    (TRef.of (sig := sig) (T := ⟨S50000x128, .f32⟩) main_v36 h1 h2 h3).ofBuf v = v :=
  eq_of_heq (ofBuf_heq (TRef.of (sig := sig) (T := ⟨S50000x128, .f32⟩) main_v36 h1 h2 h3) v)
theorem toBuf_v37 (h1 h2 h3) (v : (⟨S50000x128, .f32⟩ : BufTy).Contents (Elt Ideal)) :
    (TRef.of (sig := sig) (T := ⟨S50000x128, .f32⟩) main_v37 h1 h2 h3).toBuf v = v := eq_of_heq (toBuf_heq _ v)
theorem ofBuf_v37 (h1 h2 h3) (v : main_v37.ty.Contents (Elt Ideal)) :
    (TRef.of (sig := sig) (T := ⟨S50000x128, .f32⟩) main_v37 h1 h2 h3).ofBuf v = v :=
  eq_of_heq (ofBuf_heq (TRef.of (sig := sig) (T := ⟨S50000x128, .f32⟩) main_v37 h1 h2 h3) v)
theorem toBuf_v99 (h1 h2 h3) (v : (⟨S50000x128, .f32⟩ : BufTy).Contents (Elt Ideal)) :
    (TRef.of (sig := sig) (T := ⟨S50000x128, .f32⟩) main_v99 h1 h2 h3).toBuf v = v := eq_of_heq (toBuf_heq _ v)
theorem ofBuf_v99 (h1 h2 h3) (v : main_v99.ty.Contents (Elt Ideal)) :
    (TRef.of (sig := sig) (T := ⟨S50000x128, .f32⟩) main_v99 h1 h2 h3).ofBuf v = v :=
  eq_of_heq (ofBuf_heq (TRef.of (sig := sig) (T := ⟨S50000x128, .f32⟩) main_v99 h1 h2 h3) v)
theorem toBuf_v100 (h1 h2 h3) (v : (⟨S50000x128, .f32⟩ : BufTy).Contents (Elt Ideal)) :
    (TRef.of (sig := sig) (T := ⟨S50000x128, .f32⟩) main_v100 h1 h2 h3).toBuf v = v := eq_of_heq (toBuf_heq _ v)
theorem ofBuf_v100 (h1 h2 h3) (v : main_v100.ty.Contents (Elt Ideal)) :
    (TRef.of (sig := sig) (T := ⟨S50000x128, .f32⟩) main_v100 h1 h2 h3).ofBuf v = v :=
  eq_of_heq (ofBuf_heq (TRef.of (sig := sig) (T := ⟨S50000x128, .f32⟩) main_v100 h1 h2 h3) v)
theorem toBuf_v162 (h1 h2 h3) (v : (⟨S50000x128, .f32⟩ : BufTy).Contents (Elt Ideal)) :
    (TRef.of (sig := sig) (T := ⟨S50000x128, .f32⟩) main_v162 h1 h2 h3).toBuf v = v := eq_of_heq (toBuf_heq _ v)
theorem ofBuf_v162 (h1 h2 h3) (v : main_v162.ty.Contents (Elt Ideal)) :
    (TRef.of (sig := sig) (T := ⟨S50000x128, .f32⟩) main_v162 h1 h2 h3).ofBuf v = v :=
  eq_of_heq (ofBuf_heq (TRef.of (sig := sig) (T := ⟨S50000x128, .f32⟩) main_v162 h1 h2 h3) v)
theorem toBuf_v163 (h1 h2 h3) (v : (⟨S50000x128, .f32⟩ : BufTy).Contents (Elt Ideal)) :
    (TRef.of (sig := sig) (T := ⟨S50000x128, .f32⟩) main_v163 h1 h2 h3).toBuf v = v := eq_of_heq (toBuf_heq _ v)
theorem ofBuf_v163 (h1 h2 h3) (v : main_v163.ty.Contents (Elt Ideal)) :
    (TRef.of (sig := sig) (T := ⟨S50000x128, .f32⟩) main_v163 h1 h2 h3).ofBuf v = v :=
  eq_of_heq (ofBuf_heq (TRef.of (sig := sig) (T := ⟨S50000x128, .f32⟩) main_v163 h1 h2 h3) v)

/-! ## Each stretch, from any contents at its entry -/

theorem A_v1 (W : Valuation τ sig (Elt Ideal)) :
    (after (opsA (F := Ideal)) W (Proc.devRef .tc main_v1) : S800000.Idx → BitVec 32) = srcOf (W (Proc.devRef .tc main_arg1)) := by
  dsimp only [opsA]; after_results_simp; rfl

theorem A_v3 (W : Valuation τ sig (Elt Ideal)) :
    (after (opsA (F := Ideal)) W (Proc.devRef .tc main_v3) : S800000.Idx → BitVec 32) = dstOf (W (Proc.devRef .tc main_arg1)) := by
  dsimp only [opsA]; after_results_simp; rfl

theorem A_h (W : Valuation τ sig (Elt Ideal)) :
    (after (opsA (F := Ideal)) W (Proc.devRef .tc main_v66) : S50000x128.Idx → EReal) = refLayer (W (Proc.devRef .tc main_arg0)) (srcOf (W (Proc.devRef .tc main_arg1))) (dstOf (W (Proc.devRef .tc main_arg1))) (matOf0 (W (Proc.devRef .tc main_arg4))) (matOf0 (W (Proc.devRef .tc main_arg6))) (rowOf0 (W (Proc.devRef .tc main_arg5))) (rowOf0 (W (Proc.devRef .tc main_arg7))) (rowOf0 (W (Proc.devRef .tc main_arg8))) := by
  dsimp only [opsA]; after_results_simp
  simp only [toBuf_call0_cst, ofBuf_call0_cst, toBuf_call0_v0, ofBuf_call0_v0, toBuf_call1_cst, ofBuf_call1_cst, toBuf_call1_v0, ofBuf_call1_v0, toBuf_call2_cst, ofBuf_call2_cst, toBuf_call2_v0, ofBuf_call2_v0, toBuf_v36, ofBuf_v36, toBuf_v37, ofBuf_v37, toBuf_v99, ofBuf_v99, toBuf_v100, ofBuf_v100, toBuf_v162, ofBuf_v162, toBuf_v163, ofBuf_v163]
  rfl

theorem B_h (W : Valuation τ sig (Elt Ideal)) :
    (after (opsB (F := Ideal)) W (Proc.devRef .tc main_v129) : S50000x128.Idx → EReal) = refLayer (W (Proc.devRef .tc main_v66)) (W (Proc.devRef .tc main_v1)) (W (Proc.devRef .tc main_v3)) (matOf1 (W (Proc.devRef .tc main_arg4))) (matOf1 (W (Proc.devRef .tc main_arg6))) (rowOf1 (W (Proc.devRef .tc main_arg5))) (rowOf1 (W (Proc.devRef .tc main_arg7))) (rowOf1 (W (Proc.devRef .tc main_arg8))) := by
  dsimp only [opsB]; after_results_simp
  simp only [toBuf_call0_cst, ofBuf_call0_cst, toBuf_call0_v0, ofBuf_call0_v0, toBuf_call1_cst, ofBuf_call1_cst, toBuf_call1_v0, ofBuf_call1_v0, toBuf_call2_cst, ofBuf_call2_cst, toBuf_call2_v0, ofBuf_call2_v0, toBuf_v36, ofBuf_v36, toBuf_v37, ofBuf_v37, toBuf_v99, ofBuf_v99, toBuf_v100, ofBuf_v100, toBuf_v162, ofBuf_v162, toBuf_v163, ofBuf_v163]
  rfl

theorem C_h (W : Valuation τ sig (Elt Ideal)) :
    (after (opsC (F := Ideal)) W (Proc.devRef .tc main_v192) : S50000x128.Idx → EReal) = refLayer (W (Proc.devRef .tc main_v129)) (W (Proc.devRef .tc main_v1)) (W (Proc.devRef .tc main_v3)) (matOf2 (W (Proc.devRef .tc main_arg4))) (matOf2 (W (Proc.devRef .tc main_arg6))) (rowOf2 (W (Proc.devRef .tc main_arg5))) (rowOf2 (W (Proc.devRef .tc main_arg7))) (rowOf2 (W (Proc.devRef .tc main_arg8))) := by
  dsimp only [opsC]; after_results_simp
  simp only [toBuf_call0_cst, ofBuf_call0_cst, toBuf_call0_v0, ofBuf_call0_v0, toBuf_call1_cst, ofBuf_call1_cst, toBuf_call1_v0, ofBuf_call1_v0, toBuf_call2_cst, ofBuf_call2_cst, toBuf_call2_v0, ofBuf_call2_v0, toBuf_v36, ofBuf_v36, toBuf_v37, ofBuf_v37, toBuf_v99, ofBuf_v99, toBuf_v100, ofBuf_v100, toBuf_v162, ofBuf_v162, toBuf_v163, ofBuf_v163]
  rfl

theorem D_out (W : Valuation τ sig (Elt Ideal)) :
    (after (opsD (F := Ideal)) W (Proc.devRef .tc main_v206) : S64x1.Idx → EReal) = tailOf (W (Proc.devRef .tc main_v192)) (W (Proc.devRef .tc main_arg3)) (W (Proc.devRef .tc main_arg9)) (W (Proc.devRef .tc main_arg10)) := by
  dsimp only [opsD]; after_results_simp; rfl

/-! ## Buffers a stretch does not write keep their contents -/

theorem A_keep_arg0 (W : Valuation τ sig (Elt Ideal)) :
    after (opsA (F := Ideal)) W (Proc.devRef .tc main_arg0) = W (Proc.devRef .tc main_arg0) := by
  dsimp only [opsA]; after_results_simp
theorem A_keep_arg1 (W : Valuation τ sig (Elt Ideal)) :
    after (opsA (F := Ideal)) W (Proc.devRef .tc main_arg1) = W (Proc.devRef .tc main_arg1) := by
  dsimp only [opsA]; after_results_simp
theorem A_keep_arg2 (W : Valuation τ sig (Elt Ideal)) :
    after (opsA (F := Ideal)) W (Proc.devRef .tc main_arg2) = W (Proc.devRef .tc main_arg2) := by
  dsimp only [opsA]; after_results_simp
theorem A_keep_arg3 (W : Valuation τ sig (Elt Ideal)) :
    after (opsA (F := Ideal)) W (Proc.devRef .tc main_arg3) = W (Proc.devRef .tc main_arg3) := by
  dsimp only [opsA]; after_results_simp
theorem A_keep_arg4 (W : Valuation τ sig (Elt Ideal)) :
    after (opsA (F := Ideal)) W (Proc.devRef .tc main_arg4) = W (Proc.devRef .tc main_arg4) := by
  dsimp only [opsA]; after_results_simp
theorem A_keep_arg5 (W : Valuation τ sig (Elt Ideal)) :
    after (opsA (F := Ideal)) W (Proc.devRef .tc main_arg5) = W (Proc.devRef .tc main_arg5) := by
  dsimp only [opsA]; after_results_simp
theorem A_keep_arg6 (W : Valuation τ sig (Elt Ideal)) :
    after (opsA (F := Ideal)) W (Proc.devRef .tc main_arg6) = W (Proc.devRef .tc main_arg6) := by
  dsimp only [opsA]; after_results_simp
theorem A_keep_arg7 (W : Valuation τ sig (Elt Ideal)) :
    after (opsA (F := Ideal)) W (Proc.devRef .tc main_arg7) = W (Proc.devRef .tc main_arg7) := by
  dsimp only [opsA]; after_results_simp
theorem A_keep_arg8 (W : Valuation τ sig (Elt Ideal)) :
    after (opsA (F := Ideal)) W (Proc.devRef .tc main_arg8) = W (Proc.devRef .tc main_arg8) := by
  dsimp only [opsA]; after_results_simp
theorem A_keep_arg9 (W : Valuation τ sig (Elt Ideal)) :
    after (opsA (F := Ideal)) W (Proc.devRef .tc main_arg9) = W (Proc.devRef .tc main_arg9) := by
  dsimp only [opsA]; after_results_simp
theorem A_keep_arg10 (W : Valuation τ sig (Elt Ideal)) :
    after (opsA (F := Ideal)) W (Proc.devRef .tc main_arg10) = W (Proc.devRef .tc main_arg10) := by
  dsimp only [opsA]; after_results_simp
theorem B_keep_v1 (W : Valuation τ sig (Elt Ideal)) :
    after (opsB (F := Ideal)) W (Proc.devRef .tc main_v1) = W (Proc.devRef .tc main_v1) := by
  dsimp only [opsB]; after_results_simp
theorem B_keep_v3 (W : Valuation τ sig (Elt Ideal)) :
    after (opsB (F := Ideal)) W (Proc.devRef .tc main_v3) = W (Proc.devRef .tc main_v3) := by
  dsimp only [opsB]; after_results_simp
theorem B_keep_arg0 (W : Valuation τ sig (Elt Ideal)) :
    after (opsB (F := Ideal)) W (Proc.devRef .tc main_arg0) = W (Proc.devRef .tc main_arg0) := by
  dsimp only [opsB]; after_results_simp
theorem B_keep_arg1 (W : Valuation τ sig (Elt Ideal)) :
    after (opsB (F := Ideal)) W (Proc.devRef .tc main_arg1) = W (Proc.devRef .tc main_arg1) := by
  dsimp only [opsB]; after_results_simp
theorem B_keep_arg2 (W : Valuation τ sig (Elt Ideal)) :
    after (opsB (F := Ideal)) W (Proc.devRef .tc main_arg2) = W (Proc.devRef .tc main_arg2) := by
  dsimp only [opsB]; after_results_simp
theorem B_keep_arg3 (W : Valuation τ sig (Elt Ideal)) :
    after (opsB (F := Ideal)) W (Proc.devRef .tc main_arg3) = W (Proc.devRef .tc main_arg3) := by
  dsimp only [opsB]; after_results_simp
theorem B_keep_arg4 (W : Valuation τ sig (Elt Ideal)) :
    after (opsB (F := Ideal)) W (Proc.devRef .tc main_arg4) = W (Proc.devRef .tc main_arg4) := by
  dsimp only [opsB]; after_results_simp
theorem B_keep_arg5 (W : Valuation τ sig (Elt Ideal)) :
    after (opsB (F := Ideal)) W (Proc.devRef .tc main_arg5) = W (Proc.devRef .tc main_arg5) := by
  dsimp only [opsB]; after_results_simp
theorem B_keep_arg6 (W : Valuation τ sig (Elt Ideal)) :
    after (opsB (F := Ideal)) W (Proc.devRef .tc main_arg6) = W (Proc.devRef .tc main_arg6) := by
  dsimp only [opsB]; after_results_simp
theorem B_keep_arg7 (W : Valuation τ sig (Elt Ideal)) :
    after (opsB (F := Ideal)) W (Proc.devRef .tc main_arg7) = W (Proc.devRef .tc main_arg7) := by
  dsimp only [opsB]; after_results_simp
theorem B_keep_arg8 (W : Valuation τ sig (Elt Ideal)) :
    after (opsB (F := Ideal)) W (Proc.devRef .tc main_arg8) = W (Proc.devRef .tc main_arg8) := by
  dsimp only [opsB]; after_results_simp
theorem B_keep_arg9 (W : Valuation τ sig (Elt Ideal)) :
    after (opsB (F := Ideal)) W (Proc.devRef .tc main_arg9) = W (Proc.devRef .tc main_arg9) := by
  dsimp only [opsB]; after_results_simp
theorem B_keep_arg10 (W : Valuation τ sig (Elt Ideal)) :
    after (opsB (F := Ideal)) W (Proc.devRef .tc main_arg10) = W (Proc.devRef .tc main_arg10) := by
  dsimp only [opsB]; after_results_simp
theorem C_keep_arg0 (W : Valuation τ sig (Elt Ideal)) :
    after (opsC (F := Ideal)) W (Proc.devRef .tc main_arg0) = W (Proc.devRef .tc main_arg0) := by
  dsimp only [opsC]; after_results_simp
theorem C_keep_arg1 (W : Valuation τ sig (Elt Ideal)) :
    after (opsC (F := Ideal)) W (Proc.devRef .tc main_arg1) = W (Proc.devRef .tc main_arg1) := by
  dsimp only [opsC]; after_results_simp
theorem C_keep_arg2 (W : Valuation τ sig (Elt Ideal)) :
    after (opsC (F := Ideal)) W (Proc.devRef .tc main_arg2) = W (Proc.devRef .tc main_arg2) := by
  dsimp only [opsC]; after_results_simp
theorem C_keep_arg3 (W : Valuation τ sig (Elt Ideal)) :
    after (opsC (F := Ideal)) W (Proc.devRef .tc main_arg3) = W (Proc.devRef .tc main_arg3) := by
  dsimp only [opsC]; after_results_simp
theorem C_keep_arg4 (W : Valuation τ sig (Elt Ideal)) :
    after (opsC (F := Ideal)) W (Proc.devRef .tc main_arg4) = W (Proc.devRef .tc main_arg4) := by
  dsimp only [opsC]; after_results_simp
theorem C_keep_arg5 (W : Valuation τ sig (Elt Ideal)) :
    after (opsC (F := Ideal)) W (Proc.devRef .tc main_arg5) = W (Proc.devRef .tc main_arg5) := by
  dsimp only [opsC]; after_results_simp
theorem C_keep_arg6 (W : Valuation τ sig (Elt Ideal)) :
    after (opsC (F := Ideal)) W (Proc.devRef .tc main_arg6) = W (Proc.devRef .tc main_arg6) := by
  dsimp only [opsC]; after_results_simp
theorem C_keep_arg7 (W : Valuation τ sig (Elt Ideal)) :
    after (opsC (F := Ideal)) W (Proc.devRef .tc main_arg7) = W (Proc.devRef .tc main_arg7) := by
  dsimp only [opsC]; after_results_simp
theorem C_keep_arg8 (W : Valuation τ sig (Elt Ideal)) :
    after (opsC (F := Ideal)) W (Proc.devRef .tc main_arg8) = W (Proc.devRef .tc main_arg8) := by
  dsimp only [opsC]; after_results_simp
theorem C_keep_arg9 (W : Valuation τ sig (Elt Ideal)) :
    after (opsC (F := Ideal)) W (Proc.devRef .tc main_arg9) = W (Proc.devRef .tc main_arg9) := by
  dsimp only [opsC]; after_results_simp
theorem C_keep_arg10 (W : Valuation τ sig (Elt Ideal)) :
    after (opsC (F := Ideal)) W (Proc.devRef .tc main_arg10) = W (Proc.devRef .tc main_arg10) := by
  dsimp only [opsC]; after_results_simp
theorem D_keep_arg0 (W : Valuation τ sig (Elt Ideal)) :
    after (opsD (F := Ideal)) W (Proc.devRef .tc main_arg0) = W (Proc.devRef .tc main_arg0) := by
  dsimp only [opsD]; after_results_simp
theorem D_keep_arg1 (W : Valuation τ sig (Elt Ideal)) :
    after (opsD (F := Ideal)) W (Proc.devRef .tc main_arg1) = W (Proc.devRef .tc main_arg1) := by
  dsimp only [opsD]; after_results_simp
theorem D_keep_arg2 (W : Valuation τ sig (Elt Ideal)) :
    after (opsD (F := Ideal)) W (Proc.devRef .tc main_arg2) = W (Proc.devRef .tc main_arg2) := by
  dsimp only [opsD]; after_results_simp
theorem D_keep_arg3 (W : Valuation τ sig (Elt Ideal)) :
    after (opsD (F := Ideal)) W (Proc.devRef .tc main_arg3) = W (Proc.devRef .tc main_arg3) := by
  dsimp only [opsD]; after_results_simp
theorem D_keep_arg4 (W : Valuation τ sig (Elt Ideal)) :
    after (opsD (F := Ideal)) W (Proc.devRef .tc main_arg4) = W (Proc.devRef .tc main_arg4) := by
  dsimp only [opsD]; after_results_simp
theorem D_keep_arg5 (W : Valuation τ sig (Elt Ideal)) :
    after (opsD (F := Ideal)) W (Proc.devRef .tc main_arg5) = W (Proc.devRef .tc main_arg5) := by
  dsimp only [opsD]; after_results_simp
theorem D_keep_arg6 (W : Valuation τ sig (Elt Ideal)) :
    after (opsD (F := Ideal)) W (Proc.devRef .tc main_arg6) = W (Proc.devRef .tc main_arg6) := by
  dsimp only [opsD]; after_results_simp
theorem D_keep_arg7 (W : Valuation τ sig (Elt Ideal)) :
    after (opsD (F := Ideal)) W (Proc.devRef .tc main_arg7) = W (Proc.devRef .tc main_arg7) := by
  dsimp only [opsD]; after_results_simp
theorem D_keep_arg8 (W : Valuation τ sig (Elt Ideal)) :
    after (opsD (F := Ideal)) W (Proc.devRef .tc main_arg8) = W (Proc.devRef .tc main_arg8) := by
  dsimp only [opsD]; after_results_simp
theorem D_keep_arg9 (W : Valuation τ sig (Elt Ideal)) :
    after (opsD (F := Ideal)) W (Proc.devRef .tc main_arg9) = W (Proc.devRef .tc main_arg9) := by
  dsimp only [opsD]; after_results_simp
theorem D_keep_arg10 (W : Valuation τ sig (Elt Ideal)) :
    after (opsD (F := Ideal)) W (Proc.devRef .tc main_arg10) = W (Proc.devRef .tc main_arg10) := by
  dsimp only [opsD]; after_results_simp

/-! ## From the launch memory -/

section Chain

variable (m : (ℓ : Loc nD τ sig) → Buf (Elt Ideal) ℓ)

/-- The buffers after the first, second and third stretch. -/
abbrev WA (c : Dev nD) : Valuation τ sig (Elt Ideal) := after (opsA (F := Ideal)) (launchContents m c)
abbrev WB (c : Dev nD) : Valuation τ sig (Elt Ideal) := after (opsB (F := Ideal)) (WA m c)
abbrev WC (c : Dev nD) : Valuation τ sig (Elt Ideal) := after (opsC (F := Ideal)) (WB m c)

/-- The three layers' outputs. -/
abbrev h1 (c : Dev nD) : Feat := refLayer (m ((c.tc : Thread nD τ).loc main_arg0)) (srcOf (m ((c.tc : Thread nD τ).loc main_arg1))) (dstOf (m ((c.tc : Thread nD τ).loc main_arg1))) (matOf0 (m ((c.tc : Thread nD τ).loc main_arg4))) (matOf0 (m ((c.tc : Thread nD τ).loc main_arg6))) (rowOf0 (m ((c.tc : Thread nD τ).loc main_arg5))) (rowOf0 (m ((c.tc : Thread nD τ).loc main_arg7))) (rowOf0 (m ((c.tc : Thread nD τ).loc main_arg8)))
abbrev h2 (c : Dev nD) : Feat := refLayer (h1 m c) (srcOf (m ((c.tc : Thread nD τ).loc main_arg1))) (dstOf (m ((c.tc : Thread nD τ).loc main_arg1))) (matOf1 (m ((c.tc : Thread nD τ).loc main_arg4))) (matOf1 (m ((c.tc : Thread nD τ).loc main_arg6))) (rowOf1 (m ((c.tc : Thread nD τ).loc main_arg5))) (rowOf1 (m ((c.tc : Thread nD τ).loc main_arg7))) (rowOf1 (m ((c.tc : Thread nD τ).loc main_arg8)))
abbrev h3 (c : Dev nD) : Feat := refLayer (h2 m c) (srcOf (m ((c.tc : Thread nD τ).loc main_arg1))) (dstOf (m ((c.tc : Thread nD τ).loc main_arg1))) (matOf2 (m ((c.tc : Thread nD τ).loc main_arg4))) (matOf2 (m ((c.tc : Thread nD τ).loc main_arg6))) (rowOf2 (m ((c.tc : Thread nD τ).loc main_arg5))) (rowOf2 (m ((c.tc : Thread nD τ).loc main_arg7))) (rowOf2 (m ((c.tc : Thread nD τ).loc main_arg8)))

/-- The whole line is the four stretches in order. -/
theorem after_ops (W : Valuation τ sig (Elt Ideal)) :
    after (ops (F := Ideal)) W = after (opsD (F := Ideal)) (after (opsC (F := Ideal)) (after (opsB (F := Ideal)) (after (opsA (F := Ideal)) W))) := by
  rw [ops_split, after_append, after_append, after_append]

theorem WA_arg1 (c : Dev nD) : (WA m c (Proc.devRef .tc main_arg1) : S2x800000.Idx → BitVec 32) = (m ((c.tc : Thread nD τ).loc main_arg1)) := A_keep_arg1 (launchContents m c)
theorem WB_arg1 (c : Dev nD) : (WB m c (Proc.devRef .tc main_arg1) : S2x800000.Idx → BitVec 32) = (m ((c.tc : Thread nD τ).loc main_arg1)) := (B_keep_arg1 (WA m c)).trans (WA_arg1 m c)
theorem WC_arg1 (c : Dev nD) : (WC m c (Proc.devRef .tc main_arg1) : S2x800000.Idx → BitVec 32) = (m ((c.tc : Thread nD τ).loc main_arg1)) := (C_keep_arg1 (WB m c)).trans (WB_arg1 m c)
theorem WA_arg3 (c : Dev nD) : (WA m c (Proc.devRef .tc main_arg3) : S50000.Idx → BitVec 32) = (m ((c.tc : Thread nD τ).loc main_arg3)) := A_keep_arg3 (launchContents m c)
theorem WB_arg3 (c : Dev nD) : (WB m c (Proc.devRef .tc main_arg3) : S50000.Idx → BitVec 32) = (m ((c.tc : Thread nD τ).loc main_arg3)) := (B_keep_arg3 (WA m c)).trans (WA_arg3 m c)
theorem WC_arg3 (c : Dev nD) : (WC m c (Proc.devRef .tc main_arg3) : S50000.Idx → BitVec 32) = (m ((c.tc : Thread nD τ).loc main_arg3)) := (C_keep_arg3 (WB m c)).trans (WB_arg3 m c)
theorem WA_arg4 (c : Dev nD) : (WA m c (Proc.devRef .tc main_arg4) : S3x128x128.Idx → EReal) = (m ((c.tc : Thread nD τ).loc main_arg4)) := A_keep_arg4 (launchContents m c)
theorem WB_arg4 (c : Dev nD) : (WB m c (Proc.devRef .tc main_arg4) : S3x128x128.Idx → EReal) = (m ((c.tc : Thread nD τ).loc main_arg4)) := (B_keep_arg4 (WA m c)).trans (WA_arg4 m c)
theorem WC_arg4 (c : Dev nD) : (WC m c (Proc.devRef .tc main_arg4) : S3x128x128.Idx → EReal) = (m ((c.tc : Thread nD τ).loc main_arg4)) := (C_keep_arg4 (WB m c)).trans (WB_arg4 m c)
theorem WA_arg5 (c : Dev nD) : (WA m c (Proc.devRef .tc main_arg5) : S3x128.Idx → EReal) = (m ((c.tc : Thread nD τ).loc main_arg5)) := A_keep_arg5 (launchContents m c)
theorem WB_arg5 (c : Dev nD) : (WB m c (Proc.devRef .tc main_arg5) : S3x128.Idx → EReal) = (m ((c.tc : Thread nD τ).loc main_arg5)) := (B_keep_arg5 (WA m c)).trans (WA_arg5 m c)
theorem WC_arg5 (c : Dev nD) : (WC m c (Proc.devRef .tc main_arg5) : S3x128.Idx → EReal) = (m ((c.tc : Thread nD τ).loc main_arg5)) := (C_keep_arg5 (WB m c)).trans (WB_arg5 m c)
theorem WA_arg6 (c : Dev nD) : (WA m c (Proc.devRef .tc main_arg6) : S3x128x128.Idx → EReal) = (m ((c.tc : Thread nD τ).loc main_arg6)) := A_keep_arg6 (launchContents m c)
theorem WB_arg6 (c : Dev nD) : (WB m c (Proc.devRef .tc main_arg6) : S3x128x128.Idx → EReal) = (m ((c.tc : Thread nD τ).loc main_arg6)) := (B_keep_arg6 (WA m c)).trans (WA_arg6 m c)
theorem WC_arg6 (c : Dev nD) : (WC m c (Proc.devRef .tc main_arg6) : S3x128x128.Idx → EReal) = (m ((c.tc : Thread nD τ).loc main_arg6)) := (C_keep_arg6 (WB m c)).trans (WB_arg6 m c)
theorem WA_arg7 (c : Dev nD) : (WA m c (Proc.devRef .tc main_arg7) : S3x128.Idx → EReal) = (m ((c.tc : Thread nD τ).loc main_arg7)) := A_keep_arg7 (launchContents m c)
theorem WB_arg7 (c : Dev nD) : (WB m c (Proc.devRef .tc main_arg7) : S3x128.Idx → EReal) = (m ((c.tc : Thread nD τ).loc main_arg7)) := (B_keep_arg7 (WA m c)).trans (WA_arg7 m c)
theorem WC_arg7 (c : Dev nD) : (WC m c (Proc.devRef .tc main_arg7) : S3x128.Idx → EReal) = (m ((c.tc : Thread nD τ).loc main_arg7)) := (C_keep_arg7 (WB m c)).trans (WB_arg7 m c)
theorem WA_arg8 (c : Dev nD) : (WA m c (Proc.devRef .tc main_arg8) : S3x128.Idx → EReal) = (m ((c.tc : Thread nD τ).loc main_arg8)) := A_keep_arg8 (launchContents m c)
theorem WB_arg8 (c : Dev nD) : (WB m c (Proc.devRef .tc main_arg8) : S3x128.Idx → EReal) = (m ((c.tc : Thread nD τ).loc main_arg8)) := (B_keep_arg8 (WA m c)).trans (WA_arg8 m c)
theorem WC_arg8 (c : Dev nD) : (WC m c (Proc.devRef .tc main_arg8) : S3x128.Idx → EReal) = (m ((c.tc : Thread nD τ).loc main_arg8)) := (C_keep_arg8 (WB m c)).trans (WB_arg8 m c)
theorem WA_arg9 (c : Dev nD) : (WA m c (Proc.devRef .tc main_arg9) : S1x128.Idx → EReal) = (m ((c.tc : Thread nD τ).loc main_arg9)) := A_keep_arg9 (launchContents m c)
theorem WB_arg9 (c : Dev nD) : (WB m c (Proc.devRef .tc main_arg9) : S1x128.Idx → EReal) = (m ((c.tc : Thread nD τ).loc main_arg9)) := (B_keep_arg9 (WA m c)).trans (WA_arg9 m c)
theorem WC_arg9 (c : Dev nD) : (WC m c (Proc.devRef .tc main_arg9) : S1x128.Idx → EReal) = (m ((c.tc : Thread nD τ).loc main_arg9)) := (C_keep_arg9 (WB m c)).trans (WB_arg9 m c)
theorem WA_arg10 (c : Dev nD) : (WA m c (Proc.devRef .tc main_arg10) : S1.Idx → EReal) = (m ((c.tc : Thread nD τ).loc main_arg10)) := A_keep_arg10 (launchContents m c)
theorem WB_arg10 (c : Dev nD) : (WB m c (Proc.devRef .tc main_arg10) : S1.Idx → EReal) = (m ((c.tc : Thread nD τ).loc main_arg10)) := (B_keep_arg10 (WA m c)).trans (WA_arg10 m c)
theorem WC_arg10 (c : Dev nD) : (WC m c (Proc.devRef .tc main_arg10) : S1.Idx → EReal) = (m ((c.tc : Thread nD τ).loc main_arg10)) := (C_keep_arg10 (WB m c)).trans (WB_arg10 m c)
theorem WA_v1 (c : Dev nD) : (WA m c (Proc.devRef .tc main_v1) : S800000.Idx → BitVec 32) = srcOf (m ((c.tc : Thread nD τ).loc main_arg1)) := A_v1 (launchContents m c)
theorem WA_v3 (c : Dev nD) : (WA m c (Proc.devRef .tc main_v3) : S800000.Idx → BitVec 32) = dstOf (m ((c.tc : Thread nD τ).loc main_arg1)) := A_v3 (launchContents m c)
theorem WB_v1 (c : Dev nD) : (WB m c (Proc.devRef .tc main_v1) : S800000.Idx → BitVec 32) = srcOf (m ((c.tc : Thread nD τ).loc main_arg1)) := (B_keep_v1 (WA m c)).trans (WA_v1 m c)
theorem WB_v3 (c : Dev nD) : (WB m c (Proc.devRef .tc main_v3) : S800000.Idx → BitVec 32) = dstOf (m ((c.tc : Thread nD τ).loc main_arg1)) := (B_keep_v3 (WA m c)).trans (WA_v3 m c)
theorem WA_h (c : Dev nD) : (WA m c (Proc.devRef .tc main_v66) : S50000x128.Idx → EReal) = h1 m c := A_h (launchContents m c)
theorem WB_h (c : Dev nD) : (WB m c (Proc.devRef .tc main_v129) : S50000x128.Idx → EReal) = h2 m c := by
  show after (opsB (F := Ideal)) (WA m c) (Proc.devRef .tc main_v129) = _
  rw [B_h, WA_h m c, WA_v1 m c, WA_v3 m c, WA_arg4 m c, WA_arg5 m c, WA_arg6 m c, WA_arg7 m c, WA_arg8 m c]
theorem WC_h (c : Dev nD) : (WC m c (Proc.devRef .tc main_v192) : S50000x128.Idx → EReal) = h3 m c := by
  show after (opsC (F := Ideal)) (WB m c) (Proc.devRef .tc main_v192) = _
  rw [C_h, WB_h m c, WB_v1 m c, WB_v3 m c, WB_arg4 m c, WB_arg5 m c, WB_arg6 m c, WB_arg7 m c, WB_arg8 m c]

/-- The result buffer ends at `refAll` of the arguments. -/
theorem result_eq (c : Dev nD) : (after (ops (F := Ideal)) (launchContents m c) (Proc.devRef .tc main_v206) : S64x1.Idx → EReal)
    = refAll (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [after_ops]
  show after (opsD (F := Ideal)) (WC m c) (Proc.devRef .tc main_v206) = _
  rw [D_out, WC_h m c, WC_arg3 m c, WC_arg9 m c, WC_arg10 m c]
  rfl

theorem arg0_kept (c : Dev nD) : after (ops (F := Ideal)) (launchContents m c) (Proc.devRef .tc main_arg0) = (m ((c.tc : Thread nD τ).loc main_arg0)) := by
  rw [after_ops, D_keep_arg0, C_keep_arg0, B_keep_arg0, A_keep_arg0]
theorem arg1_kept (c : Dev nD) : after (ops (F := Ideal)) (launchContents m c) (Proc.devRef .tc main_arg1) = (m ((c.tc : Thread nD τ).loc main_arg1)) := by
  rw [after_ops, D_keep_arg1, C_keep_arg1, B_keep_arg1, A_keep_arg1]
theorem arg2_kept (c : Dev nD) : after (ops (F := Ideal)) (launchContents m c) (Proc.devRef .tc main_arg2) = (m ((c.tc : Thread nD τ).loc main_arg2)) := by
  rw [after_ops, D_keep_arg2, C_keep_arg2, B_keep_arg2, A_keep_arg2]
theorem arg3_kept (c : Dev nD) : after (ops (F := Ideal)) (launchContents m c) (Proc.devRef .tc main_arg3) = (m ((c.tc : Thread nD τ).loc main_arg3)) := by
  rw [after_ops, D_keep_arg3, C_keep_arg3, B_keep_arg3, A_keep_arg3]
theorem arg4_kept (c : Dev nD) : after (ops (F := Ideal)) (launchContents m c) (Proc.devRef .tc main_arg4) = (m ((c.tc : Thread nD τ).loc main_arg4)) := by
  rw [after_ops, D_keep_arg4, C_keep_arg4, B_keep_arg4, A_keep_arg4]
theorem arg5_kept (c : Dev nD) : after (ops (F := Ideal)) (launchContents m c) (Proc.devRef .tc main_arg5) = (m ((c.tc : Thread nD τ).loc main_arg5)) := by
  rw [after_ops, D_keep_arg5, C_keep_arg5, B_keep_arg5, A_keep_arg5]
theorem arg6_kept (c : Dev nD) : after (ops (F := Ideal)) (launchContents m c) (Proc.devRef .tc main_arg6) = (m ((c.tc : Thread nD τ).loc main_arg6)) := by
  rw [after_ops, D_keep_arg6, C_keep_arg6, B_keep_arg6, A_keep_arg6]
theorem arg7_kept (c : Dev nD) : after (ops (F := Ideal)) (launchContents m c) (Proc.devRef .tc main_arg7) = (m ((c.tc : Thread nD τ).loc main_arg7)) := by
  rw [after_ops, D_keep_arg7, C_keep_arg7, B_keep_arg7, A_keep_arg7]
theorem arg8_kept (c : Dev nD) : after (ops (F := Ideal)) (launchContents m c) (Proc.devRef .tc main_arg8) = (m ((c.tc : Thread nD τ).loc main_arg8)) := by
  rw [after_ops, D_keep_arg8, C_keep_arg8, B_keep_arg8, A_keep_arg8]
theorem arg9_kept (c : Dev nD) : after (ops (F := Ideal)) (launchContents m c) (Proc.devRef .tc main_arg9) = (m ((c.tc : Thread nD τ).loc main_arg9)) := by
  rw [after_ops, D_keep_arg9, C_keep_arg9, B_keep_arg9, A_keep_arg9]
theorem arg10_kept (c : Dev nD) : after (ops (F := Ideal)) (launchContents m c) (Proc.devRef .tc main_arg10) = (m ((c.tc : Thread nD τ).loc main_arg10)) := by
  rw [after_ops, D_keep_arg10, C_keep_arg10, B_keep_arg10, A_keep_arg10]

/-- Every weakly fair execution of the reference terminates, nothing faulting, with the result at `refAll` of the arguments
    and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v206) = refAll (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))
      ∧ r.2.mem ((c.tc : Thread nD τ).loc main_arg10) = (m ((c.tc : Thread nD τ).loc main_arg10)) :=
  (θ_run defs _ _).mono (fun _ h c => ⟨(h c main_v206).trans (result_eq m c),
      (h c main_arg0).trans (arg0_kept m c),
      (h c main_arg1).trans (arg1_kept m c),
      (h c main_arg2).trans (arg2_kept m c),
      (h c main_arg3).trans (arg3_kept m c),
      (h c main_arg4).trans (arg4_kept m c),
      (h c main_arg5).trans (arg5_kept m c),
      (h c main_arg6).trans (arg6_kept m c),
      (h c main_arg7).trans (arg7_kept m c),
      (h c main_arg8).trans (arg8_kept m c),
      (h c main_arg9).trans (arg9_kept m c),
      (h c main_arg10).trans (arg10_kept m c)⟩)
    (run_raw m ρ)

end Chain

end Cert.ReferenceIdeal.RefValue

end
-- ==== Proof.LibScatterPerm.lean ====
/-
  A reusable fact about the ideal accumulating scatter: the sum it takes per operand element is
  over the update indices that land on that element, and extended-real addition is commutative,
  so the updates (together with the scatter indices that route them) may be re-enumerated along
  any bijection of the update indices without changing the result.

  Also: where an update lands (`ScatterDims.resultIdx?`) depends on the scatter indices only
  through the start of its window on every operand axis, and on the update index only through
  that start and its window coordinate on every operand axis.
-/
import Idealize.ShloMosaic.PureOps.Ideal

namespace Idealize.ShloMosaic

open scoped BigOperators

namespace ScatterDims

variable {s si u : Shape} (d : ScatterDims s si u)

/-- Where an update lands is a function of its window's start and its window coordinate on every
    operand axis: two (update index, scatter indices) pairs that agree on both land at the same
    operand index (or are both dropped). The scatter indices may even have different widths. -/
theorem resultIdx?_congr {w w' : Nat} (j j' : u.Idx) (idx : IVec si w) (idx' : IVec si w')
    (hstart : ∀ a, d.start j idx a = d.start j' idx' a) (hwin : ∀ a, d.window j a = d.window j' a) :
    d.resultIdx? j idx = d.resultIdx? j' idx' := by
  unfold resultIdx?
  simp only [hstart, hwin]

/-- Where an update lands depends on the scatter indices only through the start of its window. -/
theorem resultIdx?_congr_start {w w' : Nat} (j : u.Idx) (idx : IVec si w) (idx' : IVec si w')
    (hstart : ∀ a, d.start j idx a = d.start j idx' a) :
    d.resultIdx? j idx = d.resultIdx? j idx' :=
  d.resultIdx?_congr j j idx idx' hstart (fun _ => rfl)

end ScatterDims

namespace Ideal

/-- The ideal accumulating scatter does not change when its updates are re-enumerated along a
    bijection `π` of the update indices, provided the scatter indices are re-enumerated with them:
    update `j` of the new enumeration is update `π j` of the old one and lands where it landed. -/
theorem hostScatterAdd_reindex {s si su : Shape} (d : ScatterDims s si su) {w : Nat} (x : s.Idx → EReal)
    (idx idx' : IVec si w) (upd upd' : su.Idx → EReal) (π : su.Idx ≃ su.Idx)
    (hidx : ∀ j, d.resultIdx? j idx' = d.resultIdx? (π j) idx) (hupd : ∀ j, upd' j = upd (π j)) :
    Ideal.hostScatterAdd d x idx' upd' = Ideal.hostScatterAdd d x idx upd := by
  funext i
  unfold Ideal.hostScatterAdd
  congr 1
  refine Finset.sum_equiv π ?_ ?_
  · intro j
    simp only [Finset.mem_filter, Finset.mem_univ, true_and, hidx]
  · intro j _
    exact hupd j

/-- The same with scatter indices of two different widths. -/
theorem hostScatterAdd_reindex' {s si su : Shape} (d : ScatterDims s si su) {w w' : Nat} (x : s.Idx → EReal)
    (idx : IVec si w) (idx' : IVec si w') (upd upd' : su.Idx → EReal) (π : su.Idx ≃ su.Idx)
    (hidx : ∀ j, d.resultIdx? j idx' = d.resultIdx? (π j) idx) (hupd : ∀ j, upd' j = upd (π j)) :
    Ideal.hostScatterAdd d x idx' upd' = Ideal.hostScatterAdd d x idx upd := by
  funext i
  unfold Ideal.hostScatterAdd
  congr 1
  refine Finset.sum_equiv π ?_ ?_
  · intro j
    simp only [Finset.mem_filter, Finset.mem_univ, true_and, hidx]
  · intro j _
    exact hupd j

end Ideal

end Idealize.ShloMosaic
-- ==== Proof.EdgeOrder.lean ====
/-
  A segment sum over the edges of a graph does not see the order of the edges.

  The 800000 edges are sorted once by destination (a stable argsort: the positions `0 … 799999` carried through a
  sort of the destinations), the sources and destinations are read through the sorted order, and the per-node sums —
  the rows of the features at the sources summed into the rows the destinations name, and the in-degrees — are taken
  over the sorted edges. The sort reads its operands through a permutation `σ` of the positions, so the sorted
  sources and destinations are the given ones read at `σ e`; each update of the accumulating scatter lands where the
  update `σ e` of the unsorted scatter lands and carries the same value; and a sum in the extended reals may be
  re-enumerated along a bijection. So both sums equal the sums over the edges as given. The in-degree of a node is a
  natural number, the count of the edges arriving at it.
-/
import proofs.«126205_j20633022890229_2_alg».proof.KernelIdeal
import proofs.«126205_j20633022890229_2_alg».proof.Proof.LibScatterPerm
import Idealize.ShloMosaic.Lib.SortFacts
import Idealize.ShloMosaic.Lib.IdealHost

noncomputable section

namespace Cert.KernelIdeal.EdgeOrder

open Idealize.ShloMosaic Idealize.SL.Sem Idealize.ShloMosaic.ValueIdx
open scoped BigOperators

/-! ## Words -/

/-- A number below 2³¹ as a 32-bit word, read signed, is the number. -/
theorem toInt_ofNat_lt (k : Nat) (hk : k < 2147483648) : (BitVec.ofNat 32 k).toInt = (k : Int) := by
  rw [BitVec.toInt_eq_toNat_cond, BitVec.toNat_ofNat]
  omega

/-- Wrapping a negative index (`i + n` where `i < 0`, else `i`) keeps a word that is nonnegative read signed. -/
theorem wrap_of_nonneg (v a : BitVec 32) (hv : 0 ≤ v.toInt) :
    Scalar.select (IntOp.cmpi .slt v 0#32) a v = v := by
  have h0 : IntOp.cmpi .slt v 0#32 = 0#1 := by
    unfold IntOp.cmpi
    have : v.slt 0#32 = false := by
      unfold BitVec.slt
      simp only [BitVec.toInt_zero, decide_eq_false_iff_not, not_lt]
      exact hv
    simp only [this]
    rfl
  rw [h0, select_zero]

/-! ## The argsort of a flat array -/

/-- On a rank-1 shape, the second output of a two-operand sort along axis 0 is the second operand read through one
    self-map of the positions: the stable sorting permutation of the comparator on the pairs of words. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

theorem ofFin_eq_ix1 {n : Nat} (k : Fin n) : Shape.Idx.ofFin k = ix1 k := by
  funext a; match a with | ⟨0, _⟩ => rfl

variable [Facts₀]
open Facts₀

/-! ## The program's operations -/

/-- The positions `0 … 799999` as words. -/
def iota : IVec S800000 32 := iotaInDim S800000 32 0

/-- The argsort of the destinations: the positions, stably sorted by destination. -/
def order (dst : IVec S800000 32) : IVec S800000 32 :=
  (Host.sort2 S800000 0 comparator_i32_i32_d0 dst iota).2

/-- A position, a negative one wrapped into `[0, 800000)` by adding the length. -/
def wrapE (o : IVec S800000 32) : IVec S800000 32 :=
  select (cmpi .slt o (broadcastInDim S800000 ![] bcast_S_S800000 (constantI S_ 32 0#32)))
    (addi o (broadcastInDim S800000 ![] bcast_S_S800000 (constantI S_ 32 800000#32))) o

def orderW (dst : IVec S800000 32) : IVec S800000 32 := wrapE (order dst)

/-- An edge array read through the sorted order. -/
def srcS (dst src : IVec S800000 32) : IVec S800000 32 :=
  Host.gather gather_S800000_S800000x1_S800000_n_0_n_n_0_1_1 src
    (broadcastInDim S800000x1 ![0] bcast_S800000_S800000x1_0 (orderW dst))

def dstS (dst : IVec S800000 32) : IVec S800000 32 :=
  Host.gather gather_S800000_S800000x1_S800000_n_0_n_n_0_1_1 dst
    (broadcastInDim S800000x1 ![0] bcast_S800000_S800000x1_0 (orderW dst))

/-- A node number, a negative one wrapped into `[0, 50000)` by adding the length. -/
def wrapN (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The messages: row `s e` of the features, for every edge `e`. -/
def msg (h : S50000x128.Idx → EReal) (s : IVec S800000 32) : S800000x128.Idx → EReal :=
  Host.gather gather_S50000x128_S800000x1_S800000x128_1_0_n_n_0_1_1128 h
    (broadcastInDim S800000x1 ![0] bcast_S800000_S800000x1_0 (wrapN s))

/-- The aggregate: the messages of sources `s` summed into the rows their destinations `t` name. -/
def agg (h : S50000x128.Idx → EReal) (s t : IVec S800000 32) : S50000x128.Idx → EReal :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 t) (msg h s)

/-- The in-degrees: a one summed into the entry each edge's destination names. -/
def deg (t : IVec S800000 32) : S50000.Idx → EReal :=
  Host.scatterAdd (F := Ideal) (φ := .f32) scatter_S50000_S800000x1_S800000_n_0_0_1
    (broadcastInDim S50000 ![] bcast_S_S50000 (constant (F := Ideal) S_ .f32 0x00000000#32))
    (broadcastInDim S800000x1 ![0] bcast_S800000_S800000x1_0 t)
    (broadcastInDim S800000 ![] bcast_S_S800000 (constant (F := Ideal) S_ .f32 0x3F800000#32))

/-! ## The operations read at an index -/

theorem wrapE_apply (o : IVec S800000 32) (i : S800000.Idx) :
    wrapE o i = Scalar.select (IntOp.cmpi .slt (o i) 0#32) (IntOp.addi (o i) 800000#32) (o i) := rfl

theorem wrapN_apply (s : IVec S800000 32) (i : S800000.Idx) :
    wrapN s i = Scalar.select (IntOp.cmpi .slt (s i) 0#32) (IntOp.addi (s i) 50000#32) (s i) := rfl

/-- A flat array as a column, read at `(e, 0)`. -/
theorem col_apply {α : Type} (t : S800000.Idx → α) (e : Fin 800000) (z : Fin 1) :
    broadcastInDim S800000x1 ![0] bcast_S800000_S800000x1_0 t (ix2 e z) = t (ix1 e) := by
  unfold broadcastInDim
  refine congrArg t (funext fun a => ?_)
  match a with
  | ⟨0, _⟩ => rfl

section Gather
variable {α : Type} {w : Nat}

/-- A flat array of 800000 gathered at a column of start indices: entry `e` is the operand at the start index, read
    signed and clamped into the array. -/
theorem gatherE_apply (x : S800000.Idx → α) (idx : IVec S800000x1 w) (e : Fin 800000) :
    Host.gather gather_S800000_S800000x1_S800000_n_0_n_n_0_1_1 x idx (ix1 e)
      = x (ix1 ⟨min (idx (ix2 e (0 : Fin 1))).toInt.toNat (800000 - 1), by omega⟩) := by
  unfold Host.gather
  congr 1
  funext a
  obtain rfl : a = 0 := Subsingleton.elim _ _
  refine Fin.ext ?_
  show gather_S800000_S800000x1_S800000_n_0_n_n_0_1_1.start (ix1 e) idx 0
    + gather_S800000_S800000x1_S800000_n_0_n_n_0_1_1.batchCoord (ix1 e) 0
    + gather_S800000_S800000x1_S800000_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S800000_S800000x1_S800000_n_0_n_n_0_1_1.startIndexMap from List.mem_singleton.mpr rfl)]
  have hsi : gather_S800000_S800000x1_S800000_n_0_n_n_0_1_1.siIdx (ix1 e)
      ⟨List.idxOf (0 : Fin 1) gather_S800000_S800000x1_S800000_n_0_n_n_0_1_1.startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The rows of a `[50000, 128]` array gathered at a column of start indices: entry `(e, c)` is the operand at
    `(the start index, c)`, the start index read signed and clamped into the rows. -/
theorem gatherRows_apply (x : S50000x128.Idx → α) (idx : IVec S800000x1 w) (e : Fin 800000) (c : Fin 128) :
    Host.gather gather_S50000x128_S800000x1_S800000x128_1_0_n_n_0_1_1128 x idx (ix2 e c)
      = x (ix2 ⟨min (idx (ix2 e (0 : Fin 1))).toInt.toNat (50000 - 1), by omega⟩ c) := by
  unfold Host.gather
  congr 1
  funext a
  refine Fin.ext ?_
  match a with
  | ⟨0, _⟩ =>
    show gather_S50000x128_S800000x1_S800000x128_1_0_n_n_0_1_1128.start (ix2 e c) idx 0
      + gather_S50000x128_S800000x1_S800000x128_1_0_n_n_0_1_1128.batchCoord (ix2 e c) 0
      + gather_S50000x128_S800000x1_S800000x128_1_0_n_n_0_1_1128.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x128_S800000x1_S800000x128_1_0_n_n_0_1_1128.startIndexMap from List.mem_singleton.mpr rfl)]
    have hsi : gather_S50000x128_S800000x1_S800000x128_1_0_n_n_0_1_1128.siIdx (ix2 e c)
        ⟨List.idxOf (0 : Fin 2) gather_S50000x128_S800000x1_S800000x128_1_0_n_n_0_1_1128.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S50000x128_S800000x1_S800000x128_1_0_n_n_0_1_1128.start (ix2 e c) idx 1
      + gather_S50000x128_S800000x1_S800000x128_1_0_n_n_0_1_1128.batchCoord (ix2 e c) 1
      + gather_S50000x128_S800000x1_S800000x128_1_0_n_n_0_1_1128.offCoord (ix2 e c) 1 = c.val
    rw [GatherDims.batchCoord_eq_zero _ _ _ List.not_mem_nil]
    have hs : gather_S50000x128_S800000x1_S800000x128_1_0_n_n_0_1_1128.start (ix2 e c) idx 1 = 0 := by
      unfold GatherDims.start
      rw [dif_neg (show (1 : Fin 2) ∉ gather_S50000x128_S800000x1_S800000x128_1_0_n_n_0_1_1128.startIndexMap by
        intro h; exact absurd (List.mem_singleton.mp h) (by decide))]
    rw [hs]
    simp only [Nat.add_zero, Nat.zero_add]
    unfold GatherDims.offCoord
    rw [dif_pos ((GatherDims.mem_sKept _ _).mpr ⟨fun h => absurd (List.mem_singleton.mp h) (by decide), List.not_mem_nil⟩)]
    rfl

end Gather

/-! ## The sorting permutation -/

theorem iota_apply (j : S800000.Idx) : iota j = BitVec.ofNat 32 (j 0).val := rfl

/-- The stable sorting permutation of the edges by destination: position `e` of the sorted order holds edge
    `σ dst e`. -/
def σ (dst : IVec S800000 32) : Fin 800000 → Fin 800000 :=
  sortedFrom (fun k k' => comparator_i32_i32_d0 (dst (Shape.Idx.ofFin k), iota (Shape.Idx.ofFin k))
    (dst (Shape.Idx.ofFin k'), iota (Shape.Idx.ofFin k')) == 1#1)

theorem σ_bijective (dst : IVec S800000 32) : Function.Bijective (σ dst) :=
  ⟨sortedFrom_injective _, sortedFrom_surjective _⟩

/-- The argsort's entry `e` is the position `σ dst e`, as a word. -/
theorem order_apply (dst : IVec S800000 32) (e : Fin 800000) :
    order dst (ix1 e) = BitVec.ofNat 32 (σ dst e).val := by
  unfold order σ
  rw [sort2_snd_rank1, iota_apply, Shape.Idx.ofFin_zero]

attribute [irreducible] σ

theorem σ_lt (dst : IVec S800000 32) (e : Fin 800000) : (σ dst e).val < 2147483648 := by
  have := (σ dst e).isLt; omega

theorem orderW_apply (dst : IVec S800000 32) (e : Fin 800000) :
    orderW dst (ix1 e) = BitVec.ofNat 32 (σ dst e).val := by
  unfold orderW
  rw [wrapE_apply, order_apply]
  exact wrap_of_nonneg _ _ (by rw [toInt_ofNat_lt _ (σ_lt dst e)]; exact Int.natCast_nonneg _)

/-- A position below 800000, as a word read signed and clamped into `[0, 800000)`, is the position. -/
theorem clampE_eq (k : Fin 800000) (v : BitVec 32) (hv : v = BitVec.ofNat 32 k.val)
    (h : min v.toInt.toNat (800000 - 1) < 800000) : (⟨min v.toInt.toNat (800000 - 1), h⟩ : Fin 800000) = k := by
  subst hv
  apply Fin.ext
  show min (BitVec.ofNat 32 k.val).toInt.toNat (800000 - 1) = k.val
  rw [toInt_ofNat_lt _ (by have := k.isLt; omega)]
  have := k.isLt
  omega

/-- An edge array gathered through the sorted order: entry `e` is the array's at `σ dst e`. -/
theorem gatherSorted_apply (x dst : IVec S800000 32) (e : Fin 800000) :
    Host.gather gather_S800000_S800000x1_S800000_n_0_n_n_0_1_1 x
      (broadcastInDim S800000x1 ![0] bcast_S800000_S800000x1_0 (orderW dst)) (ix1 e) = x (ix1 (σ dst e)) := by
  rw [gatherE_apply]
  exact congrArg x (congrArg ix1 (clampE_eq _ _ (by rw [col_apply, orderW_apply]) _))

theorem srcS_apply (dst src : IVec S800000 32) (e : Fin 800000) : srcS dst src (ix1 e) = src (ix1 (σ dst e)) :=
  gatherSorted_apply src dst e

theorem dstS_apply (dst : IVec S800000 32) (e : Fin 800000) : dstS dst (ix1 e) = dst (ix1 (σ dst e)) :=
  gatherSorted_apply dst dst e

/-! ## The messages and the scatter indices depend on an edge only through its source and destination -/

/-- The message of an edge is a function of its source word. -/
theorem msg_congr (h : S50000x128.Idx → EReal) (s s' : IVec S800000 32) (e e' : Fin 800000) (c : Fin 128)
    (hs : s (ix1 e) = s' (ix1 e')) : msg h s (ix2 e c) = msg h s' (ix2 e' c) := by
  unfold msg
  rw [gatherRows_apply, gatherRows_apply]
  have hv : broadcastInDim S800000x1 ![0] bcast_S800000_S800000x1_0 (wrapN s) (ix2 e (0 : Fin 1))
      = broadcastInDim S800000x1 ![0] bcast_S800000_S800000x1_0 (wrapN s') (ix2 e' (0 : Fin 1)) := by
    rw [col_apply, col_apply, wrapN_apply, wrapN_apply, hs]
  refine congrArg h (congrArg (fun k => ix2 k c) (Fin.ext ?_))
  show min _ _ = min _ _
  rw [hv]

/-- The start of a row update's window on the row axis is its destination word, read signed. -/
theorem rowsStart_zero (t : IVec S800000 32) (e : Fin 800000) (c : Fin 128) :
    scatter_S50000x128_S800000x1_S800000x128_1_0_0_1.start (ix2 e c)
        (broadcastInDim S800000x1 ![0] bcast_S800000_S800000x1_0 t) (0 : Fin 2) = (t (ix1 e)).toInt := by
  unfold ScatterDims.start
  have hm : (0 : Fin 2) ∈ scatter_S50000x128_S800000x1_S800000x128_1_0_0_1.scatterDimsToOperandDims :=
    List.mem_singleton.mpr rfl
  rw [dif_pos hm]
  have hsi : scatter_S50000x128_S800000x1_S800000x128_1_0_0_1.siIdx (ix2 e c)
      ⟨List.idxOf (0 : Fin 2) scatter_S50000x128_S800000x1_S800000x128_1_0_0_1.scatterDimsToOperandDims,
      List.idxOf_lt_length_iff.2 hm⟩ = ix2 e (0 : Fin 1) := by
    funext b; refine Fin.ext ?_
    match b with
    | ⟨0, _⟩ => rfl
    | ⟨1, _⟩ => rfl
  rw [hsi, col_apply]

/-- The start of a row update's window on the column axis is 0. -/
theorem rowsStart_one (t : IVec S800000 32) (e : Fin 800000) (c : Fin 128) :
    scatter_S50000x128_S800000x1_S800000x128_1_0_0_1.start (ix2 e c)
        (broadcastInDim S800000x1 ![0] bcast_S800000_S800000x1_0 t) (1 : Fin 2) = 0 := by
  unfold ScatterDims.start
  have hm : (1 : Fin 2) ∉ scatter_S50000x128_S800000x1_S800000x128_1_0_0_1.scatterDimsToOperandDims :=
    fun h => absurd (List.mem_singleton.mp h) (by decide)
  rw [dif_neg hm]

/-- Where a row update lands is a function of its destination word and its column. -/
theorem rowsResultIdx_congr (t t' : IVec S800000 32) (e e' : Fin 800000) (c : Fin 128)
    (ht : t (ix1 e) = t' (ix1 e')) :
    scatter_S50000x128_S800000x1_S800000x128_1_0_0_1.resultIdx? (ix2 e c)
        (broadcastInDim S800000x1 ![0] bcast_S800000_S800000x1_0 t)
      = scatter_S50000x128_S800000x1_S800000x128_1_0_0_1.resultIdx? (ix2 e' c)
        (broadcastInDim S800000x1 ![0] bcast_S800000_S800000x1_0 t') := by
  refine ScatterDims.resultIdx?_congr _ _ _ _ _ (fun a => ?_) (fun a => ?_)
  · match a with
    | ⟨0, _⟩ => exact (rowsStart_zero t e c).trans ((congrArg BitVec.toInt ht).trans (rowsStart_zero t' e' c).symm)
    | ⟨1, _⟩ => exact (rowsStart_one t e c).trans (rowsStart_one t' e' c).symm
  · match a with
    | ⟨0, _⟩ => rfl
    | ⟨1, _⟩ => rfl

/-- Where a count update lands is a function of its destination word. -/
theorem countResultIdx_congr (t t' : IVec S800000 32) (e e' : Fin 800000)
    (ht : t (ix1 e) = t' (ix1 e')) :
    scatter_S50000_S800000x1_S800000_n_0_0_1.resultIdx? (ix1 e)
        (broadcastInDim S800000x1 ![0] bcast_S800000_S800000x1_0 t)
      = scatter_S50000_S800000x1_S800000_n_0_0_1.resultIdx? (ix1 e')
        (broadcastInDim S800000x1 ![0] bcast_S800000_S800000x1_0 t') := by
  refine ScatterDims.resultIdx?_congr _ _ _ _ _ (fun a => ?_) (fun a => ?_)
  · obtain rfl : a = 0 := Subsingleton.elim _ _
    unfold ScatterDims.start
    have hm : (0 : Fin 1) ∈ scatter_S50000_S800000x1_S800000_n_0_0_1.scatterDimsToOperandDims :=
      List.mem_singleton.mpr rfl
    rw [dif_pos hm, dif_pos hm]
    have hsi : ∀ k : Fin 800000, scatter_S50000_S800000x1_S800000_n_0_0_1.siIdx (ix1 k)
        ⟨List.idxOf (0 : Fin 1) scatter_S50000_S800000x1_S800000_n_0_0_1.scatterDimsToOperandDims,
        List.idxOf_lt_length_iff.2 hm⟩ = ix2 k (0 : Fin 1) := by
      intro k; funext b; refine Fin.ext ?_
      match b with
      | ⟨0, _⟩ => rfl
      | ⟨1, _⟩ => rfl
    rw [hsi e, hsi e', col_apply, col_apply, ht]
  · obtain rfl : a = 0 := Subsingleton.elim _ _
    rfl

/-! ## The re-enumerations of the updates -/

/-- The sorting permutation as an equivalence. -/
def τ (dst : IVec S800000 32) : Fin 800000 ≃ Fin 800000 := Equiv.ofBijective (σ dst) (σ_bijective dst)

theorem τ_apply (dst : IVec S800000 32) (e : Fin 800000) : τ dst e = σ dst e := rfl

/-- The row updates re-enumerated: `(e, c) ↦ (σ dst e, c)`. -/
def πRows (dst : IVec S800000 32) : S800000x128.Idx ≃ S800000x128.Idx where
  toFun j := ix2 (τ dst (j 0)) (j 1)
  invFun j := ix2 ((τ dst).symm (j 0)) (j 1)
  left_inv j := by
    exact (congrArg (fun k => ix2 k (j 1)) (Equiv.symm_apply_apply (τ dst) (j 0))).trans (eq_ix2 j).symm
  right_inv j := by
    exact (congrArg (fun k => ix2 k (j 1)) (Equiv.apply_symm_apply (τ dst) (j 0))).trans (eq_ix2 j).symm

theorem πRows_apply (dst : IVec S800000 32) (e : Fin 800000) (c : Fin 128) :
    πRows dst (ix2 e c) = ix2 (σ dst e) c := rfl

/-- The count updates re-enumerated: `e ↦ σ dst e`. -/
def πCount (dst : IVec S800000 32) : S800000.Idx ≃ S800000.Idx where
  toFun j := ix1 (τ dst (j 0))
  invFun j := ix1 ((τ dst).symm (j 0))
  left_inv j := by
    exact (congrArg ix1 (Equiv.symm_apply_apply (τ dst) (j 0))).trans (eq_ix1 j).symm
  right_inv j := by
    exact (congrArg ix1 (Equiv.apply_symm_apply (τ dst) (j 0))).trans (eq_ix1 j).symm

theorem πCount_apply (dst : IVec S800000 32) (e : Fin 800000) : πCount dst (ix1 e) = ix1 (σ dst e) := rfl

/-! ## The segment sums do not see the order of the edges -/

theorem agg_eq (h : S50000x128.Idx → EReal) (s t : IVec S800000 32) :
    agg h s t = Ideal.hostScatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 t) (msg h s) := rfl

theorem deg_eq (t : IVec S800000 32) :
    deg t = Ideal.hostScatterAdd scatter_S50000_S800000x1_S800000_n_0_0_1
      (broadcastInDim S50000 ![] bcast_S_S50000 (constant (F := Ideal) S_ .f32 0x00000000#32))
      (broadcastInDim S800000x1 ![0] bcast_S800000_S800000x1_0 t)
      (broadcastInDim S800000 ![] bcast_S_S800000 (constant (F := Ideal) S_ .f32 0x3F800000#32)) := rfl

/-- The aggregate over the edges sorted by destination is the aggregate over the edges as given. -/
theorem agg_sorted_eq (h : S50000x128.Idx → EReal) (dst src : IVec S800000 32) :
    agg h (srcS dst src) (dstS dst) = agg h src dst := by
  rw [agg_eq, agg_eq]
  refine Ideal.hostScatterAdd_reindex _ _ _ _ _ _ (πRows dst) (fun j => ?_) (fun j => ?_)
  · obtain ⟨e, c, rfl⟩ : ∃ e c, j = ix2 e c := ⟨j 0, j 1, eq_ix2 j⟩
    rw [πRows_apply]
    exact rowsResultIdx_congr _ _ _ _ _ (dstS_apply dst e)
  · obtain ⟨e, c, rfl⟩ : ∃ e c, j = ix2 e c := ⟨j 0, j 1, eq_ix2 j⟩
    rw [πRows_apply]
    exact msg_congr h _ _ _ _ _ (srcS_apply dst src e)

/-- The in-degrees counted over the sorted edges are the in-degrees counted over the edges as given. -/
theorem deg_sorted_eq (dst : IVec S800000 32) : deg (dstS dst) = deg dst := by
  rw [deg_eq, deg_eq]
  refine Ideal.hostScatterAdd_reindex _ _ _ _ _ _ (πCount dst) (fun j => ?_) (fun j => ?_)
  · obtain ⟨e, rfl⟩ : ∃ e, j = ix1 e := ⟨j 0, eq_ix1 j⟩
    rw [πCount_apply]
    exact countResultIdx_congr _ _ _ _ (dstS_apply dst e)
  · rfl

theorem sum_one_eq_card {ι : Type} (S : Finset ι) : ∑ _j ∈ S, (1 : EReal) = ((S.card : ℝ) : EReal) := by
  rw [Finset.sum_const, EReal.nsmul_eq_mul, mul_one]; rfl

/-- An in-degree is a natural number: the number of edges whose destination is the node. -/
theorem deg_nat (t : IVec S800000 32) (n : S50000.Idx) : ∃ k : ℕ, deg t n = ((k : ℝ) : EReal) := by
  rw [deg_eq]
  unfold Ideal.hostScatterAdd
  have h0 : broadcastInDim S50000 ![] bcast_S_S50000 (constant (F := Ideal) S_ .f32 0x00000000#32) n = (0 : EReal) :=
    Ideal.ofBits_zero_f32
  have h1 : ∀ j, broadcastInDim S800000 ![] bcast_S_S800000 (constant (F := Ideal) S_ .f32 0x3F800000#32) j = (1 : EReal) :=
    fun _ => Ideal.ofBits_one_f32
  rw [h0, zero_add, Finset.sum_congr rfl (fun j _ => h1 j)]
  exact ⟨_, sum_one_eq_card _⟩

end Cert.KernelIdeal.EdgeOrder

end
-- ==== Proof.EdgeOrderSpec.lean ====
/-
  The segment sums over the sorted edges, stated in the shared vocabulary of the two programs: the aggregate and the
  in-degrees taken over the edges read through a stable sort by destination are the ones taken over the edges as given,
  and an in-degree is a natural number.
-/
import proofs.«126205_j20633022890229_2_alg».proof.Proof.EdgeOrder
import proofs.«126205_j20633022890229_2_alg».proof.Proof.Spec

noncomputable section

namespace Cert.Sage

open Idealize.ShloMosaic Cert.ReferenceIdeal

/-- The aggregate over the edges sorted by destination is the aggregate over the edges as given. -/
theorem agg_sorted_eq (h : Feat) (src dst : EdgeIx) :
    aggOf h (permuteBy src (orderOf dst)) (permuteBy dst (orderOf dst)) = aggOf h src dst :=
  Cert.KernelIdeal.EdgeOrder.agg_sorted_eq h dst src

/-- The in-degrees counted over the sorted edges are the in-degrees counted over the edges as given. -/
theorem deg_sorted_eq (dst : EdgeIx) : degOf (permuteBy dst (orderOf dst)) = degOf dst :=
  Cert.KernelIdeal.EdgeOrder.deg_sorted_eq dst

/-- An in-degree is a natural number: the number of edges whose destination is the node. -/
theorem deg_nat (t : EdgeIx) (n : S50000.Idx) : ∃ k : ℕ, degOf t n = ((k : ℝ) : EReal) :=
  Cert.KernelIdeal.EdgeOrder.deg_nat t n

end Cert.Sage

end
-- ==== Proof.LayerAlgebra.lean ====
/-
  One layer's arithmetic: the arrangement each launch computes is the reference's.

  At node `n` and column `c` the reference computes
      max (((∑ₖ (agg n k / d n) · wl c k) + bl c) + ∑ₖ h n k · wr c k) 0,        d n = max (deg n) 1,
  reading its two products through the transposes of `wl` and `wr`, and each launch computes
      max (((∑ₖ (agg n k · invd n) · wl c k) + ∑ₖ h n k · wr c k) + bl c) 0,       invd n = 1 / d n.
  A degree is a natural number, so `d n` is a real number that is at least one; dividing by a nonzero real is
  multiplying by its reciprocal on EVERY extended real (the infinities and the junk value included), so the first
  sums agree term by term; and `(a + b) + c = (a + c) + b` in the extended reals, whose addition is commutative
  and associative with no finiteness condition.
-/
import proofs.«126205_j20633022890229_2_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

noncomputable section

namespace Cert.Sage

open Idealize.ShloMosaic Idealize.ShloMosaic.ValueIdx Cert.ReferenceIdeal Cert.ReferenceIdeal.Facts₀

/-- The host's product contracting the second axis of an `[a, k]` array with the first axis of a `[k, b]` array,
    read at `(p, q)`: the sum over the contracted coordinate. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral (F := Ideal) D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The host's product of an `[a, k]` array with the transpose of a `[b, k]` array, read at `(p, q)`: the inner
    product of row `p` of the first with row `q` of the second. -/
theorem dotGeneral_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    Host.dotGeneral (F := Ideal) D prec x (transpose ⟨2, ![k, b]⟩ [1, 0] w h) (ix2 p q)
      = ∑ d : Fin k, x (ix2 p d) * w (ix2 q d) :=
  (dotGeneral_ix2_apply D hlc hrc hln hrn hlb hrb prec x _ p q).trans
    (Finset.sum_congr rfl fun d _ => congrArg (x (ix2 p d) * ·) (transpose_ix2_apply w h d q))

/-- An `[a]` array cast to the column `[a, 1]` reads, at `(p, u)`, the operand at `p`. -/
theorem shapeCast_col_ix2_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The clamped degree at node `n`: `max (deg n) 1`. -/
theorem degClamp_apply (deg : FVec Ideal S50000 .f32) (n : Fin 50000) :
    degClamp deg (ix1 n) = max (deg (ix1 n)) (1 : EReal) := by
  unfold degClamp
  refine congrArg (max (deg (ix1 n))) ?_
  refine (broadcastInDim_scalar_apply _ _ _).trans ?_
  exact Ideal.ofBits_one_f32

/-- The reciprocal column at `(n, 0)`: `1 / max (deg n) 1`. -/
theorem invDeg_apply (deg : FVec Ideal S50000 .f32) (n : Fin 50000) :
    invDeg deg (ix2 n (0 : Fin 1)) = Ideal.div (1 : EReal) (max (deg (ix1 n)) (1 : EReal)) := by
  unfold invDeg
  refine (shapeCast_col_ix2_apply _ _ n 0).trans ?_
  refine congrArg₂ Ideal.div ?_ (degClamp_apply deg n)
  refine (broadcastInDim_scalar_apply _ _ _).trans ?_
  exact Ideal.ofBits_one_f32

/-- Dividing by `max k 1` for a natural number `k` is multiplying by its reciprocal, on every extended real. -/
theorem div_clamp (x : EReal) (k : ℕ) :
    Ideal.div x (max (((k : ℝ)) : EReal) (1 : EReal))
      = x * Ideal.div (1 : EReal) (max (((k : ℝ)) : EReal) (1 : EReal)) := by
  have hd : max (((k : ℝ)) : EReal) (1 : EReal) = ((max (k : ℝ) 1 : ℝ) : EReal) :=
    (EReal.coe_strictMono.monotone.map_max).symm
  have hne : max (k : ℝ) 1 ≠ 0 := (lt_of_lt_of_le one_pos (le_max_right _ _)).ne'
  rw [hd, Ideal.div_coe hne, Ideal.div_coe hne, one_mul]

/-- The row of biases repeated down the rows, at `(n, c)`. -/
theorem biasRows_apply (bl : FVec Ideal S128 .f32) (n : Fin 50000) (c : Fin 128) :
    broadcastInDim S50000x128 ![0, 1] bcast_S1x128_S50000x128_0_1 (broadcastInDim S1x128 ![1] bcast_S128_S1x128_1 bl) (ix2 n c)
      = bl (ix1 c) := by
  refine (broadcastInDim_apply _ bcast_S1x128_S50000x128_0_1 _ (ix2 n c) (ix2 (0 : Fin 1) c) fun a => ?_).trans ?_
  · match a with
    | ⟨0, _⟩ => show 0 = if (1 : Nat) = 1 then 0 else n.val; rw [if_pos rfl]
    | ⟨1, _⟩ => show c.val = if (128 : Nat) = 1 then 0 else c.val; rw [if_neg (by decide)]
  · refine broadcastInDim_apply _ bcast_S128_S1x128_1 bl (ix2 (0 : Fin 1) c) (ix1 c) fun a => ?_
    match a with
    | ⟨0, _⟩ => show c.val = if (128 : Nat) = 1 then 0 else c.val; rw [if_neg (by decide)]

/-- The clamped degrees as a column repeated along the rows, at `(n, k)`. -/
theorem degCols_apply (y : FVec Ideal S50000 .f32) (n : Fin 50000) (k : Fin 128) :
    broadcastInDim S50000x128 ![0, 1] bcast_S50000x1_S50000x128_0_1 (broadcastInDim S50000x1 ![0] bcast_S50000_S50000x1_0 y) (ix2 n k)
      = y (ix1 n) := by
  refine (broadcastInDim_apply _ bcast_S50000x1_S50000x128_0_1 _ (ix2 n k) (ix2 n (0 : Fin 1)) fun a => ?_).trans ?_
  · match a with
    | ⟨0, _⟩ => show n.val = if (50000 : Nat) = 1 then 0 else n.val; rw [if_neg (by decide)]
    | ⟨1, _⟩ => show 0 = if (1 : Nat) = 1 then 0 else k.val; rw [if_pos rfl]
  · refine broadcastInDim_apply _ bcast_S50000_S50000x1_0 y (ix2 n (0 : Fin 1)) (ix1 n) fun a => ?_
    match a with
    | ⟨0, _⟩ => show n.val = if (50000 : Nat) = 1 then 0 else n.val; rw [if_neg (by decide)]

/-- One layer as each launch computes it is the reference's layer before normalisation, when every degree is a
    natural number: `x / d = x · (1 / d)` for the real `d = max deg 1 ≥ 1` on every extended real `x`, and
    `(a + b) + c = (a + c) + b`. -/
theorem layer_eq (agg h : Feat) (deg : FVec Ideal S50000 .f32) (hdeg : ∀ n, ∃ k : ℕ, deg n = ((k : ℝ) : EReal))
    (wl wr : FVec Ideal S128x128 .f32) (bl : FVec Ideal S128 .f32) :
    layerK agg h (invDeg deg) wl wr (shapeCast S1x128 bl Cert.KernelIdeal.Facts₀.shapeCasts_S128_S1x128)
      = refPre agg h deg wl wr bl := by
  funext i
  obtain ⟨n, c, rfl⟩ : ∃ (n : Fin 50000) (c : Fin 128), i = ix2 n c := ⟨i 0, i 1, eq_ix2 i⟩
  obtain ⟨k, hk⟩ := hdeg (ix1 n)
  have hR : refPre agg h deg wl wr bl (ix2 n c)
      = max (((∑ j : Fin 128, Ideal.div (agg (ix2 n j)) (max (deg (ix1 n)) (1 : EReal)) * wl (ix2 c j)) + bl (ix1 c))
              + ∑ j : Fin 128, h (ix2 n j) * wr (ix2 c j)) (Ideal.ofBits .f32 0x00000000#32) := by
    unfold refPre
    refine congrArg₂ max (congrArg₂ (· + ·) (congrArg₂ (· + ·) ?_ (biasRows_apply bl n c)) ?_) ?_
    · refine (dotGeneral_transpose_ix2_apply dot_S50000x128_S128x128_S50000x128_1_0_0_1_n_n rfl rfl rfl rfl rfl rfl none _ wl _ n c).trans ?_
      refine Finset.sum_congr rfl fun j _ => ?_
      refine congrArg (fun t => Ideal.div (agg (ix2 n j)) t * wl (ix2 c j)) ?_
      exact (degCols_apply (degClamp deg) n j).trans (degClamp_apply deg n)
    · exact dotGeneral_transpose_ix2_apply dot_S50000x128_S128x128_S50000x128_1_0_0_1_n_n rfl rfl rfl rfl rfl rfl none h wr _ n c
    · exact broadcastInDim_scalar_apply _ _ _
  have hL : layerK agg h (invDeg deg) wl wr (shapeCast S1x128 bl Cert.KernelIdeal.Facts₀.shapeCasts_S128_S1x128) (ix2 n c)
      = max (((∑ j : Fin 128, (agg (ix2 n j) * Ideal.div (1 : EReal) (max (deg (ix1 n)) (1 : EReal))) * wl (ix2 c j))
              + ∑ j : Fin 128, h (ix2 n j) * wr (ix2 c j)) + bl (ix1 c)) (Ideal.ofBits .f32 0x00000000#32) := by
    unfold layerK
    refine congrArg₂ max (congrArg₂ (· + ·) (congrArg₂ (· + ·) ?_ rfl) (shapeCast_a_1a_apply bl _ 0 c)) rfl
    refine Finset.sum_congr rfl fun j _ => ?_
    exact congrArg (fun t => (agg (ix2 n j) * t) * wl (ix2 c j)) (invDeg_apply deg n)
  rw [hL, hR, hk, add_right_comm]
  refine congrArg (fun t => max ((t + bl (ix1 c)) + ∑ j : Fin 128, h (ix2 n j) * wr (ix2 c j)) (Ideal.ofBits .f32 0x00000000#32)) ?_
  exact Finset.sum_congr rfl fun j _ => congrArg (· * wl (ix2 c j)) (div_clamp (agg (ix2 n j)) k).symm

end Cert.Sage

end
-- ==== Proof.Bridge.lean ====
/-
  The two programs compute one function.

  Layer by layer the kernel program differs from the reference in two ways. It takes the segment sums over the edges
  sorted by destination: a sum over the edges arriving at a node does not depend on the order of the edges, so the
  aggregated features and the degrees are the reference's. And it multiplies the aggregated row by the reciprocal of the
  clamped degree where the reference divides by the clamped degree, and adds the bias after the second product instead
  of before it: the clamped degree is a real number at least one, so the product with its reciprocal is the quotient on
  every extended real, and addition of extended reals is commutative and associative. Batch normalisation and the output
  head are the same operations on both sides.
-/
import proofs.«126205_j20633022890229_2_alg».proof.Proof.Spec
import proofs.«126205_j20633022890229_2_alg».proof.Proof.EdgeOrderSpec
import proofs.«126205_j20633022890229_2_alg».proof.Proof.LayerAlgebra

noncomputable section

namespace Cert.Sage

open Idealize.ShloMosaic Cert.ReferenceIdeal

/-- One layer of the kernel program over the sorted edges is the reference's layer over the edges as given. -/
theorem kerLayer_eq (h : Feat) (src dst : EdgeIx) (wl wr : FVec Ideal S128x128 .f32) (bl γ β : FVec Ideal S128 .f32) :
    kerLayer h (permuteBy src (orderOf dst)) (permuteBy dst (orderOf dst)) wl wr bl γ β = refLayer h src dst wl wr bl γ β := by
  unfold kerLayer refLayer
  rw [agg_sorted_eq, deg_sorted_eq, layer_eq _ _ _ (deg_nat dst)]

/-- The kernel program's result is the reference program's, as functions of the arguments. -/
theorem kerAll_eq_refAll (x : Feat) (ei : IVec S2x800000 32) (batch : IVec S50000 32) (w4 : FVec Ideal S3x128x128 .f32)
    (b5 : FVec Ideal S3x128 .f32) (w6 : FVec Ideal S3x128x128 .f32) (g7 b8 : FVec Ideal S3x128 .f32)
    (fcw : FVec Ideal S1x128 .f32) (fcb : FVec Ideal S1 .f32) :
    kerAll x ei batch w4 b5 w6 g7 b8 fcw fcb = refAll x ei batch w4 b5 w6 g7 b8 fcw fcb := by
  unfold kerAll refAll
  simp only [kerLayer_eq]

end Cert.Sage

end
-- ==== Proof.lean ====
/-
  A three-layer GraphSAGE network (aggregate neighbours, two linear maps and a bias, relu, batch normalisation), a sum
  over the nodes of each graph, one linear output and the logistic function: a program that runs the linear part of each
  layer as a kernel launch over blocks of 5000 nodes, against a reference written with array operations only.

  The three frames: both kernel programs terminate without a fault and leave their arguments as launched (the launches'
  and host operations' own run), and so does the reference (its operations' run). The idealized kernel program is the
  kernel program's own text read over the extended reals. And at the extended reals the two idealized programs, from
  memories that agree on the arguments, end with the same result: the kernel program's result buffer holds `kerAll` of
  the arguments (its host operations evaluated and each launch's output array read as one function of its inputs), the
  reference's holds `refAll` of them, and the two are one function — a segment sum does not depend on the order of its
  edges, and a product with the reciprocal of a real number at least one is the quotient by it.
-/
import proofs.«126205_j20633022890229_2_alg».proof.Defs
import proofs.«126205_j20633022890229_2_alg».proof.Proof.Gen.Kernel
import proofs.«126205_j20633022890229_2_alg».proof.Proof.Gen.Kernel.Skeleton
import proofs.«126205_j20633022890229_2_alg».proof.Proof.Gen.Kernel.Launch
import proofs.«126205_j20633022890229_2_alg».proof.Proof.Gen.Kernel.Points
import proofs.«126205_j20633022890229_2_alg».proof.Proof.Gen.Kernel.Frame
import proofs.«126205_j20633022890229_2_alg».proof.Proof.Gen.KernelIdeal
import proofs.«126205_j20633022890229_2_alg».proof.Proof.Gen.KernelIdeal.Skeleton
import proofs.«126205_j20633022890229_2_alg».proof.Proof.Gen.KernelIdeal.Launch
import proofs.«126205_j20633022890229_2_alg».proof.Proof.Gen.KernelIdeal.Points
import proofs.«126205_j20633022890229_2_alg».proof.Proof.Gen.KernelIdeal.Frame
import proofs.«126205_j20633022890229_2_alg».proof.Proof.Gen.ReferenceIdeal
import proofs.«126205_j20633022890229_2_alg».proof.Proof.Gen.Pre_finite_inputs
import proofs.«126205_j20633022890229_2_alg».proof.Proof.KernelRun
import proofs.«126205_j20633022890229_2_alg».proof.Proof.KernelValue
import proofs.«126205_j20633022890229_2_alg».proof.Proof.RefValue
import proofs.«126205_j20633022890229_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- The ideal pass rewrote no operation of the kernel program. -/
theorem preserves : Cert.preserves_Kernel_KernelIdeal := trivial

/-- Both idealized programs end at `kerAll` of the kernel program's arguments: the kernel program by its run and the value
    of its result buffer, the reference by its run, its result term, the agreement of the arguments and the equality of
    the two functions. -/
theorem algebraic : Cert.algebraic_KernelIdeal_ReferenceIdeal := by
  intro m ρ m' ρ' _ hagree
  refine ⟨fun c => Cert.Sage.kerAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.KernelValue.result_eq m ρ c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.RefValue.run m' ρ')
    obtain ⟨e0, e1, e2, e3, e4, e5, e6, e7, e8, e9, e10⟩ := hagree c
    rw [e0, e1, e3, e4, e5, e6, e7, e8, e9, e10]
    exact (Cert.Sage.kerAll_eq_refAll _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
